-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S20x1x64 : Shape := ⟨3, ![20, 1, 64]⟩
abbrev S1x1x64 : Shape := ⟨3, ![1, 1, 64]⟩

abbrev nBuf : Space → Nat
  | .hbm => 84
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S64x64, .bf16⟩
  | .hbm, ⟨24, _⟩ => ⟨S64x64, .bf16⟩
  | .hbm, ⟨25, _⟩ => ⟨S100000x64, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S20x1x64, .f32⟩
  | .hbm, ⟨44, _⟩ => ⟨S20x1x64, .f32⟩
  | .hbm, ⟨45, _⟩ => ⟨S_, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S100000x64, .f32⟩
  | .hbm, ⟨67, _⟩ => ⟨S100000x64, .bf16⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .bf16⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .bf16⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .bf16⟩
  | .local _ .vmem, ⟨29, _⟩ => ⟨S5000x1, .f32⟩
  | .local _ .vmem, ⟨30, _⟩ => ⟨S5000x1, .f32⟩
  | .local _ .vmem, ⟨31, _⟩ => ⟨S5000x64, .f32⟩
  | .local _ .vmem, ⟨32, _⟩ => ⟨S5000x64, .f32⟩
  | .local _ .vmem, ⟨33, _⟩ => ⟨S5000x64, .bf16⟩
  | .local _ .vmem, ⟨34, _⟩ => ⟨S5000x64, .bf16⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x1, .f32⟩
  | .local _ .vmem, ⟨40, _⟩ => ⟨S5000x1, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_cst_4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem4_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x64 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S20x1x64_S1x64_d0 : S20x1x64.ReducesTo [0] S1x64
  h_S_ : 0 < S_.numel
  bcast_S_S1x64 : S_.BroadcastsInDim S1x64 (![] : Fin 0 → Fin S1x64.rank)
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S20x1x64.size a
  hwx1_5 : ∀ i : grid1.Coords, EltTy.bits .f32 = 32 ∨ (Rect.block (s := S20x1x64) S1x1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x64.size a ≤ S20x1x64.size a
  hwx1_6 : ∀ i : grid1.Coords, EltTy.bits .f32 = 32 ∨ (Rect.block (s := S20x1x64) S1x1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .bf16 = 32 ∨ (Rect.block (s := S100000x64) S5000x64.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_1) S1x1x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_2) S1x1x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v43_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v43_1) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v43_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 143
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x64, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call0_cst : Ref sig .tc := ⟨.hbm, 96, rfl⟩
abbrev main_call0_v0 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_17 : Ref sig .tc := ⟨.hbm, 120, rfl⟩
abbrev main_v91 : Ref sig .tc := ⟨.hbm, 121, rfl⟩
abbrev main_v92 : Ref sig .tc := ⟨.hbm, 122, rfl⟩
abbrev main_c_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The whole program's run, with the result array named: every weakly fair execution terminates without a fault, the
  result buffer ends at the last boundary's contents and the arguments end as launched. The boundary contents are the
  fold through the program: host stretches applied in turn, each kernel region replacing its arrays by what its
  write-backs leave.
-/
import proofs.«154069_j67044439491163_2_alg».proof.Proof.Gen.KernelIdeal.Frame

set_option maxRecDepth 16384

noncomputable section

namespace Cert.KSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_out : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KSide

end
-- ==== Proof.KHost0.lean ====
/-
  The contents the first kernel region is entered with: the host operations before it read the edge list into the
  source and destination vectors, compute every node's normalising factor and stand it up as a column, and round the two
  weight matrices to half width (the identity on the extended reals). The index vectors and the factor are the very
  terms the reference's first operations compute.
-/
import proofs.«154069_j67044439491163_2_alg».proof.Proof.Gen.KernelIdeal.Frame
import proofs.«154069_j67044439491163_2_alg».proof.Proof.Gen.ReferenceIdeal.Read

import Idealize.ShloMosaic.Lib.StableHlo.Run

set_option maxRecDepth 16384

noncomputable section

namespace Cert.KSide

open Cert.KernelIdeal Cert.KernelIdeal.Gen
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) := by
  show StableHlo.after hostOps0 (W0 m ρ c) (Proc.devRef .tc main_arg0) = _
  after_results
  try rfl

theorem W1_v12 (c : Dev nD) : (W1 m ρ c (Proc.devRef .tc main_v12) : S64x64.Idx → EReal) = m ((c : Thread nD τ).loc main_arg2) := by
  show StableHlo.after hostOps0 (W0 m ρ c) (Proc.devRef .tc main_v12) = _
  after_results
  try rfl

theorem W1_v13 (c : Dev nD) : (W1 m ρ c (Proc.devRef .tc main_v13) : S64x64.Idx → EReal) = m ((c : Thread nD τ).loc main_arg6) := by
  show StableHlo.after hostOps0 (W0 m ρ c) (Proc.devRef .tc main_v13) = _
  after_results
  try rfl

theorem W1_v1 (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results
  try rfl

theorem W1_v3 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results
  try rfl

theorem W1_v11 (c : Dev nD) : W1 m ρ c (Proc.devRef .tc main_v11)
    = shapeCast S100000x1 (Cert.ReferenceIdeal.Read.val_main_v10 (F := Ideal) (m ((c : Thread nD τ).loc main_arg1))) shapeCasts_S100000_S100000x1 := by
  show StableHlo.after hostOps0 (W0 m ρ c) (Proc.devRef .tc main_v11) = _
  after_results
  try rfl

theorem W1_arg3 (c : Dev nD) : W1 m ρ c (Proc.devRef .tc main_arg3) = m ((c : Thread nD τ).loc main_arg3) := by
  show StableHlo.after hostOps0 (W0 m ρ c) (Proc.devRef .tc main_arg3) = _
  after_results
  try rfl
theorem W1_arg4 (c : Dev nD) : W1 m ρ c (Proc.devRef .tc main_arg4) = m ((c : Thread nD τ).loc main_arg4) := by
  show StableHlo.after hostOps0 (W0 m ρ c) (Proc.devRef .tc main_arg4) = _
  after_results
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl
theorem W1_arg7 (c : Dev nD) : W1 m ρ c (Proc.devRef .tc main_arg7) = m ((c : Thread nD τ).loc main_arg7) := by
  show StableHlo.after hostOps0 (W0 m ρ c) (Proc.devRef .tc main_arg7) = _
  after_results
  try rfl

end Cert.KSide

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.KPay.lean ====
/-
  What each kernel body computes, read at one entry of its result block, on the extended reals.

  A block is 5000 consecutive rows. Rounding to and from the half-width format is the identity here, so:
    * the first body: (x·W)(r, q) = Σ_k x(r, k) · W(k, q), and that times the row's factor d(r, 0);
    * the combine body: d(r,0) · (agg(r,q) + d(r,0) · h(r,q)) + b(0,q); its column sums over the block's rows, and the
      column sums of its squares, laid out as [1, 1, 64];
    * the normalise-rectify-multiply body: y(r,k) = max (((h(r,k) − μ(0,k)) · s(0,k)) · γ(0,k) + β(0,k), 0), then
      (y·W)(r, q), and that times d(r, 0).
-/
import proofs.«154069_j67044439491163_2_alg».proof.Proof.Gen.KernelIdeal.Skeleton
import proofs.«154069_j67044439491163_2_alg».proof.Proof.LibRowOps
import proofs.«154069_j67044439491163_2_alg».proof.Proof.LibSoftLayout
import Idealize.ShloMosaic.Lib.Pipeline.Value
import Idealize.ShloMosaic.Lib.ValueIdx
import Idealize.ShloMosaic.PureOps.Ideal.Laws

noncomputable section

namespace Cert.KSide

open Cert.KernelIdeal Cert.KernelIdeal.Gen Idealize.ShloMosaic Idealize.ShloMosaic.ValueIdx
open scoped BigOperators

/-- The matrix product of a block with the weights at entry (r, q). -/
theorem pay0_1_apply (x0 : Vec Ideal S5000x64 .f32) (x1 : Vec Ideal S64x64 .bf16) (r : Fin 5000) (q : Fin 64) :
    k0_pay1 (F := Ideal) x0 x1 (ix2 r q) = ∑ k : Fin 64, x0 (ix2 r k) * x1 (ix2 k q) := by
  unfold k0_pay1
  refine (RowOps.matmul_apply dot_S5000x64_S64x64_S5000x64_1_0_0_1_n_n rfl none _ _ r q).trans ?_
  refine Finset.sum_congr rfl fun k _ => ?_
  rw [shapeCast_self]
  rfl

/-- The product scaled by the row's factor at entry (r, q). -/
theorem pay0_2_apply (x0 : Vec Ideal S5000x64 .f32) (x1 : Vec Ideal S64x64 .bf16) (x2 : Vec Ideal S5000x1 .f32)
    (r : Fin 5000) (q : Fin 64) :
    k0_pay2 (F := Ideal) x0 x1 x2 (ix2 r q) = (∑ k : Fin 64, x0 (ix2 r k) * x1 (ix2 k q)) * x2 (ix2 r (0 : Fin 1)) := by
  unfold k0_pay2
  show k0_pay1 (F := Ideal) x0 x1 (ix2 r q) * broadcastTo S5000x64 (shapeCast S5000x1 x2 shapeCasts_S5000x1_S5000x1) broadcasts_S5000x1_S5000x64 (ix2 r q) = _
  rw [pay0_1_apply, RowOps.col_to_apply, shapeCast_self]

/-- The combine body at entry (r, q). -/
theorem pay1_1_apply (d : Vec Ideal S5000x1 .f32) (agg h : Vec Ideal S5000x64 .f32) (b : Vec Ideal S1x64 .f32)
    (r : Fin 5000) (q : Fin 64) :
    k1_pay1 (F := Ideal) d agg h b (ix2 r q)
      = d (ix2 r (0 : Fin 1)) * (agg (ix2 r q) + d (ix2 r (0 : Fin 1)) * h (ix2 r q)) + b (ix2 (0 : Fin 1) q) := by
  unfold k1_pay1
  show broadcastTo S5000x64 (shapeCast S5000x1 d shapeCasts_S5000x1_S5000x1) broadcasts_S5000x1_S5000x64 (ix2 r q)
      * (shapeCast S5000x64 agg shapeCasts_S5000x64_S5000x64 (ix2 r q)
        + broadcastTo S5000x64 (shapeCast S5000x1 d shapeCasts_S5000x1_S5000x1) broadcasts_S5000x1_S5000x64 (ix2 r q)
          * shapeCast S5000x64 h shapeCasts_S5000x64_S5000x64 (ix2 r q))
      + broadcastTo S5000x64 (shapeCast S1x64 b shapeCasts_S1x64_S1x64) broadcasts_S1x64_S5000x64 (ix2 r q) = _
  rw [RowOps.col_to_apply, SoftLayout.row_to_apply]
  simp only [shapeCast_self]

/-- The final combine body is the same function. -/
theorem pay3_1_apply (d : Vec Ideal S5000x1 .f32) (agg h : Vec Ideal S5000x64 .f32) (b : Vec Ideal S1x64 .f32)
    (r : Fin 5000) (q : Fin 64) :
    k3_pay1 (F := Ideal) d agg h b (ix2 r q)
      = d (ix2 r (0 : Fin 1)) * (agg (ix2 r q) + d (ix2 r (0 : Fin 1)) * h (ix2 r q)) + b (ix2 (0 : Fin 1) q) := by
  unfold k3_pay1
  show broadcastTo S5000x64 (shapeCast S5000x1 d shapeCasts_S5000x1_S5000x1) broadcasts_S5000x1_S5000x64 (ix2 r q)
      * (shapeCast S5000x64 agg shapeCasts_S5000x64_S5000x64 (ix2 r q)
        + broadcastTo S5000x64 (shapeCast S5000x1 d shapeCasts_S5000x1_S5000x1) broadcasts_S5000x1_S5000x64 (ix2 r q)
          * shapeCast S5000x64 h shapeCasts_S5000x64_S5000x64 (ix2 r q))
      + broadcastTo S5000x64 (shapeCast S1x64 b shapeCasts_S1x64_S1x64) broadcasts_S1x64_S5000x64 (ix2 r q) = _
  rw [RowOps.col_to_apply, SoftLayout.row_to_apply]
  simp only [shapeCast_self]

/-- The block's column sums at (0, 0, q). -/
theorem pay1_2_apply (d : Vec Ideal S5000x1 .f32) (agg h : Vec Ideal S5000x64 .f32) (b : Vec Ideal S1x64 .f32)
    (q : Fin 64) :
    k1_pay2 (F := Ideal) d agg h b (ix3 (0 : Fin 1) (0 : Fin 1) q)
      = ∑ r : Fin 5000, k1_pay1 (F := Ideal) d agg h b (ix2 r q) := by
  unfold k1_pay2
  refine (SoftLayout.add_lead_apply shapeCasts_S1x64_S1x1x64 _ (0 : Fin 1) (0 : Fin 1) q).trans ?_
  refine (SoftLayout.vec_row_cast_apply shapeCasts_S64_S1x64 _ (0 : Fin 1) q).trans ?_
  exact SoftLayout.colsum_apply _ reduces_S5000x64_S64 (.inl rfl) rfl q

/-- The block's column sums of squares at (0, 0, q). -/
theorem pay1_3_apply (d : Vec Ideal S5000x1 .f32) (agg h : Vec Ideal S5000x64 .f32) (b : Vec Ideal S1x64 .f32)
    (q : Fin 64) :
    k1_pay3 (F := Ideal) d agg h b (ix3 (0 : Fin 1) (0 : Fin 1) q)
      = ∑ r : Fin 5000, k1_pay1 (F := Ideal) d agg h b (ix2 r q) * k1_pay1 (F := Ideal) d agg h b (ix2 r q) := by
  unfold k1_pay3
  refine (SoftLayout.add_lead_apply shapeCasts_S1x64_S1x1x64 _ (0 : Fin 1) (0 : Fin 1) q).trans ?_
  refine (SoftLayout.vec_row_cast_apply shapeCasts_S64_S1x64 _ (0 : Fin 1) q).trans ?_
  exact SoftLayout.colsum_apply _ reduces_S5000x64_S64 (.inl rfl) rfl q

/-- The normalise-rectify-multiply body at entry (r, q). -/
theorem pay2_1_apply (h : Vec Ideal S5000x64 .f32) (mu rs ga be : Vec Ideal S1x64 .f32) (w : Vec Ideal S64x64 .bf16)
    (r : Fin 5000) (q : Fin 64) :
    k2_pay1 (F := Ideal) h mu rs ga be w (ix2 r q)
      = ∑ k : Fin 64, max ((((h (ix2 r k) - mu (ix2 (0 : Fin 1) k)) * rs (ix2 (0 : Fin 1) k)) * ga (ix2 (0 : Fin 1) k))
          + be (ix2 (0 : Fin 1) k)) 0 * w (ix2 k q) := by
  unfold k2_pay1
  refine (RowOps.matmul_apply dot_S5000x64_S64x64_S5000x64_1_0_0_1_n_n rfl none _ _ r q).trans ?_
  refine Finset.sum_congr rfl fun k _ => ?_
  simp only [shapeCast_self]
  show max ((((h (ix2 r k)
        - broadcastTo S5000x64 mu broadcasts_S1x64_S5000x64 (ix2 r k))
        * broadcastTo S5000x64 rs broadcasts_S1x64_S5000x64 (ix2 r k))
        * broadcastTo S5000x64 ga broadcasts_S1x64_S5000x64 (ix2 r k))
        + broadcastTo S5000x64 be broadcasts_S1x64_S5000x64 (ix2 r k))
      (Ideal.ofBits .f32 0x00000000#32) * w (ix2 k q) = _
  rw [Ideal.ofBits_zero_f32]
  simp only [SoftLayout.row_to_apply]

/-- That product scaled by the row's factor. -/
theorem pay2_2_apply (h : Vec Ideal S5000x64 .f32) (mu rs ga be : Vec Ideal S1x64 .f32) (w : Vec Ideal S64x64 .bf16)
    (d : Vec Ideal S5000x1 .f32) (r : Fin 5000) (q : Fin 64) :
    k2_pay2 (F := Ideal) h mu rs ga be w d (ix2 r q)
      = k2_pay1 (F := Ideal) h mu rs ga be w (ix2 r q) * d (ix2 r (0 : Fin 1)) := by
  unfold k2_pay2
  show k2_pay1 (F := Ideal) h mu rs ga be w (ix2 r q)
      * broadcastTo S5000x64 (shapeCast S5000x1 d shapeCasts_S5000x1_S5000x1) broadcasts_S5000x1_S5000x64 (ix2 r q) = _
  rw [RowOps.col_to_apply, shapeCast_self]

end Cert.KSide

end
-- ==== Proof.Spec.lean ====
/-
  Two layers of graph convolution with a batch normalisation and a rectifier between them, written entry by entry on
  the extended reals, in the two arrangements that are to be compared.

  Nodes are numbered below 100000, edges below 1600000, channels below 64. Every edge e has a source row `sr e` and a
  destination row `dr e`; `land n` is the set of edges that arrive at node n; `dis n` is the node's normalising factor
  (the reciprocal square root of one plus its in-degree).

  One convolution of a matrix H with bias b:
    * factored arrangement:  dis n · ((0 + Σ_{e ∈ land n} H (sr e) j · dis (sr e)) + dis n · H n j) + b j
    * per-edge arrangement:  ((0 + Σ_{e ∈ land n} H (sr e) j · (dis (sr e) · dis (dr e))) + H n j · (dis n · dis n)) + b j
  The batch statistics of a matrix h, per channel:
    * from per-tile partial sums (20 tiles of 5000 rows): mean = (0 + Σ_t Σ_r h) / 100000, second moment likewise,
      variance = max (second moment − mean², 0);
    * directly: mean = (0 + Σ_n h) / 100000, variance = (0 + Σ_n (h − mean)²) / 100000.
  The normalised, rectified matrix is max (((h − mean) · rsqrt (variance + ε)) · γ + β, 0).
-/
import Mathlib
import Idealize.ShloMosaic.PureOps.Ideal

noncomputable section

namespace Gcn2

open Idealize.ShloMosaic
open scoped BigOperators

/-- A matrix of node features. -/
abbrev Mat := Fin 100000 → Fin 64 → EReal
/-- A weight matrix. -/
abbrev Wt := Fin 64 → Fin 64 → EReal
/-- One value per channel. -/
abbrev Chan := Fin 64 → EReal

/-- Row r of tile t: tiles are 5000 consecutive rows. -/
def tileRow (t : Fin 20) (r : Fin 5000) : Fin 100000 := ⟨t.val * 5000 + r.val, by have := t.isLt; have := r.isLt; omega⟩

/-- The number of nodes as a float: the word of 100000.0. -/
def cN : EReal := Ideal.ofBits .f32 0x47C35000#32
/-- The variance offset ε: the word of 1e-5 rounded to single precision. -/
def cEps : EReal := Ideal.ofBits .f32 0x3727C5AC#32

/-- The matrix product X · W at entry (n, j). -/
def mm (X : Mat) (W : Wt) : Mat := fun n j => ∑ k : Fin 64, X n k * W k j

variable (dis : Fin 100000 → EReal) (land : Fin 100000 → Finset (Fin 1600000)) (sr dr : Fin 1600000 → Fin 100000)

/-- One convolution, factored arrangement: rows scaled once per node, aggregated, scaled again. -/
def convK (H : Mat) (b : Chan) : Mat := fun n j =>
  dis n * ((0 + ∑ e ∈ land n, H (sr e) j * dis (sr e)) + dis n * H n j) + b j

/-- One convolution, per-edge arrangement: every edge carries the product of its two end factors. -/
def convR (H : Mat) (b : Chan) : Mat := fun n j =>
  ((0 + ∑ e ∈ land n, H (sr e) j * (dis (sr e) * dis (dr e))) + H n j * (dis n * dis n)) + b j

/-- Channel mean from per-tile partial sums. -/
def meanK (h : Mat) : Chan := fun j => Ideal.div (0 + ∑ t : Fin 20, ∑ r : Fin 5000, h (tileRow t r) j) cN
/-- Channel second moment from per-tile partial sums. -/
def ex2K (h : Mat) : Chan := fun j => Ideal.div (0 + ∑ t : Fin 20, ∑ r : Fin 5000, h (tileRow t r) j * h (tileRow t r) j) cN
/-- Channel variance as second moment minus squared mean, cut at zero. -/
def varK (h : Mat) : Chan := fun j => max (ex2K h j - meanK h j * meanK h j) 0
/-- Reciprocal standard deviation, from `varK`. -/
def rstdK (h : Mat) : Chan := fun j => Ideal.rsqrt (varK h j + cEps)

/-- Channel mean, summed over all nodes at once. -/
def meanR (h : Mat) : Chan := fun j => Ideal.div (0 + ∑ n : Fin 100000, h n j) cN
/-- Channel variance as the mean squared deviation. -/
def varR (h : Mat) : Chan := fun j => Ideal.div (0 + ∑ n : Fin 100000, (h n j - meanR h j) * (h n j - meanR h j)) cN
/-- Reciprocal standard deviation, from `varR`. -/
def rstdR (h : Mat) : Chan := fun j => Ideal.rsqrt (varR h j + cEps)

/-- Normalise with the given statistics, scale, shift, rectify. -/
def bnrelu (h : Mat) (mean rstd gamma beta : Chan) : Mat := fun n j =>
  max ((((h n j - mean j) * rstd j) * gamma j) + beta j) 0

/-- The whole network, factored arrangement with tiled statistics. -/
def outK (x : Mat) (W1 : Wt) (b1 gamma beta : Chan) (W2 : Wt) (b2 : Chan) : Mat :=
  convK dis land sr (mm (bnrelu (convK dis land sr (mm x W1) b1) (meanK (convK dis land sr (mm x W1) b1))
    (rstdK (convK dis land sr (mm x W1) b1)) gamma beta) W2) b2

/-- The whole network, per-edge arrangement with direct statistics. -/
def outR (x : Mat) (W1 : Wt) (b1 gamma beta : Chan) (W2 : Wt) (b2 : Chan) : Mat :=
  convR dis land sr dr (mm (bnrelu (convR dis land sr dr (mm x W1) b1) (meanR (convR dis land sr dr (mm x W1) b1))
    (rstdR (convR dis land sr dr (mm x W1) b1)) gamma beta) W2) b2

/-- An extended real that is the image of a real number. -/
def IsReal (x : EReal) : Prop := ∃ r : ℝ, x = (r : EReal)

end Gcn2

end
-- ==== Proof.KBlk.lean ====
/-
  Arrays written by their coordinates, and the entry functions of the four kernel regions: the product of the node
  matrix with a weight matrix; that product with every row scaled by the node's factor; the combine step
  d n · (agg n q + d n · h n q) + b q; its per-tile column sums and column sums of squares; the normalised, rectified
  matrix times a weight matrix.
-/
import Idealize.ShloMosaic.Lib.ValueIdx
import Idealize.ShloMosaic.PureOps.Ideal
import proofs.«154069_j67044439491163_2_alg».proof.Proof.Spec

noncomputable section

namespace Cert.KSide

open Idealize.ShloMosaic Idealize.ShloMosaic.ValueIdx
open scoped BigOperators

/-- A [100000, 64] array from a function of the row and the column. -/
def arr2 (g : Fin 100000 → Fin 64 → EReal) : (⟨2, ![100000, 64]⟩ : Shape).Idx → EReal :=
  fun i => g ⟨(i 0).val, (i 0).isLt⟩ ⟨(i 1).val, (i 1).isLt⟩

theorem arr2_ix2 (g : Fin 100000 → Fin 64 → EReal) (n : Fin 100000) (j : Fin 64) : arr2 g (ix2 n j) = g n j := rfl

/-- A [20, 1, 64] array from a function of the tile and the column. -/
def arr3 (g : Fin 20 → Fin 64 → EReal) : (⟨3, ![20, 1, 64]⟩ : Shape).Idx → EReal :=
  fun i => g ⟨(i 0).val, (i 0).isLt⟩ ⟨(i 2).val, (i 2).isLt⟩

theorem arr3_ix3 (g : Fin 20 → Fin 64 → EReal) (t : Fin 20) (z : Fin 1) (j : Fin 64) : arr3 g (ix3 t z j) = g t j := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- A [100000, 64] array by its coordinates. -/
def matOf (x : (⟨2, ![100000, 64]⟩ : Shape).Idx → EReal) : Gcn2.Mat := fun n k => x (ix2 n k)
/-- A [64, 64] array by its coordinates. -/
def wtOf (x : (⟨2, ![64, 64]⟩ : Shape).Idx → EReal) : Gcn2.Wt := fun k j => x (ix2 k j)
/-- A row [1, 64] by its column. -/
def rowOf (x : (⟨2, ![1, 64]⟩ : Shape).Idx → EReal) : Gcn2.Chan := fun j => x (ix2 (0 : Fin 1) j)
/-- A column [100000, 1] by its row. -/
def colOf (x : (⟨2, ![100000, 1]⟩ : Shape).Idx → EReal) : Fin 100000 → EReal := fun n => x (ix2 n (0 : Fin 1))

/-- The combine step at an entry. -/
def comb (d : Fin 100000 → EReal) (ag hp : Gcn2.Mat) (b : Gcn2.Chan) : Gcn2.Mat :=
  fun n q => d n * (ag n q + d n * hp n q) + b q

/-- The product array. -/
def Gmm (x : (⟨2, ![100000, 64]⟩ : Shape).Idx → EReal) (w : (⟨2, ![64, 64]⟩ : Shape).Idx → EReal) :
    (⟨2, ![100000, 64]⟩ : Shape).Idx → EReal := arr2 (Gcn2.mm (matOf x) (wtOf w))

/-- The product array with each row scaled by the node's factor. -/
def Gmms (x : (⟨2, ![100000, 64]⟩ : Shape).Idx → EReal) (w : (⟨2, ![64, 64]⟩ : Shape).Idx → EReal)
    (d : (⟨2, ![100000, 1]⟩ : Shape).Idx → EReal) : (⟨2, ![100000, 64]⟩ : Shape).Idx → EReal :=
  arr2 fun n j => Gcn2.mm (matOf x) (wtOf w) n j * colOf d n

/-- The combined array. -/
def Gc (hp ag : (⟨2, ![100000, 64]⟩ : Shape).Idx → EReal) (d : (⟨2, ![100000, 1]⟩ : Shape).Idx → EReal)
    (b : (⟨2, ![1, 64]⟩ : Shape).Idx → EReal) : (⟨2, ![100000, 64]⟩ : Shape).Idx → EReal :=
  arr2 (comb (colOf d) (matOf ag) (matOf hp) (rowOf b))

/-- Per-tile column sums of the combined array. -/
def Gsum (hp ag : (⟨2, ![100000, 64]⟩ : Shape).Idx → EReal) (d : (⟨2, ![100000, 1]⟩ : Shape).Idx → EReal)
    (b : (⟨2, ![1, 64]⟩ : Shape).Idx → EReal) : (⟨3, ![20, 1, 64]⟩ : Shape).Idx → EReal :=
  arr3 fun t j => ∑ r : Fin 5000, comb (colOf d) (matOf ag) (matOf hp) (rowOf b) (Gcn2.tileRow t r) j

/-- Per-tile column sums of the combined array's squares. -/
def Gsq (hp ag : (⟨2, ![100000, 64]⟩ : Shape).Idx → EReal) (d : (⟨2, ![100000, 1]⟩ : Shape).Idx → EReal)
    (b : (⟨2, ![1, 64]⟩ : Shape).Idx → EReal) : (⟨3, ![20, 1, 64]⟩ : Shape).Idx → EReal :=
  arr3 fun t j => ∑ r : Fin 5000, comb (colOf d) (matOf ag) (matOf hp) (rowOf b) (Gcn2.tileRow t r) j
    * comb (colOf d) (matOf ag) (matOf hp) (rowOf b) (Gcn2.tileRow t r) j

/-- The normalised, rectified matrix times the weights. -/
def Gbn (h : (⟨2, ![100000, 64]⟩ : Shape).Idx → EReal) (mu rs ga be : (⟨2, ![1, 64]⟩ : Shape).Idx → EReal)
    (w : (⟨2, ![64, 64]⟩ : Shape).Idx → EReal) : (⟨2, ![100000, 64]⟩ : Shape).Idx → EReal :=
  arr2 (Gcn2.mm (Gcn2.bnrelu (matOf h) (rowOf mu) (rowOf rs) (rowOf ga) (rowOf be)) (wtOf w))

/-- The same with each row scaled by the node's factor. -/
def Gbns (h : (⟨2, ![100000, 64]⟩ : Shape).Idx → EReal) (mu rs ga be : (⟨2, ![1, 64]⟩ : Shape).Idx → EReal)
    (w : (⟨2, ![64, 64]⟩ : Shape).Idx → EReal) (d : (⟨2, ![100000, 1]⟩ : Shape).Idx → EReal) :
    (⟨2, ![100000, 64]⟩ : Shape).Idx → EReal :=
  arr2 fun n j => Gcn2.mm (Gcn2.bnrelu (matOf h) (rowOf mu) (rowOf rs) (rowOf ga) (rowOf be)) (wtOf w) n j * colOf d n

end Cert.KSide

end
-- ==== Proof.Region0.lean ====
/-
  The first kernel region: each point t takes rows 5000·t … 5000·t + 4999 of the node matrix, multiplies them by the
  weight matrix, and writes the product and the product scaled by each row's factor. Its two result arrays therefore
  hold, at every entry (n, q), Σ_k x(n,k)·W(k,q) and that times d(n,0).
-/
import proofs.«154069_j67044439491163_2_alg».proof.Proof.Gen.KernelIdeal.Frame
import proofs.«154069_j67044439491163_2_alg».proof.Proof.KPay
import proofs.«154069_j67044439491163_2_alg».proof.Proof.KBlk
import Idealize.ShloMosaic.Lib.Pipeline.Value

set_option maxRecDepth 16384

noncomputable section

namespace Cert.KSide

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Where each window's block sits at point t. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

theorem blk0_0 (c : Dev nD) (t : Fin cfg0.N) (r : Fin 5000) (n : Fin 100000) (hn : n.val = t.val * 5000 + r.val) (q : Fin 64) :
    (iblk0 V c 0 t : Vec Ideal S5000x64 .f32) (ix2 r q) = (V c main_arg0 : S100000x64.Idx → EReal) (ix2 n q) := by
  unfold iblk0
  rw [View.read_apply]
  show V c main_arg0 _ = V c main_arg0 _
  congr 1
  funext a
  apply Fin.ext
  match a with
  | ⟨0, _⟩ => show win0_0.index t (0 : Fin 2) * 5000 + 1 * r.val = n.val; rw [(idx0 t).1, hn]; omega
  | ⟨1, _⟩ => show win0_0.index t (1 : Fin 2) * 64 + 1 * q.val = q.val; rw [(idx0 t).2.1]; omega

theorem blk0_1 (c : Dev nD) (t : Fin cfg0.N) (k : Fin 64) (q : Fin 64) :
    (iblk0 V c 1 t : Vec Ideal S64x64 .bf16) (ix2 k q) = (V c main_v12 : S64x64.Idx → EReal) (ix2 k q) := by
  unfold iblk0
  rw [View.read_apply]
  show V c main_v12 _ = V c main_v12 _
  congr 1
  funext a
  apply Fin.ext
  match a with
  | ⟨0, _⟩ => show win0_1.index t (0 : Fin 2) * 64 + 1 * k.val = k.val; rw [(idx0 t).2.2.1]; omega
  | ⟨1, _⟩ => show win0_1.index t (1 : Fin 2) * 64 + 1 * q.val = q.val; rw [(idx0 t).2.2.2.1]; omega

theorem blk0_2 (c : Dev nD) (t : Fin cfg0.N) (r : Fin 5000) (n : Fin 100000) (hn : n.val = t.val * 5000 + r.val) (q : Fin 1) :
    (iblk0 V c 2 t : Vec Ideal S5000x1 .f32) (ix2 r q) = (V c main_v11 : S100000x1.Idx → EReal) (ix2 n q) := by
  unfold iblk0
  rw [View.read_apply]
  show V c main_v11 _ = V c main_v11 _
  congr 1
  funext a
  apply Fin.ext
  match a with
  | ⟨0, _⟩ => show win0_2.index t (0 : Fin 2) * 5000 + 1 * r.val = n.val; rw [(idx0 t).2.2.2.2.1, hn]; omega
  | ⟨1, _⟩ => show win0_2.index t (1 : Fin 2) * 1 + 1 * q.val = q.val; rw [(idx0 t).2.2.2.2.2.1]; omega

theorem emb0_3 (t : Fin cfg0.N) (r : Fin 5000) (q : Fin 64) (n : Fin 100000) (hn : n.val = t.val * 5000 + r.val) :
    ((cfg0.win 3).blk t).view.emb (ix2 r q) = (ix2 n q : S100000x64.Idx) := by
  funext a
  apply Fin.ext
  match a with
  | ⟨0, _⟩ => show win0_3.index t (0 : Fin 2) * 5000 + 1 * r.val = n.val; rw [(idx0 t).2.2.2.2.2.2.1, hn]; omega
  | ⟨1, _⟩ => show win0_3.index t (1 : Fin 2) * 64 + 1 * q.val = q.val; rw [(idx0 t).2.2.2.2.2.2.2.1]; omega

theorem mem_blk0_3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v14_0).slice (win0_3.rect t)).set ↔ _
  rw [View.set_slice_whole, Rect.mem_set_unit]
  exact Iff.rfl

/-- Every entry of the array lies in the block of the point its row belongs to. -/
theorem cover0_3' (i : S100000x64.Idx) :
    ∃ t : Fin cfg0.N, (cfg0.win 3).flush t = true ∧ i ∈ ((cfg0.win 3).blk t).view.set := by
  have hN : cfg0.N = 20 := N_0
  have h0 : (i 0).val < 100000 := (i 0).isLt
  have h1 : (i 1).val < 64 := (i 1).isLt
  have hq : (i 0).val / 5000 < cfg0.N := by omega
  refine ⟨⟨(i 0).val / 5000, hq⟩, flush0_3 _, ?_⟩
  rw [mem_blk0_3]
  intro a
  have e0 := (idx0 ⟨(i 0).val / 5000, hq⟩).2.2.2.2.2.2.1
  have e1 := (idx0 ⟨(i 0).val / 5000, hq⟩).2.2.2.2.2.2.2.1
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hq⟩ (1 : Fin 2) * 64 ≤ (i 1).val
      ∧ (i 1).val < win0_3.index ⟨(i 0).val / 5000, hq⟩ (1 : Fin 2) * 64 + 64
    rw [e1]
    omega

theorem emb0_4 (t : Fin cfg0.N) (r : Fin 5000) (q : Fin 64) (n : Fin 100000) (hn : n.val = t.val * 5000 + r.val) :
    ((cfg0.win 4).blk t).view.emb (ix2 r q) = (ix2 n q : S100000x64.Idx) := by
  funext a
  apply Fin.ext
  match a with
  | ⟨0, _⟩ => show win0_4.index t (0 : Fin 2) * 5000 + 1 * r.val = n.val; rw [(idx0 t).2.2.2.2.2.2.2.2.1, hn]; omega
  | ⟨1, _⟩ => show win0_4.index t (1 : Fin 2) * 64 + 1 * q.val = q.val; rw [(idx0 t).2.2.2.2.2.2.2.2.2]; omega

theorem mem_blk0_4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v14_1).slice (win0_4.rect t)).set ↔ _
  rw [View.set_slice_whole, Rect.mem_set_unit]
  exact Iff.rfl

/-- Every entry of the array lies in the block of the point its row belongs to. -/
theorem cover0_4' (i : S100000x64.Idx) :
    ∃ t : Fin cfg0.N, (cfg0.win 4).flush t = true ∧ i ∈ ((cfg0.win 4).blk t).view.set := by
  have hN : cfg0.N = 20 := N_0
  have h0 : (i 0).val < 100000 := (i 0).isLt
  have h1 : (i 1).val < 64 := (i 1).isLt
  have hq : (i 0).val / 5000 < cfg0.N := by omega
  refine ⟨⟨(i 0).val / 5000, hq⟩, flush0_4 _, ?_⟩
  rw [mem_blk0_4]
  intro a
  have e0 := (idx0 ⟨(i 0).val / 5000, hq⟩).2.2.2.2.2.2.2.2.1
  have e1 := (idx0 ⟨(i 0).val / 5000, hq⟩).2.2.2.2.2.2.2.2.2
  match a with
  | ⟨0, _⟩ =>
    show win0_4.index ⟨(i 0).val / 5000, hq⟩ (0 : Fin 2) * 5000 ≤ (i 0).val
      ∧ (i 0).val < win0_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hq⟩ (1 : Fin 2) * 64 ≤ (i 1).val
      ∧ (i 1).val < win0_4.index ⟨(i 0).val / 5000, hq⟩ (1 : Fin 2) * 64 + 64
    rw [e1]
    omega

/-- What point t writes back to the product array is block t of the whole product. -/
theorem flushed0_3 (c : Dev nD) (t : Fin cfg0.N) :
    (dat0 V c).flushed 3 t = ((cfg0.win 3).blk t).view.read (Elt Ideal) (Gmm (V c main_arg0) (V c main_v12)) := by
  show (cfg0.win 3).cut (grid0.coords t) ((dat0 V c).after 3 t) = _
  rw [after0_3]
  unfold out0_3
  rw [View.canon_unit_zero hz2]
  simp only [View.ld_unit_zero (S := S5000x64) hz2, View.ld_unit_zero (S := S64x64) hz2]
  funext y
  obtain ⟨r, q, rfl⟩ : ∃ (r : Fin 5000) (q : Fin 64), y = ix2 r q := ⟨y 0, y 1, eq_ix2 y⟩
  have hN : cfg0.N = 20 := N_0
  have ht := t.isLt
  have hr := r.isLt
  have hlt : t.val * 5000 + r.val < 100000 := by omega
  refine (pay0_1_apply (iblk0 V c 0 t) (iblk0 V c 1 t) r q).trans ?_
  rw [View.read_apply, emb0_3 t r q ⟨t.val * 5000 + r.val, hlt⟩ rfl]
  show _ = Gcn2.mm (matOf (V c main_arg0)) (wtOf (V c main_v12)) ⟨t.val * 5000 + r.val, hlt⟩ q
  exact Finset.sum_congr rfl fun k _ => by
    rw [blk0_0 V c t r ⟨t.val * 5000 + r.val, hlt⟩ rfl k, blk0_1 V c t k q]; rfl

/-- What point t writes back to the scaled array is block t of the whole scaled product. -/
theorem flushed0_4 (c : Dev nD) (t : Fin cfg0.N) :
    (dat0 V c).flushed 4 t = ((cfg0.win 4).blk t).view.read (Elt Ideal) (Gmms (V c main_arg0) (V c main_v12) (V c main_v11)) := by
  show (cfg0.win 4).cut (grid0.coords t) ((dat0 V c).after 4 t) = _
  rw [after0_4]
  unfold out0_4
  rw [View.canon_unit_zero hz2]
  simp only [View.ld_unit_zero (S := S5000x64) hz2, View.ld_unit_zero (S := S64x64) hz2, View.ld_unit_zero (S := S5000x1) hz2]
  funext y
  obtain ⟨r, q, rfl⟩ : ∃ (r : Fin 5000) (q : Fin 64), y = ix2 r q := ⟨y 0, y 1, eq_ix2 y⟩
  have hN : cfg0.N = 20 := N_0
  have ht := t.isLt
  have hr := r.isLt
  have hlt : t.val * 5000 + r.val < 100000 := by omega
  refine (pay0_2_apply (iblk0 V c 0 t) (iblk0 V c 1 t) (iblk0 V c 2 t) r q).trans ?_
  rw [View.read_apply, emb0_4 t r q ⟨t.val * 5000 + r.val, hlt⟩ rfl, blk0_2 V c t r ⟨t.val * 5000 + r.val, hlt⟩ rfl 0]
  show _ = Gcn2.mm (matOf (V c main_arg0)) (wtOf (V c main_v12)) ⟨t.val * 5000 + r.val, hlt⟩ q
      * colOf (V c main_v11) ⟨t.val * 5000 + r.val, hlt⟩
  exact congrArg₂ (fun a b : EReal => a * b) (Finset.sum_congr rfl fun k _ => by
    rw [blk0_0 V c t r ⟨t.val * 5000 + r.val, hlt⟩ rfl k, blk0_1 V c t k q]; rfl) rfl

/-- The product array after the region. -/
theorem final0_3 (c : Dev nD) : (dat0 V c).arrAt 3 cfg0.N = Gmm (V c main_arg0) (V c main_v12) :=
  (dat0 V c).arrAt_eq_of_cover 3 _ (fun t _ => flushed0_3 V c t) cover0_3'

/-- The scaled array after the region. -/
theorem final0_4 (c : Dev nD) : (dat0 V c).arrAt 4 cfg0.N = Gmms (V c main_arg0) (V c main_v12) (V c main_v11) :=
  (dat0 V c).arrAt_eq_of_cover 4 _ (fun t _ => flushed0_4 V c t) cover0_4'

end Cert.KSide

end
-- ==== Proof.KTerms.lean ====
/-
  The host-side terms of the kernel program that depend on the edge list: the nodes' factors stood up as a column, the
  column of source numbers (negative ones wrapped by +100000), the column of destination numbers, and the aggregation
  of a matrix's rows along the edges (gather at the sources, accumulate at the destinations into a zero matrix). The
  index vectors and the factors are the terms the reference's own first operations compute.
-/
import proofs.«154069_j67044439491163_2_alg».proof.Proof.Gen.KernelIdeal
import proofs.«154069_j67044439491163_2_alg».proof.Proof.Gen.ReferenceIdeal.Read

noncomputable section

namespace Cert.KSide

open Cert.KernelIdeal Cert.KernelIdeal.Gen Idealize.ShloMosaic

/-- The edge list's contents. -/
abbrev EdgesK := (⟨Cert.ReferenceIdeal.S2x1600000, .i32⟩ : BufTy).Contents (Elt Ideal)

/-- The nodes' factors as a column. -/
def Dcol (x1 : EdgesK) : S100000x1.Idx → EReal :=
  shapeCast S100000x1 (Cert.ReferenceIdeal.Read.val_main_v10 (F := Ideal) x1) shapeCasts_S100000_S100000x1

/-- The column of source numbers, negative ones wrapped by +100000. -/
def srcCol (x1 : EdgesK) : IVec S1600000x1 32 :=
  broadcastInDim S1600000x1 ![0] bcast_S1600000_S1600000x1_0
    (select (cmpi .slt (Cert.ReferenceIdeal.Read.val_main_v1 (F := Ideal) x1) (broadcastInDim S1600000 ![] bcast_S_S1600000 (constantI S_ 32 0#32)))
      (addi (Cert.ReferenceIdeal.Read.val_main_v1 (F := Ideal) x1) (broadcastInDim S1600000 ![] bcast_S_S1600000 (constantI S_ 32 100000#32)))
      (Cert.ReferenceIdeal.Read.val_main_v1 (F := Ideal) x1))

/-- The column of destination numbers. -/
def dstCol (x1 : EdgesK) : IVec S1600000x1 32 :=
  broadcastInDim S1600000x1 ![0] bcast_S1600000_S1600000x1_0 (Cert.ReferenceIdeal.Read.val_main_v3 (F := Ideal) x1)

/-- Rows of A gathered along the sources and accumulated at the destinations into a zero matrix. -/
def aggTerm (A : FVec Ideal S100000x64 .bf16) (x1 : EdgesK) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol x1)
    (extf .f32 (Host.gather gather_S100000x64_S1600000x1_S1600000x64_1_0_n_n_0_1_164 A (srcCol x1)) bitsLt_bf16_f32)

end Cert.KSide

end
-- ==== Proof.KHost1.lean ====
/-
  Through the first kernel region and the host operations after it. The region leaves the product x·W₁ and the product
  with each row scaled by the node's factor; the host then gathers the scaled rows along the edges' sources (negative
  source numbers wrapped by +100000) and accumulates them at the edges' destinations into a zero matrix, and lays the
  first bias out as a row.
-/
import proofs.«154069_j67044439491163_2_alg».proof.Proof.Gen.KernelIdeal.Frame
import proofs.«154069_j67044439491163_2_alg».proof.Proof.Gen.ReferenceIdeal.Read
import proofs.«154069_j67044439491163_2_alg».proof.Proof.KHost0
import proofs.«154069_j67044439491163_2_alg».proof.Proof.Region0
import proofs.«154069_j67044439491163_2_alg».proof.Proof.KBlk
import proofs.«154069_j67044439491163_2_alg».proof.Proof.KTerms
import Idealize.ShloMosaic.Lib.StableHlo.Run

set_option maxRecDepth 16384

noncomputable section

namespace Cert.KSide

open Cert.KernelIdeal Cert.KernelIdeal.Gen
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

theorem W2_v1 (c : Dev nD) : W2 m ρ c (Proc.devRef .tc main_v1)
    = Cert.ReferenceIdeal.Read.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3)
    = Cert.ReferenceIdeal.Read.val_main_v3 (F := Ideal) (m ((c : Thread nD τ).loc main_arg1)) :=
  (W2_of_ne m ρ c main_v3 (by decide)).trans (W1_v3 m ρ c)
theorem W2_v11 (c : Dev nD) : W2 m ρ c (Proc.devRef .tc main_v11) = Dcol (m ((c : Thread nD τ).loc main_arg1)) :=
  (W2_arr m ρ c 2).trans (((dat0 (V1 m ρ) c).arrAt_in 2 rfl _).trans ((A_eq0 (V1 m ρ) c 2).trans (W1_v11 m ρ c)))
theorem W2_v13 (c : Dev nD) : (W2 m ρ c (Proc.devRef .tc main_v13) : S64x64.Idx → EReal) = m ((c : Thread nD τ).loc main_arg6) :=
  (W2_of_ne m ρ c main_v13 (by decide)).trans (W1_v13 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg7 (c : Dev nD) : W2 m ρ c (Proc.devRef .tc main_arg7) = m ((c : Thread nD τ).loc main_arg7) :=
  (W2_of_ne m ρ c main_arg7 (by decide)).trans (W1_arg7 m ρ c)

/-- The product array after the first region. -/
theorem W2_v14_0 (c : Dev nD) : W2 m ρ c (Proc.devRef .tc main_v14_0)
    = Gmm (m ((c : Thread nD τ).loc main_arg0)) (m ((c : Thread nD τ).loc main_arg2)) := by
  refine (W2_arr m ρ c 3).trans ((final0_3 (V1 m ρ) c).trans ?_)
  rw [show V1 m ρ c main_arg0 = m ((c : Thread nD τ).loc main_arg0) from W1_arg0 m ρ c,
    show (V1 m ρ c main_v12 : S64x64.Idx → EReal) = m ((c : Thread nD τ).loc main_arg2) from W1_v12 m ρ c]

/-- The scaled product array after the first region. -/
theorem W2_v14_1 (c : Dev nD) : W2 m ρ c (Proc.devRef .tc main_v14_1)
    = Gmms (m ((c : Thread nD τ).loc main_arg0)) (m ((c : Thread nD τ).loc main_arg2)) (Dcol (m ((c : Thread nD τ).loc main_arg1))) := by
  refine (W2_arr m ρ c 4).trans ((final0_4 (V1 m ρ) c).trans ?_)
  rw [show V1 m ρ c main_arg0 = m ((c : Thread nD τ).loc main_arg0) from W1_arg0 m ρ c,
    show (V1 m ρ c main_v12 : S64x64.Idx → EReal) = m ((c : Thread nD τ).loc main_arg2) from W1_v12 m ρ c,
    show V1 m ρ c main_v11 = Dcol (m ((c : Thread nD τ).loc main_arg1)) from W1_v11 m ρ c]

theorem W3_v1 (c : Dev nD) : W3 m ρ c (Proc.devRef .tc main_v1)
    = Cert.ReferenceIdeal.Read.val_main_v1 (F := Ideal) (m ((c : Thread nD τ).loc main_arg1)) := by
  show StableHlo.after hostOps1 (W2 m ρ c) (Proc.devRef .tc main_v1) = _
  after_results
  exact W2_v1 m ρ c

theorem W3_v3 (c : Dev nD) : W3 m ρ c (Proc.devRef .tc main_v3)
    = Cert.ReferenceIdeal.Read.val_main_v3 (F := Ideal) (m ((c : Thread nD τ).loc main_arg1)) := by
  show StableHlo.after hostOps1 (W2 m ρ c) (Proc.devRef .tc main_v3) = _
  after_results
  exact W2_v3 m ρ c

theorem W3_v11 (c : Dev nD) : W3 m ρ c (Proc.devRef .tc main_v11)
    = Dcol (m ((c : Thread nD τ).loc main_arg1)) := by
  show StableHlo.after hostOps1 (W2 m ρ c) (Proc.devRef .tc main_v11) = _
  after_results
  exact W2_v11 m ρ c

theorem W3_v13 (c : Dev nD) : (W3 m ρ c (Proc.devRef .tc main_v13) : S64x64.Idx → EReal)
    = m ((c : Thread nD τ).loc main_arg6) := by
  show StableHlo.after hostOps1 (W2 m ρ c) (Proc.devRef .tc main_v13) = _
  after_results
  exact W2_v13 m ρ c

theorem W3_arg4 (c : Dev nD) : W3 m ρ c (Proc.devRef .tc main_arg4)
    = m ((c : Thread nD τ).loc main_arg4) := by
  show StableHlo.after hostOps1 (W2 m ρ c) (Proc.devRef .tc main_arg4) = _
  after_results
  exact W2_arg4 m ρ c

theorem W3_arg5 (c : Dev nD) : W3 m ρ c (Proc.devRef .tc main_arg5)
    = m ((c : Thread nD τ).loc main_arg5) := by
  show StableHlo.after hostOps1 (W2 m ρ c) (Proc.devRef .tc main_arg5) = _
  after_results
  exact W2_arg5 m ρ c

theorem W3_arg7 (c : Dev nD) : W3 m ρ c (Proc.devRef .tc main_arg7)
    = m ((c : Thread nD τ).loc main_arg7) := by
  show StableHlo.after hostOps1 (W2 m ρ c) (Proc.devRef .tc main_arg7) = _
  after_results
  exact W2_arg7 m ρ c

theorem W3_v14_0 (c : Dev nD) : W3 m ρ c (Proc.devRef .tc main_v14_0)
    = Gmm (m ((c : Thread nD τ).loc main_arg0)) (m ((c : Thread nD τ).loc main_arg2)) := by
  show StableHlo.after hostOps1 (W2 m ρ c) (Proc.devRef .tc main_v14_0) = _
  after_results
  exact W2_v14_0 m ρ c

set_option maxHeartbeats 2000000 in
/-- The aggregated rows after the host operations. -/
theorem W3_v25 (c : Dev nD) : W3 m ρ c (Proc.devRef .tc main_v25) = aggTerm (Gmms (m ((c : Thread nD τ).loc main_arg0)) (m ((c : Thread nD τ).loc main_arg2)) (Dcol (m ((c : Thread nD τ).loc main_arg1)))) (m ((c : Thread nD τ).loc main_arg1)) := by
  show StableHlo.after hostOps1 (W2 m ρ c) (Proc.devRef .tc main_v25) = _
  after_results_simp
  rw [W2_v3 m ρ c, W2_v14_1 m ρ c, W2_v1 m ρ c]
  rfl

/-- The first bias as a row. -/
theorem W3_v26 (c : Dev nD) : W3 m ρ c (Proc.devRef .tc main_v26) = shapeCast S1x64 (m ((c : Thread nD τ).loc main_arg3)) shapeCasts_S64_S1x64 := by
  show StableHlo.after hostOps1 (W2 m ρ c) (Proc.devRef .tc main_v26) = _
  after_results
  rw [W2_arg3 m ρ c]
  rfl

end Cert.KSide

end
-- ==== Proof.Region1.lean ====
/-
  The second kernel region: each point t combines rows 5000·t … 5000·t + 4999,
  h(n,q) = d(n,0) · (agg(n,q) + d(n,0) · hpre(n,q)) + b(0,q), and also writes the column sums of its 5000 rows of h and
  of their squares into row t of two [20, 1, 64] arrays.
-/
import proofs.«154069_j67044439491163_2_alg».proof.Proof.Gen.KernelIdeal.Frame
import proofs.«154069_j67044439491163_2_alg».proof.Proof.KPay
import proofs.«154069_j67044439491163_2_alg».proof.Proof.KBlk
import Idealize.ShloMosaic.Lib.Pipeline.Value

set_option maxRecDepth 16384

noncomputable section

namespace Cert.KSide

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Where each window's block sits at point t. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 3) = t.val
    ∧ win1_5.index t (1 : Fin 3) = 0
    ∧ win1_5.index t (2 : Fin 3) = 0
    ∧ win1_6.index t (0 : Fin 3) = t.val
    ∧ win1_6.index t (1 : Fin 3) = 0
    ∧ win1_6.index t (2 : Fin 3) = 0 :=
  (by decide +kernel : ∀ t : Fin grid1.N, _)

theorem blk1_0 (c : Dev nD) (t : Fin cfg1.N) (r : Fin 5000) (n : Fin 100000) (hn : n.val = t.val * 5000 + r.val) (q : Fin 64) :
    (iblk1 V c 0 t : Vec Ideal S5000x64 .f32) (ix2 r q) = (V c main_v14_0 : S100000x64.Idx → EReal) (ix2 n q) := by
  unfold iblk1
  rw [View.read_apply]
  show V c main_v14_0 _ = V c main_v14_0 _
  congr 1
  funext a
  apply Fin.ext
  match a with
  | ⟨0, _⟩ => show win1_0.index t (0 : Fin 2) * 5000 + 1 * r.val = n.val; rw [(idx1 t).1, hn]; omega
  | ⟨1, _⟩ => show win1_0.index t (1 : Fin 2) * 64 + 1 * q.val = q.val; rw [(idx1 t).2.1]; omega

theorem blk1_1 (c : Dev nD) (t : Fin cfg1.N) (r : Fin 5000) (n : Fin 100000) (hn : n.val = t.val * 5000 + r.val) (q : Fin 64) :
    (iblk1 V c 1 t : Vec Ideal S5000x64 .f32) (ix2 r q) = (V c main_v25 : S100000x64.Idx → EReal) (ix2 n q) := by
  unfold iblk1
  rw [View.read_apply]
  show V c main_v25 _ = V c main_v25 _
  congr 1
  funext a
  apply Fin.ext
  match a with
  | ⟨0, _⟩ => show win1_1.index t (0 : Fin 2) * 5000 + 1 * r.val = n.val; rw [(idx1 t).2.2.1, hn]; omega
  | ⟨1, _⟩ => show win1_1.index t (1 : Fin 2) * 64 + 1 * q.val = q.val; rw [(idx1 t).2.2.2.1]; omega

theorem blk1_2 (c : Dev nD) (t : Fin cfg1.N) (r : Fin 5000) (n : Fin 100000) (hn : n.val = t.val * 5000 + r.val) (q : Fin 1) :
    (iblk1 V c 2 t : Vec Ideal S5000x1 .f32) (ix2 r q) = (V c main_v11 : S100000x1.Idx → EReal) (ix2 n q) := by
  unfold iblk1
  rw [View.read_apply]
  show V c main_v11 _ = V c main_v11 _
  congr 1
  funext a
  apply Fin.ext
  match a with
  | ⟨0, _⟩ => show win1_2.index t (0 : Fin 2) * 5000 + 1 * r.val = n.val; rw [(idx1 t).2.2.2.2.1, hn]; omega
  | ⟨1, _⟩ => show win1_2.index t (1 : Fin 2) * 1 + 1 * q.val = q.val; rw [(idx1 t).2.2.2.2.2.1]; omega

theorem blk1_3 (c : Dev nD) (t : Fin cfg1.N) (k : Fin 1) (q : Fin 64) :
    (iblk1 V c 3 t : Vec Ideal S1x64 .f32) (ix2 k q) = (V c main_v26 : S1x64.Idx → EReal) (ix2 k q) := by
  unfold iblk1
  rw [View.read_apply]
  show V c main_v26 _ = V c main_v26 _
  congr 1
  funext a
  apply Fin.ext
  match a with
  | ⟨0, _⟩ => show win1_3.index t (0 : Fin 2) * 1 + 1 * k.val = k.val; rw [(idx1 t).2.2.2.2.2.2.1]; omega
  | ⟨1, _⟩ => show win1_3.index t (1 : Fin 2) * 64 + 1 * q.val = q.val; rw [(idx1 t).2.2.2.2.2.2.2.1]; omega

theorem emb1_4 (t : Fin cfg1.N) (r : Fin 5000) (q : Fin 64) (n : Fin 100000) (hn : n.val = t.val * 5000 + r.val) :
    ((cfg1.win 4).blk t).view.emb (ix2 r q) = (ix2 n q : S100000x64.Idx) := by
  funext a
  apply Fin.ext
  match a with
  | ⟨0, _⟩ => show win1_4.index t (0 : Fin 2) * 5000 + 1 * r.val = n.val; rw [(idx1 t).2.2.2.2.2.2.2.2.1, hn]; omega
  | ⟨1, _⟩ => show win1_4.index t (1 : Fin 2) * 64 + 1 * q.val = q.val; rw [(idx1 t).2.2.2.2.2.2.2.2.2.1]; omega

theorem mem_blk1_4 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v27_0).slice (win1_4.rect t)).set ↔ _
  rw [View.set_slice_whole, Rect.mem_set_unit]
  exact Iff.rfl

/-- Every entry of the array lies in the block of the point its row belongs to. -/
theorem cover1_4' (i : S100000x64.Idx) :
    ∃ t : Fin cfg1.N, (cfg1.win 4).flush t = true ∧ i ∈ ((cfg1.win 4).blk t).view.set := by
  have hN : cfg1.N = 20 := N_1
  have h0 : (i 0).val < 100000 := (i 0).isLt
  have h1 : (i 1).val < 64 := (i 1).isLt
  have hq : (i 0).val / 5000 < cfg1.N := by omega
  refine ⟨⟨(i 0).val / 5000, hq⟩, flush1_4 _, ?_⟩
  rw [mem_blk1_4]
  intro a
  have e0 := (idx1 ⟨(i 0).val / 5000, hq⟩).2.2.2.2.2.2.2.2.1
  have e1 := (idx1 ⟨(i 0).val / 5000, hq⟩).2.2.2.2.2.2.2.2.2.1
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, hq⟩ (1 : Fin 2) * 64 ≤ (i 1).val
      ∧ (i 1).val < win1_4.index ⟨(i 0).val / 5000, hq⟩ (1 : Fin 2) * 64 + 64
    rw [e1]
    omega

theorem emb1_5 (t : Fin cfg1.N) (z0 z1 : Fin 1) (q : Fin 64) (t' : Fin 20) (ht : t'.val = t.val) :
    ((cfg1.win 5).blk t).view.emb (ix3 z0 z1 q) = (ix3 t' z1 q : S20x1x64.Idx) := by
  funext a
  apply Fin.ext
  match a with
  | ⟨0, _⟩ => show win1_5.index t (0 : Fin 3) * 1 + 1 * z0.val = t'.val; rw [(idx1 t).2.2.2.2.2.2.2.2.2.2.1, ht]; have := z0.isLt; omega
  | ⟨1, _⟩ => show win1_5.index t (1 : Fin 3) * 1 + 1 * z1.val = z1.val; rw [(idx1 t).2.2.2.2.2.2.2.2.2.2.2.1]; omega
  | ⟨2, _⟩ => show win1_5.index t (2 : Fin 3) * 64 + 1 * q.val = q.val; rw [(idx1 t).2.2.2.2.2.2.2.2.2.2.2.2.1]; omega

theorem mem_blk1_5 (t : Fin cfg1.N) (i : S20x1x64.Idx) :
    i ∈ ((cfg1.win 5).blk t).view.set ↔ ∀ a : Fin 3, win1_5.index t a * S1x1x64.size a ≤ (i a).val
      ∧ (i a).val < win1_5.index t a * S1x1x64.size a + S1x1x64.size a := by
  show i ∈ ((View.whole main_v27_1).slice (win1_5.rect t)).set ↔ _
  rw [View.set_slice_whole, Rect.mem_set_unit]
  exact Iff.rfl

/-- Every entry of the array lies in the block of the point its tile number names. -/
theorem cover1_5' (i : S20x1x64.Idx) :
    ∃ t : Fin cfg1.N, (cfg1.win 5).flush t = true ∧ i ∈ ((cfg1.win 5).blk t).view.set := by
  have hN : cfg1.N = 20 := N_1
  have h0 : (i 0).val < 20 := (i 0).isLt
  have h1 : (i 1).val < 1 := (i 1).isLt
  have h2 : (i 2).val < 64 := (i 2).isLt
  have hq : (i 0).val < cfg1.N := by omega
  refine ⟨⟨(i 0).val, hq⟩, flush1_5 _, ?_⟩
  rw [mem_blk1_5]
  intro a
  have e0 := (idx1 ⟨(i 0).val, hq⟩).2.2.2.2.2.2.2.2.2.2.1
  have e1 := (idx1 ⟨(i 0).val, hq⟩).2.2.2.2.2.2.2.2.2.2.2.1
  have e2 := (idx1 ⟨(i 0).val, hq⟩).2.2.2.2.2.2.2.2.2.2.2.2.1
  match a with
  | ⟨0, _⟩ =>
    show win1_5.index ⟨(i 0).val, hq⟩ (0 : Fin 3) * 1 ≤ (i 0).val
      ∧ (i 0).val < win1_5.index ⟨(i 0).val, hq⟩ (0 : Fin 3) * 1 + 1
    rw [e0]
    show (i 0).val * 1 ≤ (i 0).val ∧ (i 0).val < (i 0).val * 1 + 1
    omega
  | ⟨1, _⟩ =>
    show win1_5.index ⟨(i 0).val, hq⟩ (1 : Fin 3) * 1 ≤ (i 1).val
      ∧ (i 1).val < win1_5.index ⟨(i 0).val, hq⟩ (1 : Fin 3) * 1 + 1
    rw [e1]
    omega
  | ⟨2, _⟩ =>
    show win1_5.index ⟨(i 0).val, hq⟩ (2 : Fin 3) * 64 ≤ (i 2).val
      ∧ (i 2).val < win1_5.index ⟨(i 0).val, hq⟩ (2 : Fin 3) * 64 + 64
    rw [e2]
    omega

theorem emb1_6 (t : Fin cfg1.N) (z0 z1 : Fin 1) (q : Fin 64) (t' : Fin 20) (ht : t'.val = t.val) :
    ((cfg1.win 6).blk t).view.emb (ix3 z0 z1 q) = (ix3 t' z1 q : S20x1x64.Idx) := by
  funext a
  apply Fin.ext
  match a with
  | ⟨0, _⟩ => show win1_6.index t (0 : Fin 3) * 1 + 1 * z0.val = t'.val; rw [(idx1 t).2.2.2.2.2.2.2.2.2.2.2.2.2.1, ht]; have := z0.isLt; omega
  | ⟨1, _⟩ => show win1_6.index t (1 : Fin 3) * 1 + 1 * z1.val = z1.val; rw [(idx1 t).2.2.2.2.2.2.2.2.2.2.2.2.2.2.1]; omega
  | ⟨2, _⟩ => show win1_6.index t (2 : Fin 3) * 64 + 1 * q.val = q.val; rw [(idx1 t).2.2.2.2.2.2.2.2.2.2.2.2.2.2.2]; omega

theorem mem_blk1_6 (t : Fin cfg1.N) (i : S20x1x64.Idx) :
    i ∈ ((cfg1.win 6).blk t).view.set ↔ ∀ a : Fin 3, win1_6.index t a * S1x1x64.size a ≤ (i a).val
      ∧ (i a).val < win1_6.index t a * S1x1x64.size a + S1x1x64.size a := by
  show i ∈ ((View.whole main_v27_2).slice (win1_6.rect t)).set ↔ _
  rw [View.set_slice_whole, Rect.mem_set_unit]
  exact Iff.rfl

/-- Every entry of the array lies in the block of the point its tile number names. -/
theorem cover1_6' (i : S20x1x64.Idx) :
    ∃ t : Fin cfg1.N, (cfg1.win 6).flush t = true ∧ i ∈ ((cfg1.win 6).blk t).view.set := by
  have hN : cfg1.N = 20 := N_1
  have h0 : (i 0).val < 20 := (i 0).isLt
  have h1 : (i 1).val < 1 := (i 1).isLt
  have h2 : (i 2).val < 64 := (i 2).isLt
  have hq : (i 0).val < cfg1.N := by omega
  refine ⟨⟨(i 0).val, hq⟩, flush1_6 _, ?_⟩
  rw [mem_blk1_6]
  intro a
  have e0 := (idx1 ⟨(i 0).val, hq⟩).2.2.2.2.2.2.2.2.2.2.2.2.2.1
  have e1 := (idx1 ⟨(i 0).val, hq⟩).2.2.2.2.2.2.2.2.2.2.2.2.2.2.1
  have e2 := (idx1 ⟨(i 0).val, hq⟩).2.2.2.2.2.2.2.2.2.2.2.2.2.2.2
  match a with
  | ⟨0, _⟩ =>
    show win1_6.index ⟨(i 0).val, hq⟩ (0 : Fin 3) * 1 ≤ (i 0).val
      ∧ (i 0).val < win1_6.index ⟨(i 0).val, hq⟩ (0 : Fin 3) * 1 + 1
    rw [e0]
    show (i 0).val * 1 ≤ (i 0).val ∧ (i 0).val < (i 0).val * 1 + 1
    omega
  | ⟨1, _⟩ =>
    show win1_6.index ⟨(i 0).val, hq⟩ (1 : Fin 3) * 1 ≤ (i 1).val
      ∧ (i 1).val < win1_6.index ⟨(i 0).val, hq⟩ (1 : Fin 3) * 1 + 1
    rw [e1]
    omega
  | ⟨2, _⟩ =>
    show win1_6.index ⟨(i 0).val, hq⟩ (2 : Fin 3) * 64 ≤ (i 2).val
      ∧ (i 2).val < win1_6.index ⟨(i 0).val, hq⟩ (2 : Fin 3) * 64 + 64
    rw [e2]
    omega

/-- The combine body at a row of block t, in terms of the arrays. -/
theorem comb1_at (c : Dev nD) (t : Fin cfg1.N) (r : Fin 5000) (q : Fin 64) (hlt : t.val * 5000 + r.val < 100000) :
    k1_pay1 (F := Ideal) (iblk1 V c 2 t) (iblk1 V c 1 t) (iblk1 V c 0 t) (iblk1 V c 3 t) (ix2 r q)
      = comb (colOf (V c main_v11)) (matOf (V c main_v25)) (matOf (V c main_v14_0)) (rowOf (V c main_v26))
          ⟨t.val * 5000 + r.val, hlt⟩ q := by
  refine (pay1_1_apply (iblk1 V c 2 t) (iblk1 V c 1 t) (iblk1 V c 0 t) (iblk1 V c 3 t) r q).trans ?_
  rw [blk1_2 V c t r ⟨t.val * 5000 + r.val, hlt⟩ rfl 0, blk1_1 V c t r ⟨t.val * 5000 + r.val, hlt⟩ rfl q,
    blk1_0 V c t r ⟨t.val * 5000 + r.val, hlt⟩ rfl q, blk1_3 V c t 0 q]
  rfl

/-- What point t writes back to the combined array is block t of the whole combined array. -/
theorem flushed1_4 (c : Dev nD) (t : Fin cfg1.N) :
    (dat1 V c).flushed 4 t = ((cfg1.win 4).blk t).view.read (Elt Ideal)
      (Gc (V c main_v14_0) (V c main_v25) (V c main_v11) (V c main_v26)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S1x64) hz2]
  funext y
  obtain ⟨r, q, rfl⟩ : ∃ (r : Fin 5000) (q : Fin 64), y = ix2 r q := ⟨y 0, y 1, eq_ix2 y⟩
  have hN : cfg1.N = 20 := N_1
  have ht := t.isLt
  have hr := r.isLt
  have hlt : t.val * 5000 + r.val < 100000 := by omega
  refine (comb1_at V c t r q hlt).trans ?_
  rw [View.read_apply, emb1_4 t r q ⟨t.val * 5000 + r.val, hlt⟩ rfl]
  rfl

/-- What point t writes back to the sums array is row t of the per-tile column sums. -/
theorem flushed1_5 (c : Dev nD) (t : Fin cfg1.N) :
    (dat1 V c).flushed 5 t = ((cfg1.win 5).blk t).view.read (Elt Ideal)
      (Gsum (V c main_v14_0) (V c main_v25) (V c main_v11) (V c main_v26)) := by
  show (cfg1.win 5).cut (grid1.coords t) ((dat1 V c).after 5 t) = _
  rw [after1_5]
  unfold out1_5
  rw [View.canon_unit_zero hz3]
  simp only [View.ld_unit_zero (S := S5000x64) hz2, View.ld_unit_zero (S := S5000x1) hz2, View.ld_unit_zero (S := S1x64) hz2]
  funext y
  obtain ⟨z0, z1, q, rfl⟩ : ∃ (z0 z1 : Fin 1) (q : Fin 64), y = ix3 z0 z1 q := ⟨y 0, y 1, y 2, eq_ix3 y⟩
  obtain rfl : z0 = 0 := Subsingleton.elim _ _
  obtain rfl : z1 = 0 := Subsingleton.elim _ _
  have hN : cfg1.N = 20 := N_1
  have ht := t.isLt
  have ht' : t.val < 20 := by omega
  refine (pay1_2_apply (iblk1 V c 2 t) (iblk1 V c 1 t) (iblk1 V c 0 t) (iblk1 V c 3 t) q).trans ?_
  rw [View.read_apply, emb1_5 t 0 0 q ⟨t.val, ht'⟩ rfl]
  show _ = ∑ r : Fin 5000, comb (colOf (V c main_v11)) (matOf (V c main_v25)) (matOf (V c main_v14_0)) (rowOf (V c main_v26))
      (Gcn2.tileRow ⟨t.val, ht'⟩ r) q
  exact Finset.sum_congr rfl fun r _ => comb1_at V c t r q (by have := r.isLt; omega)

/-- What point t writes back to the squares array is row t of the per-tile column sums of squares. -/
theorem flushed1_6 (c : Dev nD) (t : Fin cfg1.N) :
    (dat1 V c).flushed 6 t = ((cfg1.win 6).blk t).view.read (Elt Ideal)
      (Gsq (V c main_v14_0) (V c main_v25) (V c main_v11) (V c main_v26)) := by
  show (cfg1.win 6).cut (grid1.coords t) ((dat1 V c).after 6 t) = _
  rw [after1_6]
  unfold out1_6
  rw [View.canon_unit_zero hz3]
  simp only [View.ld_unit_zero (S := S5000x64) hz2, View.ld_unit_zero (S := S5000x1) hz2, View.ld_unit_zero (S := S1x64) hz2]
  funext y
  obtain ⟨z0, z1, q, rfl⟩ : ∃ (z0 z1 : Fin 1) (q : Fin 64), y = ix3 z0 z1 q := ⟨y 0, y 1, y 2, eq_ix3 y⟩
  obtain rfl : z0 = 0 := Subsingleton.elim _ _
  obtain rfl : z1 = 0 := Subsingleton.elim _ _
  have hN : cfg1.N = 20 := N_1
  have ht := t.isLt
  have ht' : t.val < 20 := by omega
  refine (pay1_3_apply (iblk1 V c 2 t) (iblk1 V c 1 t) (iblk1 V c 0 t) (iblk1 V c 3 t) q).trans ?_
  rw [View.read_apply, emb1_6 t 0 0 q ⟨t.val, ht'⟩ rfl]
  show _ = ∑ r : Fin 5000, comb (colOf (V c main_v11)) (matOf (V c main_v25)) (matOf (V c main_v14_0)) (rowOf (V c main_v26))
      (Gcn2.tileRow ⟨t.val, ht'⟩ r) q * comb (colOf (V c main_v11)) (matOf (V c main_v25)) (matOf (V c main_v14_0)) (rowOf (V c main_v26))
      (Gcn2.tileRow ⟨t.val, ht'⟩ r) q
  exact Finset.sum_congr rfl fun r _ => by rw [comb1_at V c t r q (by have := r.isLt; omega)]; rfl

theorem final1_4 (c : Dev nD) : (dat1 V c).arrAt 4 cfg1.N = Gc (V c main_v14_0) (V c main_v25) (V c main_v11) (V c main_v26) :=
  (dat1 V c).arrAt_eq_of_cover 4 _ (fun t _ => flushed1_4 V c t) cover1_4'

theorem final1_5 (c : Dev nD) : (dat1 V c).arrAt 5 cfg1.N = Gsum (V c main_v14_0) (V c main_v25) (V c main_v11) (V c main_v26) :=
  (dat1 V c).arrAt_eq_of_cover 5 _ (fun t _ => flushed1_5 V c t) cover1_5'

theorem final1_6 (c : Dev nD) : (dat1 V c).arrAt 6 cfg1.N = Gsq (V c main_v14_0) (V c main_v25) (V c main_v11) (V c main_v26) :=
  (dat1 V c).arrAt_eq_of_cover 6 _ (fun t _ => flushed1_6 V c t) cover1_6'

end Cert.KSide

end
-- ==== Proof.KStat.lean ====
/-
  The small host computations between the kernel regions, read at an entry.

  The sum of a [20, 1, 64] array over its first coordinate, from the word of 0.0, is at (0, j) the number
  0 + Σ_t x (t, 0, j). A scalar spread over a shape reads the scalar at every entry. So the mean row is that sum
  divided by the word of 100000.0, and the reciprocal-standard-deviation row is
      rsqrt (max (second-moment row − mean², 0) + ε)
  entry by entry. A vector stood up as a row [1, 64] or as a column [100000, 1] keeps its entries.
-/
import proofs.«154069_j67044439491163_2_alg».proof.Proof.Gen.KernelIdeal.Launch
import proofs.«154069_j67044439491163_2_alg».proof.Proof.Spec
import proofs.«154069_j67044439491163_2_alg».proof.Proof.LibSoftLayout
import Idealize.ShloMosaic.Lib.ValueIdx
import Idealize.ShloMosaic.PureOps.Ideal.Laws

noncomputable section

namespace Cert.KSide

open Cert.KernelIdeal Idealize.ShloMosaic Idealize.ShloMosaic.ValueIdx
open Cert.KernelIdeal.Gen (reducesTo_S20x1x64_S1x64_d0 h_S_ bcast_S_S1x64 shapeCasts_S64_S1x64 shapeCasts_S100000_S100000x1)
open scoped BigOperators

/-- The mean row: the tile sums added up and divided by the number of rows. -/
def muTerm (SUM : FVec Ideal S20x1x64 .f32) : FVec Ideal S1x64 .f32 :=
  Host.divf (Host.reduceAdd SUM (constant (F := Ideal) S_ .f32 0x00000000#32) reducesTo_S20x1x64_S1x64_d0 h_S_)
    (broadcastInDim S1x64 ![] bcast_S_S1x64 (constant (F := Ideal) S_ .f32 0x47C35000#32))

/-- The reciprocal-standard-deviation row. -/
def rsTerm (SUM SQ : FVec Ideal S20x1x64 .f32) : FVec Ideal S1x64 .f32 :=
  Host.rsqrt (addf (maximumf (subf (Host.divf (Host.reduceAdd SQ (constant (F := Ideal) S_ .f32 0x00000000#32) reducesTo_S20x1x64_S1x64_d0 h_S_)
      (broadcastInDim S1x64 ![] bcast_S_S1x64 (constant (F := Ideal) S_ .f32 0x47C35000#32))) (mulf (muTerm SUM) (muTerm SUM)))
    (broadcastInDim S1x64 ![] bcast_S_S1x64 (constant (F := Ideal) S_ .f32 0x00000000#32)))
    (broadcastInDim S1x64 ![] bcast_S_S1x64 (constant (F := Ideal) S_ .f32 0x3727C5AC#32)))

/-- A scalar spread over a shape reads the scalar at every entry. -/
theorem splat0_apply {α : Type} {s : Shape} (h : S_.BroadcastsInDim s ![]) (v : S_.Idx → α) (i : s.Idx) :
    broadcastInDim s ![] h v i = v ix0 :=
  broadcastInDim_apply _ h v i ix0 (fun a => a.elim0)

/-- The sum over the tiles, from the word of 0.0, at (0, j). -/
theorem tilesum_apply (X : FVec Ideal S20x1x64 .f32) (j : Fin 64) :
    Host.reduceAdd X (constant (F := Ideal) S_ .f32 0x00000000#32) reducesTo_S20x1x64_S1x64_d0 h_S_ (ix2 (0 : Fin 1) j)
      = 0 + ∑ t : Fin 20, X (ix3 t (0 : Fin 1) j) := by
  simp only [Host.reduceAdd, Ideal.hostReduceAdd_def]
  rw [Ideal.hostReduceAdd_single reducesTo_S20x1x64_S1x64_d0 (by decide)]
  show Ideal.ofBits .f32 0x00000000#32 + _ = _
  rw [Ideal.ofBits_zero_f32]
  refine congrArg (fun t => (0 : EReal) + t) (Finset.sum_congr rfl fun k _ => ?_)
  exact congrArg X (funext fun a => Fin.ext (by match a with | ⟨0, _⟩ => rfl | ⟨1, _⟩ => rfl | ⟨2, _⟩ => rfl))

theorem muTerm_apply (SUM : FVec Ideal S20x1x64 .f32) (j : Fin 64) :
    muTerm SUM (ix2 (0 : Fin 1) j) = Ideal.div (0 + ∑ t : Fin 20, SUM (ix3 t (0 : Fin 1) j)) Gcn2.cN := by
  show Ideal.div (Host.reduceAdd SUM (constant (F := Ideal) S_ .f32 0x00000000#32) reducesTo_S20x1x64_S1x64_d0 h_S_ (ix2 (0 : Fin 1) j))
    (broadcastInDim S1x64 ![] bcast_S_S1x64 (constant (F := Ideal) S_ .f32 0x47C35000#32) (ix2 (0 : Fin 1) j)) = _
  rw [tilesum_apply, splat0_apply]
  rfl

theorem rsTerm_apply (SUM SQ : FVec Ideal S20x1x64 .f32) (j : Fin 64) :
    rsTerm SUM SQ (ix2 (0 : Fin 1) j) = Ideal.rsqrt (max (Ideal.div (0 + ∑ t : Fin 20, SQ (ix3 t (0 : Fin 1) j)) Gcn2.cN
      - muTerm SUM (ix2 (0 : Fin 1) j) * muTerm SUM (ix2 (0 : Fin 1) j)) 0 + Gcn2.cEps) := by
  show Ideal.rsqrt (max (Ideal.div (Host.reduceAdd SQ (constant (F := Ideal) S_ .f32 0x00000000#32) reducesTo_S20x1x64_S1x64_d0 h_S_ (ix2 (0 : Fin 1) j))
      (broadcastInDim S1x64 ![] bcast_S_S1x64 (constant (F := Ideal) S_ .f32 0x47C35000#32) (ix2 (0 : Fin 1) j))
      - muTerm SUM (ix2 (0 : Fin 1) j) * muTerm SUM (ix2 (0 : Fin 1) j))
      (broadcastInDim S1x64 ![] bcast_S_S1x64 (constant (F := Ideal) S_ .f32 0x00000000#32) (ix2 (0 : Fin 1) j))
      + broadcastInDim S1x64 ![] bcast_S_S1x64 (constant (F := Ideal) S_ .f32 0x3727C5AC#32) (ix2 (0 : Fin 1) j)) = _
  rw [tilesum_apply, splat0_apply, splat0_apply, splat0_apply]
  show Ideal.rsqrt (max (Ideal.div _ (Ideal.ofBits .f32 0x47C35000#32) - _ * _) (Ideal.ofBits .f32 0x00000000#32)
      + Ideal.ofBits .f32 0x3727C5AC#32) = _
  rw [Ideal.ofBits_zero_f32]
  rfl

theorem rowCast_apply (a : FVec Ideal S64 .f32) (j : Fin 64) :
    shapeCast S1x64 a shapeCasts_S64_S1x64 (ix2 (0 : Fin 1) j) = a (ix1 j) :=
  SoftLayout.vec_row_cast_apply shapeCasts_S64_S1x64 a (0 : Fin 1) j

theorem colCast_apply (v : FVec Ideal S100000 .f32) (n : Fin 100000) :
    shapeCast S100000x1 v shapeCasts_S100000_S100000x1 (ix2 n (0 : Fin 1)) = v (ix1 n) :=
  SoftLayout.vec_col_cast_apply shapeCasts_S100000_S100000x1 v n (0 : Fin 1)

end Cert.KSide

end
-- ==== Proof.KHost2.lean ====
/-
  Through the second kernel region and the host operations after it. The region leaves the combined matrix h and the
  per-tile column sums of h and of its squares; the host adds the twenty tiles' sums, divides by the number of nodes,
  forms the variance as second moment minus squared mean cut at zero, takes the reciprocal square root of variance + ε,
  and lays scale and shift out as rows.
-/
import proofs.«154069_j67044439491163_2_alg».proof.Proof.Gen.KernelIdeal.Frame
import proofs.«154069_j67044439491163_2_alg».proof.Proof.Gen.ReferenceIdeal.Read
import proofs.«154069_j67044439491163_2_alg».proof.Proof.KHost1
import proofs.«154069_j67044439491163_2_alg».proof.Proof.Region1
import proofs.«154069_j67044439491163_2_alg».proof.Proof.KBlk
import proofs.«154069_j67044439491163_2_alg».proof.Proof.KTerms
import proofs.«154069_j67044439491163_2_alg».proof.Proof.KStat
import Idealize.ShloMosaic.Lib.StableHlo.Run

set_option maxRecDepth 16384

noncomputable section

namespace Cert.KSide

open Cert.KernelIdeal Cert.KernelIdeal.Gen
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

/-- The first layer's combined matrix. -/
def Hk (a0 : S100000x64.Idx → EReal) (a1 : EdgesK) (a2 : S64x64.Idx → EReal) (a3 : S64.Idx → EReal) : S100000x64.Idx → EReal :=
  Gc (Gmm a0 a2) (aggTerm (Gmms a0 a2 (Dcol a1)) a1) (Dcol a1) (shapeCast S1x64 a3 shapeCasts_S64_S1x64)
/-- Its per-tile column sums. -/
def SUMk (a0 : S100000x64.Idx → EReal) (a1 : EdgesK) (a2 : S64x64.Idx → EReal) (a3 : S64.Idx → EReal) : S20x1x64.Idx → EReal :=
  Gsum (Gmm a0 a2) (aggTerm (Gmms a0 a2 (Dcol a1)) a1) (Dcol a1) (shapeCast S1x64 a3 shapeCasts_S64_S1x64)
/-- Its per-tile column sums of squares. -/
def SQk (a0 : S100000x64.Idx → EReal) (a1 : EdgesK) (a2 : S64x64.Idx → EReal) (a3 : S64.Idx → EReal) : S20x1x64.Idx → EReal :=
  Gsq (Gmm a0 a2) (aggTerm (Gmms a0 a2 (Dcol a1)) a1) (Dcol a1) (shapeCast S1x64 a3 shapeCasts_S64_S1x64)

theorem W4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (W3_v1 m ρ c)
theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v11 (c : Dev nD) : W4 m ρ c (Proc.devRef .tc main_v11) = Dcol (m ((c : Thread nD τ).loc main_arg1)) :=
  (W4_arr m ρ c 2).trans (((dat1 (V3 m ρ) c).arrAt_in 2 rfl _).trans ((A_eq1 (V3 m ρ) c 2).trans (W3_v11 m ρ c)))
theorem W4_v13 (c : Dev nD) : (W4 m ρ c (Proc.devRef .tc main_v13) : S64x64.Idx → EReal) = m ((c : Thread nD τ).loc main_arg6) :=
  (W4_of_ne m ρ c main_v13 (by decide)).trans (W3_v13 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg7 (c : Dev nD) : W4 m ρ c (Proc.devRef .tc main_arg7) = m ((c : Thread nD τ).loc main_arg7) :=
  (W4_of_ne m ρ c main_arg7 (by decide)).trans (W3_arg7 m ρ c)

theorem V3_rw (c : Dev nD) : V3 m ρ c main_v14_0 = Gmm (m ((c : Thread nD τ).loc main_arg0)) (m ((c : Thread nD τ).loc main_arg2)) ∧ V3 m ρ c main_v25 = aggTerm (Gmms (m ((c : Thread nD τ).loc main_arg0)) (m ((c : Thread nD τ).loc main_arg2)) (Dcol (m ((c : Thread nD τ).loc main_arg1)))) (m ((c : Thread nD τ).loc main_arg1))
    ∧ V3 m ρ c main_v11 = Dcol (m ((c : Thread nD τ).loc main_arg1)) ∧ V3 m ρ c main_v26 = shapeCast S1x64 (m ((c : Thread nD τ).loc main_arg3)) shapeCasts_S64_S1x64 :=
  ⟨W3_v14_0 m ρ c, W3_v25 m ρ c, W3_v11 m ρ c, W3_v26 m ρ c⟩

/-- The combined matrix after the second region. -/
theorem W4_v27_0 (c : Dev nD) : W4 m ρ c (Proc.devRef .tc main_v27_0) = Hk (m ((c : Thread nD τ).loc main_arg0)) (m ((c : Thread nD τ).loc main_arg1)) (m ((c : Thread nD τ).loc main_arg2)) (m ((c : Thread nD τ).loc main_arg3)) := by
  refine (W4_arr m ρ c 4).trans ((final1_4 (V3 m ρ) c).trans ?_)
  rw [(V3_rw m ρ c).1, (V3_rw m ρ c).2.1, (V3_rw m ρ c).2.2.1, (V3_rw m ρ c).2.2.2]
  rfl
theorem W4_v27_1 (c : Dev nD) : W4 m ρ c (Proc.devRef .tc main_v27_1) = SUMk (m ((c : Thread nD τ).loc main_arg0)) (m ((c : Thread nD τ).loc main_arg1)) (m ((c : Thread nD τ).loc main_arg2)) (m ((c : Thread nD τ).loc main_arg3)) := by
  refine (W4_arr m ρ c 5).trans ((final1_5 (V3 m ρ) c).trans ?_)
  rw [(V3_rw m ρ c).1, (V3_rw m ρ c).2.1, (V3_rw m ρ c).2.2.1, (V3_rw m ρ c).2.2.2]
  rfl
theorem W4_v27_2 (c : Dev nD) : W4 m ρ c (Proc.devRef .tc main_v27_2) = SQk (m ((c : Thread nD τ).loc main_arg0)) (m ((c : Thread nD τ).loc main_arg1)) (m ((c : Thread nD τ).loc main_arg2)) (m ((c : Thread nD τ).loc main_arg3)) := by
  refine (W4_arr m ρ c 6).trans ((final1_6 (V3 m ρ) c).trans ?_)
  rw [(V3_rw m ρ c).1, (V3_rw m ρ c).2.1, (V3_rw m ρ c).2.2.1, (V3_rw m ρ c).2.2.2]
  rfl

theorem W5_v1 (c : Dev nD) : W5 m ρ c (Proc.devRef .tc main_v1)
    = Cert.ReferenceIdeal.Read.val_main_v1 (F := Ideal) (m ((c : Thread nD τ).loc main_arg1)) := by
  show StableHlo.after hostOps2 (W4 m ρ c) (Proc.devRef .tc main_v1) = _
  after_results
  exact W4_v1 m ρ c

theorem W5_v3 (c : Dev nD) : W5 m ρ c (Proc.devRef .tc main_v3)
    = Cert.ReferenceIdeal.Read.val_main_v3 (F := Ideal) (m ((c : Thread nD τ).loc main_arg1)) := by
  show StableHlo.after hostOps2 (W4 m ρ c) (Proc.devRef .tc main_v3) = _
  after_results
  exact W4_v3 m ρ c

theorem W5_v11 (c : Dev nD) : W5 m ρ c (Proc.devRef .tc main_v11)
    = Dcol (m ((c : Thread nD τ).loc main_arg1)) := by
  show StableHlo.after hostOps2 (W4 m ρ c) (Proc.devRef .tc main_v11) = _
  after_results
  exact W4_v11 m ρ c

theorem W5_v13 (c : Dev nD) : (W5 m ρ c (Proc.devRef .tc main_v13) : S64x64.Idx → EReal)
    = m ((c : Thread nD τ).loc main_arg6) := by
  show StableHlo.after hostOps2 (W4 m ρ c) (Proc.devRef .tc main_v13) = _
  after_results
  exact W4_v13 m ρ c

theorem W5_arg7 (c : Dev nD) : W5 m ρ c (Proc.devRef .tc main_arg7)
    = m ((c : Thread nD τ).loc main_arg7) := by
  show StableHlo.after hostOps2 (W4 m ρ c) (Proc.devRef .tc main_arg7) = _
  after_results
  exact W4_arg7 m ρ c

theorem W5_v27_0 (c : Dev nD) : W5 m ρ c (Proc.devRef .tc main_v27_0)
    = Hk (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v27_0) = _
  after_results
  exact W4_v27_0 m ρ c

set_option maxHeartbeats 2000000 in
/-- The channel means as a row. -/
theorem W5_v31 (c : Dev nD) : W5 m ρ c (Proc.devRef .tc main_v31) = muTerm (SUMk (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v31) = _
  after_results
  rw [W4_v27_1 m ρ c]
  rfl
set_option maxHeartbeats 2000000 in
/-- The channel reciprocal standard deviations as a row. -/
theorem W5_v40 (c : Dev nD) : W5 m ρ c (Proc.devRef .tc main_v40)
    = rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v40) = _
  after_results
  rw [W4_v27_1 m ρ c, W4_v27_2 m ρ c]
  rfl
theorem W5_v41 (c : Dev nD) : W5 m ρ c (Proc.devRef .tc main_v41) = shapeCast S1x64 (m ((c : Thread nD τ).loc main_arg4)) shapeCasts_S64_S1x64 := by
  show StableHlo.after hostOps2 (W4 m ρ c) (Proc.devRef .tc main_v41) = _
  after_results
  rw [W4_arg4 m ρ c]
  rfl
theorem W5_v42 (c : Dev nD) : W5 m ρ c (Proc.devRef .tc main_v42) = shapeCast S1x64 (m ((c : Thread nD τ).loc main_arg5)) shapeCasts_S64_S1x64 := by
  show StableHlo.after hostOps2 (W4 m ρ c) (Proc.devRef .tc main_v42) = _
  after_results
  rw [W4_arg5 m ρ c]
  rfl

end Cert.KSide

end
-- ==== Proof.Region2.lean ====
/-
  The third kernel region: each point t takes rows 5000·t … 5000·t + 4999 of h, normalises them with the channel
  statistics, scales, shifts and rectifies, multiplies by the second weight matrix, and writes the product and the
  product scaled by each row's factor.
-/
import proofs.«154069_j67044439491163_2_alg».proof.Proof.Gen.KernelIdeal.Frame
import proofs.«154069_j67044439491163_2_alg».proof.Proof.KPay
import proofs.«154069_j67044439491163_2_alg».proof.Proof.KBlk
import Idealize.ShloMosaic.Lib.Pipeline.Value

set_option maxRecDepth 16384

noncomputable section

namespace Cert.KSide

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Where each window's block sits at point t. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

theorem blk2_0 (c : Dev nD) (t : Fin cfg2.N) (r : Fin 5000) (n : Fin 100000) (hn : n.val = t.val * 5000 + r.val) (q : Fin 64) :
    (iblk2 V c 0 t : Vec Ideal S5000x64 .f32) (ix2 r q) = (V c main_v27_0 : S100000x64.Idx → EReal) (ix2 n q) := by
  unfold iblk2
  rw [View.read_apply]
  show V c main_v27_0 _ = V c main_v27_0 _
  congr 1
  funext a
  apply Fin.ext
  match a with
  | ⟨0, _⟩ => show win2_0.index t (0 : Fin 2) * 5000 + 1 * r.val = n.val; rw [(idx2 t).1, hn]; omega
  | ⟨1, _⟩ => show win2_0.index t (1 : Fin 2) * 64 + 1 * q.val = q.val; rw [(idx2 t).2.1]; omega

theorem blk2_1 (c : Dev nD) (t : Fin cfg2.N) (k : Fin 1) (q : Fin 64) :
    (iblk2 V c 1 t : Vec Ideal S1x64 .f32) (ix2 k q) = (V c main_v31 : S1x64.Idx → EReal) (ix2 k q) := by
  unfold iblk2
  rw [View.read_apply]
  show V c main_v31 _ = V c main_v31 _
  congr 1
  funext a
  apply Fin.ext
  match a with
  | ⟨0, _⟩ => show win2_1.index t (0 : Fin 2) * 1 + 1 * k.val = k.val; rw [(idx2 t).2.2.1]; omega
  | ⟨1, _⟩ => show win2_1.index t (1 : Fin 2) * 64 + 1 * q.val = q.val; rw [(idx2 t).2.2.2.1]; omega

theorem blk2_2 (c : Dev nD) (t : Fin cfg2.N) (k : Fin 1) (q : Fin 64) :
    (iblk2 V c 2 t : Vec Ideal S1x64 .f32) (ix2 k q) = (V c main_v40 : S1x64.Idx → EReal) (ix2 k q) := by
  unfold iblk2
  rw [View.read_apply]
  show V c main_v40 _ = V c main_v40 _
  congr 1
  funext a
  apply Fin.ext
  match a with
  | ⟨0, _⟩ => show win2_2.index t (0 : Fin 2) * 1 + 1 * k.val = k.val; rw [(idx2 t).2.2.2.2.1]; omega
  | ⟨1, _⟩ => show win2_2.index t (1 : Fin 2) * 64 + 1 * q.val = q.val; rw [(idx2 t).2.2.2.2.2.1]; omega

theorem blk2_3 (c : Dev nD) (t : Fin cfg2.N) (k : Fin 1) (q : Fin 64) :
    (iblk2 V c 3 t : Vec Ideal S1x64 .f32) (ix2 k q) = (V c main_v41 : S1x64.Idx → EReal) (ix2 k q) := by
  unfold iblk2
  rw [View.read_apply]
  show V c main_v41 _ = V c main_v41 _
  congr 1
  funext a
  apply Fin.ext
  match a with
  | ⟨0, _⟩ => show win2_3.index t (0 : Fin 2) * 1 + 1 * k.val = k.val; rw [(idx2 t).2.2.2.2.2.2.1]; omega
  | ⟨1, _⟩ => show win2_3.index t (1 : Fin 2) * 64 + 1 * q.val = q.val; rw [(idx2 t).2.2.2.2.2.2.2.1]; omega

theorem blk2_4 (c : Dev nD) (t : Fin cfg2.N) (k : Fin 1) (q : Fin 64) :
    (iblk2 V c 4 t : Vec Ideal S1x64 .f32) (ix2 k q) = (V c main_v42 : S1x64.Idx → EReal) (ix2 k q) := by
  unfold iblk2
  rw [View.read_apply]
  show V c main_v42 _ = V c main_v42 _
  congr 1
  funext a
  apply Fin.ext
  match a with
  | ⟨0, _⟩ => show win2_4.index t (0 : Fin 2) * 1 + 1 * k.val = k.val; rw [(idx2 t).2.2.2.2.2.2.2.2.1]; omega
  | ⟨1, _⟩ => show win2_4.index t (1 : Fin 2) * 64 + 1 * q.val = q.val; rw [(idx2 t).2.2.2.2.2.2.2.2.2.1]; omega

theorem blk2_5 (c : Dev nD) (t : Fin cfg2.N) (k : Fin 64) (q : Fin 64) :
    (iblk2 V c 5 t : Vec Ideal S64x64 .bf16) (ix2 k q) = (V c main_v13 : S64x64.Idx → EReal) (ix2 k q) := by
  unfold iblk2
  rw [View.read_apply]
  show V c main_v13 _ = V c main_v13 _
  congr 1
  funext a
  apply Fin.ext
  match a with
  | ⟨0, _⟩ => show win2_5.index t (0 : Fin 2) * 64 + 1 * k.val = k.val; rw [(idx2 t).2.2.2.2.2.2.2.2.2.2.1]; omega
  | ⟨1, _⟩ => show win2_5.index t (1 : Fin 2) * 64 + 1 * q.val = q.val; rw [(idx2 t).2.2.2.2.2.2.2.2.2.2.2.1]; omega

theorem blk2_6 (c : Dev nD) (t : Fin cfg2.N) (r : Fin 5000) (n : Fin 100000) (hn : n.val = t.val * 5000 + r.val) (q : Fin 1) :
    (iblk2 V c 6 t : Vec Ideal S5000x1 .f32) (ix2 r q) = (V c main_v11 : S100000x1.Idx → EReal) (ix2 n q) := by
  unfold iblk2
  rw [View.read_apply]
  show V c main_v11 _ = V c main_v11 _
  congr 1
  funext a
  apply Fin.ext
  match a with
  | ⟨0, _⟩ => show win2_6.index t (0 : Fin 2) * 5000 + 1 * r.val = n.val; rw [(idx2 t).2.2.2.2.2.2.2.2.2.2.2.2.1, hn]; omega
  | ⟨1, _⟩ => show win2_6.index t (1 : Fin 2) * 1 + 1 * q.val = q.val; rw [(idx2 t).2.2.2.2.2.2.2.2.2.2.2.2.2.1]; omega

theorem emb2_7 (t : Fin cfg2.N) (r : Fin 5000) (q : Fin 64) (n : Fin 100000) (hn : n.val = t.val * 5000 + r.val) :
    ((cfg2.win 7).blk t).view.emb (ix2 r q) = (ix2 n q : S100000x64.Idx) := by
  funext a
  apply Fin.ext
  match a with
  | ⟨0, _⟩ => show win2_7.index t (0 : Fin 2) * 5000 + 1 * r.val = n.val; rw [(idx2 t).2.2.2.2.2.2.2.2.2.2.2.2.2.2.1, hn]; omega
  | ⟨1, _⟩ => show win2_7.index t (1 : Fin 2) * 64 + 1 * q.val = q.val; rw [(idx2 t).2.2.2.2.2.2.2.2.2.2.2.2.2.2.2.1]; omega

theorem mem_blk2_7 (t : Fin cfg2.N) (i : S100000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v43_0).slice (win2_7.rect t)).set ↔ _
  rw [View.set_slice_whole, Rect.mem_set_unit]
  exact Iff.rfl

/-- Every entry of the array lies in the block of the point its row belongs to. -/
theorem cover2_7' (i : S100000x64.Idx) :
    ∃ t : Fin cfg2.N, (cfg2.win 7).flush t = true ∧ i ∈ ((cfg2.win 7).blk t).view.set := by
  have hN : cfg2.N = 20 := N_2
  have h0 : (i 0).val < 100000 := (i 0).isLt
  have h1 : (i 1).val < 64 := (i 1).isLt
  have hq : (i 0).val / 5000 < cfg2.N := by omega
  refine ⟨⟨(i 0).val / 5000, hq⟩, flush2_7 _, ?_⟩
  rw [mem_blk2_7]
  intro a
  have e0 := (idx2 ⟨(i 0).val / 5000, hq⟩).2.2.2.2.2.2.2.2.2.2.2.2.2.2.1
  have e1 := (idx2 ⟨(i 0).val / 5000, hq⟩).2.2.2.2.2.2.2.2.2.2.2.2.2.2.2.1
  match a with
  | ⟨0, _⟩ =>
    show win2_7.index ⟨(i 0).val / 5000, hq⟩ (0 : Fin 2) * 5000 ≤ (i 0).val
      ∧ (i 0).val < win2_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win2_7.index ⟨(i 0).val / 5000, hq⟩ (1 : Fin 2) * 64 ≤ (i 1).val
      ∧ (i 1).val < win2_7.index ⟨(i 0).val / 5000, hq⟩ (1 : Fin 2) * 64 + 64
    rw [e1]
    omega

theorem emb2_8 (t : Fin cfg2.N) (r : Fin 5000) (q : Fin 64) (n : Fin 100000) (hn : n.val = t.val * 5000 + r.val) :
    ((cfg2.win 8).blk t).view.emb (ix2 r q) = (ix2 n q : S100000x64.Idx) := by
  funext a
  apply Fin.ext
  match a with
  | ⟨0, _⟩ => show win2_8.index t (0 : Fin 2) * 5000 + 1 * r.val = n.val; rw [(idx2 t).2.2.2.2.2.2.2.2.2.2.2.2.2.2.2.2.1, hn]; omega
  | ⟨1, _⟩ => show win2_8.index t (1 : Fin 2) * 64 + 1 * q.val = q.val; rw [(idx2 t).2.2.2.2.2.2.2.2.2.2.2.2.2.2.2.2.2]; omega

theorem mem_blk2_8 (t : Fin cfg2.N) (i : S100000x64.Idx) :
    i ∈ ((cfg2.win 8).blk t).view.set ↔ ∀ a : Fin 2, win2_8.index t a * S5000x64.size a ≤ (i a).val
      ∧ (i a).val < win2_8.index t a * S5000x64.size a + S5000x64.size a := by
  show i ∈ ((View.whole main_v43_1).slice (win2_8.rect t)).set ↔ _
  rw [View.set_slice_whole, Rect.mem_set_unit]
  exact Iff.rfl

/-- Every entry of the array lies in the block of the point its row belongs to. -/
theorem cover2_8' (i : S100000x64.Idx) :
    ∃ t : Fin cfg2.N, (cfg2.win 8).flush t = true ∧ i ∈ ((cfg2.win 8).blk t).view.set := by
  have hN : cfg2.N = 20 := N_2
  have h0 : (i 0).val < 100000 := (i 0).isLt
  have h1 : (i 1).val < 64 := (i 1).isLt
  have hq : (i 0).val / 5000 < cfg2.N := by omega
  refine ⟨⟨(i 0).val / 5000, hq⟩, flush2_8 _, ?_⟩
  rw [mem_blk2_8]
  intro a
  have e0 := (idx2 ⟨(i 0).val / 5000, hq⟩).2.2.2.2.2.2.2.2.2.2.2.2.2.2.2.2.1
  have e1 := (idx2 ⟨(i 0).val / 5000, hq⟩).2.2.2.2.2.2.2.2.2.2.2.2.2.2.2.2.2
  match a with
  | ⟨0, _⟩ =>
    show win2_8.index ⟨(i 0).val / 5000, hq⟩ (0 : Fin 2) * 5000 ≤ (i 0).val
      ∧ (i 0).val < win2_8.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win2_8.index ⟨(i 0).val / 5000, hq⟩ (1 : Fin 2) * 64 ≤ (i 1).val
      ∧ (i 1).val < win2_8.index ⟨(i 0).val / 5000, hq⟩ (1 : Fin 2) * 64 + 64
    rw [e1]
    omega

/-- The body's product at a row of block t, in terms of the arrays. -/
theorem bn2_at (c : Dev nD) (t : Fin cfg2.N) (r : Fin 5000) (q : Fin 64) (hlt : t.val * 5000 + r.val < 100000) :
    k2_pay1 (F := Ideal) (iblk2 V c 0 t) (iblk2 V c 1 t) (iblk2 V c 2 t) (iblk2 V c 3 t) (iblk2 V c 4 t) (iblk2 V c 5 t) (ix2 r q)
      = Gcn2.mm (Gcn2.bnrelu (matOf (V c main_v27_0)) (rowOf (V c main_v31)) (rowOf (V c main_v40)) (rowOf (V c main_v41))
          (rowOf (V c main_v42))) (wtOf (V c main_v13)) ⟨t.val * 5000 + r.val, hlt⟩ q := by
  refine (pay2_1_apply (iblk2 V c 0 t) (iblk2 V c 1 t) (iblk2 V c 2 t) (iblk2 V c 3 t) (iblk2 V c 4 t) (iblk2 V c 5 t) r q).trans ?_
  exact Finset.sum_congr rfl fun k _ => by
    rw [blk2_0 V c t r ⟨t.val * 5000 + r.val, hlt⟩ rfl k, blk2_1 V c t 0 k, blk2_2 V c t 0 k, blk2_3 V c t 0 k,
      blk2_4 V c t 0 k, blk2_5 V c t k q]; rfl

/-- What point t writes back to the product array is block t of the whole product. -/
theorem flushed2_7 (c : Dev nD) (t : Fin cfg2.N) :
    (dat2 V c).flushed 7 t = ((cfg2.win 7).blk t).view.read (Elt Ideal)
      (Gbn (V c main_v27_0) (V c main_v31) (V c main_v40) (V c main_v41) (V c main_v42) (V c main_v13)) := by
  show (cfg2.win 7).cut (grid2.coords t) ((dat2 V c).after 7 t) = _
  rw [after2_7]
  unfold out2_7
  rw [View.canon_unit_zero hz2]
  simp only [View.ld_unit_zero (S := S5000x64) hz2, View.ld_unit_zero (S := S1x64) hz2, View.ld_unit_zero (S := S64x64) hz2]
  funext y
  obtain ⟨r, q, rfl⟩ : ∃ (r : Fin 5000) (q : Fin 64), y = ix2 r q := ⟨y 0, y 1, eq_ix2 y⟩
  have hN : cfg2.N = 20 := N_2
  have ht := t.isLt
  have hr := r.isLt
  have hlt : t.val * 5000 + r.val < 100000 := by omega
  refine (bn2_at V c t r q hlt).trans ?_
  rw [View.read_apply, emb2_7 t r q ⟨t.val * 5000 + r.val, hlt⟩ rfl]
  rfl

/-- What point t writes back to the scaled array is block t of the whole scaled product. -/
theorem flushed2_8 (c : Dev nD) (t : Fin cfg2.N) :
    (dat2 V c).flushed 8 t = ((cfg2.win 8).blk t).view.read (Elt Ideal)
      (Gbns (V c main_v27_0) (V c main_v31) (V c main_v40) (V c main_v41) (V c main_v42) (V c main_v13) (V c main_v11)) := by
  show (cfg2.win 8).cut (grid2.coords t) ((dat2 V c).after 8 t) = _
  rw [after2_8]
  unfold out2_8
  rw [View.canon_unit_zero hz2]
  simp only [View.ld_unit_zero (S := S5000x64) hz2, View.ld_unit_zero (S := S1x64) hz2, View.ld_unit_zero (S := S64x64) hz2, View.ld_unit_zero (S := S5000x1) hz2]
  funext y
  obtain ⟨r, q, rfl⟩ : ∃ (r : Fin 5000) (q : Fin 64), y = ix2 r q := ⟨y 0, y 1, eq_ix2 y⟩
  have hN : cfg2.N = 20 := N_2
  have ht := t.isLt
  have hr := r.isLt
  have hlt : t.val * 5000 + r.val < 100000 := by omega
  refine (pay2_2_apply (iblk2 V c 0 t) (iblk2 V c 1 t) (iblk2 V c 2 t) (iblk2 V c 3 t) (iblk2 V c 4 t) (iblk2 V c 5 t) (iblk2 V c 6 t) r q).trans ?_
  rw [bn2_at V c t r q hlt, blk2_6 V c t r ⟨t.val * 5000 + r.val, hlt⟩ rfl 0, View.read_apply,
    emb2_8 t r q ⟨t.val * 5000 + r.val, hlt⟩ rfl]
  rfl

theorem final2_7 (c : Dev nD) : (dat2 V c).arrAt 7 cfg2.N
    = Gbn (V c main_v27_0) (V c main_v31) (V c main_v40) (V c main_v41) (V c main_v42) (V c main_v13) :=
  (dat2 V c).arrAt_eq_of_cover 7 _ (fun t _ => flushed2_7 V c t) cover2_7'

theorem final2_8 (c : Dev nD) : (dat2 V c).arrAt 8 cfg2.N
    = Gbns (V c main_v27_0) (V c main_v31) (V c main_v40) (V c main_v41) (V c main_v42) (V c main_v13) (V c main_v11) :=
  (dat2 V c).arrAt_eq_of_cover 8 _ (fun t _ => flushed2_8 V c t) cover2_8'

end Cert.KSide

end
-- ==== Proof.Region3.lean ====
/-
  The last kernel region: each point t combines rows 5000·t … 5000·t + 4999. Its result array therefore holds, at every
  entry (n, q),  d(n,0) · (agg(n,q) + d(n,0) · h(n,q)) + b(0,q)  of the arrays the region is entered with.
-/
import proofs.«154069_j67044439491163_2_alg».proof.Proof.Gen.KernelIdeal.Frame
import proofs.«154069_j67044439491163_2_alg».proof.Proof.KPay
import proofs.«154069_j67044439491163_2_alg».proof.Proof.KBlk
import Idealize.ShloMosaic.Lib.Pipeline.Value

set_option maxRecDepth 16384

noncomputable section

namespace Cert.KSide

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at point t: the row-tiled windows at block row t, the bias row whole. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The combined array, entry by entry. -/
def G3 (hp ag : S100000x64.Idx → EReal) (d : S100000x1.Idx → EReal) (b : S1x64.Idx → EReal) : S100000x64.Idx → EReal :=
  arr2 fun n q => d (ix2 n (0 : Fin 1)) * (ag (ix2 n q) + d (ix2 n (0 : Fin 1)) * hp (ix2 n q)) + b (ix2 (0 : Fin 1) q)

theorem blk3_0 (c : Dev nD) (t : Fin cfg3.N) (r : Fin 5000) (q : Fin 64) (n : Fin 100000) (hn : n.val = t.val * 5000 + r.val) :
    (iblk3 V c 0 t : Vec Ideal S5000x64 .f32) (ix2 r q) = (V c main_v43_0 : S100000x64.Idx → EReal) (ix2 n q) := by
  unfold iblk3
  rw [View.read_apply]
  show V c main_v43_0 _ = V c main_v43_0 _
  congr 1
  funext a
  apply Fin.ext
  match a with
  | ⟨0, _⟩ => show win3_0.index t (0 : Fin 2) * 5000 + 1 * r.val = n.val; rw [(idx3 t).1, hn]; omega
  | ⟨1, _⟩ => show win3_0.index t (1 : Fin 2) * 64 + 1 * q.val = q.val; rw [(idx3 t).2.1]; omega

theorem blk3_1 (c : Dev nD) (t : Fin cfg3.N) (r : Fin 5000) (q : Fin 64) (n : Fin 100000) (hn : n.val = t.val * 5000 + r.val) :
    (iblk3 V c 1 t : Vec Ideal S5000x64 .f32) (ix2 r q) = (V c main_v54 : S100000x64.Idx → EReal) (ix2 n q) := by
  unfold iblk3
  rw [View.read_apply]
  show V c main_v54 _ = V c main_v54 _
  congr 1
  funext a
  apply Fin.ext
  match a with
  | ⟨0, _⟩ => show win3_1.index t (0 : Fin 2) * 5000 + 1 * r.val = n.val; rw [(idx3 t).2.2.1, hn]; omega
  | ⟨1, _⟩ => show win3_1.index t (1 : Fin 2) * 64 + 1 * q.val = q.val; rw [(idx3 t).2.2.2.1]; omega

theorem blk3_2 (c : Dev nD) (t : Fin cfg3.N) (r : Fin 5000) (z : Fin 1) (n : Fin 100000) (hn : n.val = t.val * 5000 + r.val) :
    (iblk3 V c 2 t : Vec Ideal S5000x1 .f32) (ix2 r z) = (V c main_v11 : S100000x1.Idx → EReal) (ix2 n z) := by
  unfold iblk3
  rw [View.read_apply]
  show V c main_v11 _ = V c main_v11 _
  congr 1
  funext a
  apply Fin.ext
  match a with
  | ⟨0, _⟩ => show win3_2.index t (0 : Fin 2) * 5000 + 1 * r.val = n.val; rw [(idx3 t).2.2.2.2.1, hn]; omega
  | ⟨1, _⟩ => show win3_2.index t (1 : Fin 2) * 1 + 1 * z.val = z.val; rw [(idx3 t).2.2.2.2.2.1]; omega

theorem blk3_3 (c : Dev nD) (t : Fin cfg3.N) (z : Fin 1) (q : Fin 64) :
    (iblk3 V c 3 t : Vec Ideal S1x64 .f32) (ix2 z q) = (V c main_v55 : S1x64.Idx → EReal) (ix2 z q) := by
  unfold iblk3
  rw [View.read_apply]
  show V c main_v55 _ = V c main_v55 _
  congr 1
  funext a
  apply Fin.ext
  match a with
  | ⟨0, _⟩ => show win3_3.index t (0 : Fin 2) * 1 + 1 * z.val = z.val; rw [(idx3 t).2.2.2.2.2.2.1]; omega
  | ⟨1, _⟩ => show win3_3.index t (1 : Fin 2) * 64 + 1 * q.val = q.val; rw [(idx3 t).2.2.2.2.2.2.2.1]; omega

theorem emb3_4 (t : Fin cfg3.N) (r : Fin 5000) (q : Fin 64) (n : Fin 100000) (hn : n.val = t.val * 5000 + r.val) :
    ((cfg3.win 4).blk t).view.emb (ix2 r q) = (ix2 n q : S100000x64.Idx) := by
  funext a
  apply Fin.ext
  match a with
  | ⟨0, _⟩ => show win3_4.index t (0 : Fin 2) * 5000 + 1 * r.val = n.val; rw [(idx3 t).2.2.2.2.2.2.2.2.1, hn]; omega
  | ⟨1, _⟩ => show win3_4.index t (1 : Fin 2) * 64 + 1 * q.val = q.val; rw [(idx3 t).2.2.2.2.2.2.2.2.2]; omega

/-- What point t writes back is block t of the combined array. -/
theorem flushed3_4 (c : Dev nD) (t : Fin cfg3.N) :
    (dat3 V c).flushed 4 t = ((cfg3.win 4).blk t).view.read (Elt Ideal)
      (G3 (V c main_v43_0) (V c main_v54) (V c main_v11) (V c main_v55)) := by
  show (cfg3.win 4).cut (grid3.coords t) ((dat3 V c).after 4 t) = _
  rw [after3_4]
  unfold out3_4
  rw [View.canon_unit_zero hz2]
  simp only [View.ld_unit_zero (S := S5000x64) hz2, View.ld_unit_zero (S := S5000x1) hz2, View.ld_unit_zero (S := S1x64) hz2]
  funext y
  obtain ⟨r, q, rfl⟩ : ∃ (r : Fin 5000) (q : Fin 64), y = ix2 r q := ⟨y 0, y 1, eq_ix2 y⟩
  have hN : cfg3.N = 20 := N_3
  have ht := t.isLt
  have hr := r.isLt
  have hlt : t.val * 5000 + r.val < 100000 := by omega
  refine (pay3_1_apply (iblk3 V c 2 t) (iblk3 V c 1 t) (iblk3 V c 0 t) (iblk3 V c 3 t) r q).trans ?_
  rw [blk3_2 V c t r 0 ⟨t.val * 5000 + r.val, hlt⟩ rfl, blk3_1 V c t r q ⟨t.val * 5000 + r.val, hlt⟩ rfl,
    blk3_0 V c t r q ⟨t.val * 5000 + r.val, hlt⟩ rfl, blk3_3 V c t 0 q, View.read_apply,
    emb3_4 t r q ⟨t.val * 5000 + r.val, hlt⟩ rfl]
  rfl

theorem mem_blk3_4 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v56).slice (win3_4.rect t)).set ↔ _
  rw [View.set_slice_whole, Rect.mem_set_unit]
  exact Iff.rfl

/-- The blocks cover the array, so it ends holding the combined array. -/
theorem final3 (c : Dev nD) :
    (dat3 V c).arrAt 4 cfg3.N = G3 (V c main_v43_0) (V c main_v54) (V c main_v11) (V c main_v55) :=
  (dat3 V c).arrAt_eq_of_cover 4 _ (fun t _ => flushed3_4 V c t) fun i => by
    have hN : cfg3.N = 20 := N_3
    have h0 : (i 0).val < 100000 := (i 0).isLt
    have h1 : (i 1).val < 64 := (i 1).isLt
    have hq : (i 0).val / 5000 < cfg3.N := by omega
    refine ⟨⟨(i 0).val / 5000, hq⟩, flush3_4 _, ?_⟩
    rw [mem_blk3_4]
    intro a
    obtain ⟨-, -, -, -, -, -, -, -, e0, e1⟩ := idx3 ⟨(i 0).val / 5000, hq⟩
    match a with
    | ⟨0, _⟩ =>
      show win3_4.index ⟨(i 0).val / 5000, hq⟩ (0 : Fin 2) * 5000 ≤ (i 0).val
        ∧ (i 0).val < win3_4.index ⟨(i 0).val / 5000, hq⟩ (0 : Fin 2) * 5000 + 5000
      rw [e0]
      show (i 0).val / 5000 * 5000 ≤ (i 0).val ∧ (i 0).val < (i 0).val / 5000 * 5000 + 5000
      omega
    | ⟨1, _⟩ =>
      show win3_4.index ⟨(i 0).val / 5000, hq⟩ (1 : Fin 2) * 64 ≤ (i 1).val
        ∧ (i 1).val < win3_4.index ⟨(i 0).val / 5000, hq⟩ (1 : Fin 2) * 64 + 64
      rw [e1]
      omega

end Cert.KSide

end
-- ==== Proof.KHost3.lean ====
/-
  Through the third and fourth kernel regions. The third leaves the normalised, rectified matrix times the second weight
  matrix, and that product with each row scaled by the node's factor; the host aggregates the scaled rows along the
  edges as before and lays the second bias out as a row; the fourth region combines them into the result.
-/
import proofs.«154069_j67044439491163_2_alg».proof.Proof.Gen.KernelIdeal.Frame
import proofs.«154069_j67044439491163_2_alg».proof.Proof.Gen.ReferenceIdeal.Read
import proofs.«154069_j67044439491163_2_alg».proof.Proof.KHost2
import proofs.«154069_j67044439491163_2_alg».proof.Proof.Region2
import proofs.«154069_j67044439491163_2_alg».proof.Proof.Region3
import proofs.«154069_j67044439491163_2_alg».proof.Proof.KBlk
import proofs.«154069_j67044439491163_2_alg».proof.Proof.KTerms
import proofs.«154069_j67044439491163_2_alg».proof.Proof.KStat
import Idealize.ShloMosaic.Lib.StableHlo.Run

set_option maxRecDepth 16384

noncomputable section

namespace Cert.KSide

open Cert.KernelIdeal Cert.KernelIdeal.Gen
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

theorem W6_v1 (c : Dev nD) : W6 m ρ c (Proc.devRef .tc main_v1) = Cert.ReferenceIdeal.Read.val_main_v1 (F := Ideal) (m ((c : Thread nD τ).loc main_arg1)) :=
  (W6_of_ne m ρ c main_v1 (by decide)).trans (W5_v1 m ρ c)
theorem W6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v11 (c : Dev nD) : W6 m ρ c (Proc.devRef .tc main_v11) = Dcol (m ((c : Thread nD τ).loc main_arg1)) :=
  (W6_arr m ρ c 6).trans (((dat2 (V5 m ρ) c).arrAt_in 6 rfl _).trans ((A_eq2 (V5 m ρ) c 6).trans (W5_v11 m ρ c)))
theorem W6_arg7 (c : Dev nD) : W6 m ρ c (Proc.devRef .tc main_arg7) = m ((c : Thread nD τ).loc main_arg7) :=
  (W6_of_ne m ρ c main_arg7 (by decide)).trans (W5_arg7 m ρ c)

theorem V5_rw (c : Dev nD) : V5 m ρ c main_v27_0 = Hk (m ((c : Thread nD τ).loc main_arg0)) (m ((c : Thread nD τ).loc main_arg1)) (m ((c : Thread nD τ).loc main_arg2)) (m ((c : Thread nD τ).loc main_arg3)) ∧ V5 m ρ c main_v31 = muTerm (SUMk (m ((c : Thread nD τ).loc main_arg0)) (m ((c : Thread nD τ).loc main_arg1)) (m ((c : Thread nD τ).loc main_arg2)) (m ((c : Thread nD τ).loc main_arg3))) ∧ V5 m ρ c main_v40 = rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))
    ∧ V5 m ρ c main_v41 = shapeCast S1x64 (m ((c : Thread nD τ).loc main_arg4)) shapeCasts_S64_S1x64 ∧ V5 m ρ c main_v42 = shapeCast S1x64 (m ((c : Thread nD τ).loc main_arg5)) shapeCasts_S64_S1x64
    ∧ (V5 m ρ c main_v13 : S64x64.Idx → EReal) = m ((c : Thread nD τ).loc main_arg6) ∧ V5 m ρ c main_v11 = Dcol (m ((c : Thread nD τ).loc main_arg1)) :=
  ⟨W5_v27_0 m ρ c, W5_v31 m ρ c, W5_v40 m ρ c, W5_v41 m ρ c, W5_v42 m ρ c, W5_v13 m ρ c, W5_v11 m ρ c⟩

/-- The second layer's product after the third region. -/
theorem W6_v43_0 (c : Dev nD) : W6 m ρ c (Proc.devRef .tc main_v43_0) = Gbn (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6)) := by
  refine (W6_arr m ρ c 7).trans ((final2_7 (V5 m ρ) c).trans ?_)
  rw [(V5_rw m ρ c).1, (V5_rw m ρ c).2.1, (V5_rw m ρ c).2.2.1, (V5_rw m ρ c).2.2.2.1, (V5_rw m ρ c).2.2.2.2.1,
    (V5_rw m ρ c).2.2.2.2.2.1]
/-- The second layer's scaled product after the third region. -/
theorem W6_v43_1 (c : Dev nD) : W6 m ρ c (Proc.devRef .tc main_v43_1) = Gbns (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6)) (Dcol (m ((c : Thread nD τ).loc main_arg1))) := by
  refine (W6_arr m ρ c 8).trans ((final2_8 (V5 m ρ) c).trans ?_)
  rw [(V5_rw m ρ c).1, (V5_rw m ρ c).2.1, (V5_rw m ρ c).2.2.1, (V5_rw m ρ c).2.2.2.1, (V5_rw m ρ c).2.2.2.2.1,
    (V5_rw m ρ c).2.2.2.2.2.1, (V5_rw m ρ c).2.2.2.2.2.2]

theorem W7_v11 (c : Dev nD) : W7 m ρ c (Proc.devRef .tc main_v11)
    = Dcol (m ((c : Thread nD τ).loc main_arg1)) := by
  show StableHlo.after hostOps3 (W6 m ρ c) (Proc.devRef .tc main_v11) = _
  after_results
  exact W6_v11 m ρ c

theorem W7_v43_0 (c : Dev nD) : W7 m ρ c (Proc.devRef .tc main_v43_0)
    = Gbn (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6)) := by
  show StableHlo.after hostOps3 (W6 m ρ c) (Proc.devRef .tc main_v43_0) = _
  after_results
  exact W6_v43_0 m ρ c

set_option maxHeartbeats 2000000 in
/-- The second layer's aggregated rows. -/
theorem W7_v54 (c : Dev nD) : W7 m ρ c (Proc.devRef .tc main_v54) = aggTerm (Gbns (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6)) (Dcol (m ((c : Thread nD τ).loc main_arg1)))) (m ((c : Thread nD τ).loc main_arg1)) := by
  show StableHlo.after hostOps3 (W6 m ρ c) (Proc.devRef .tc main_v54) = _
  after_results_simp
  rw [W6_v3 m ρ c, W6_v43_1 m ρ c, W6_v1 m ρ c]
  rfl
/-- The second bias as a row. -/
theorem W7_v55 (c : Dev nD) : W7 m ρ c (Proc.devRef .tc main_v55) = shapeCast S1x64 (m ((c : Thread nD τ).loc main_arg7)) shapeCasts_S64_S1x64 := by
  show StableHlo.after hostOps3 (W6 m ρ c) (Proc.devRef .tc main_v55) = _
  after_results
  rw [W6_arg7 m ρ c]
  rfl

/-- The result array at the last boundary. -/
theorem W8_v56 (c : Dev nD) : W8 m ρ c (Proc.devRef .tc main_v56)
    = Gc (Gbn (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6))) (aggTerm (Gbns (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3)))) (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3)))) (shapeCast S1x64 (m ((c : Thread nD τ).loc main_arg4)) shapeCasts_S64_S1x64) (shapeCast S1x64 (m ((c : Thread nD τ).loc main_arg5)) shapeCasts_S64_S1x64) (m ((c : Thread nD τ).loc main_arg6)) (Dcol (m ((c : Thread nD τ).loc main_arg1)))) (m ((c : Thread nD τ).loc main_arg1))) (Dcol (m ((c : Thread nD τ).loc main_arg1))) (shapeCast S1x64 (m ((c : Thread nD τ).loc main_arg7)) shapeCasts_S64_S1x64) := by
  refine (W8_arr m ρ c 4).trans ((final3 (V7 m ρ) c).trans ?_)
  rw [show V7 m ρ c main_v43_0 = _ from W7_v43_0 m ρ c, show V7 m ρ c main_v54 = _ from W7_v54 m ρ c,
    show V7 m ρ c main_v11 = _ from W7_v11 m ρ c, show V7 m ρ c main_v55 = _ from W7_v55 m ρ c]
  rfl

end Cert.KSide

end
-- ==== Proof.KChain.lean ====
/-
  The kernel-side arrays compose to the factored two-layer network.

  The combine step d n · (agg n q + d n · h n q) + b q, with d the column of node factors, agg the array that holds at
  (n, q) the sum over the edges arriving at n of the scaled product's row at the edge's source, h the product and b the
  bias row, is one factored convolution of h. The per-tile column sums of the combined matrix, summed over the tiles and
  divided by the number of rows, are its tiled mean; likewise the second moment, hence the reciprocal standard
  deviation. The normalised, rectified matrix times the second weights, combined the same way, is the second
  convolution. Everything is unfolding; nothing needs the entries to be finite.
-/
import Idealize.ShloMosaic.Lib.ValueIdx
import Idealize.ShloMosaic.PureOps.Ideal
import proofs.«154069_j67044439491163_2_alg».proof.Proof.Spec
import proofs.«154069_j67044439491163_2_alg».proof.Proof.KBlk

noncomputable section

namespace Cert.KSide

open Idealize.ShloMosaic Idealize.ShloMosaic.ValueIdx
open scoped BigOperators

/-- A vector [64] by its coordinate. -/
def chanOf (x : (⟨1, ![64]⟩ : Shape).Idx → EReal) : Gcn2.Chan := fun j => x (ix1 j)

theorem matOf_arr2 (g : Gcn2.Mat) : matOf (arr2 g) = g := rfl

/-- The combine step over the aggregated scaled rows is one factored convolution. -/
theorem comb_eq_convK (dis : Fin 100000 → EReal) (land : Fin 100000 → Finset (Fin 1600000)) (sr : Fin 1600000 → Fin 100000)
    (H : Gcn2.Mat) (Hs AGG : (⟨2, ![100000, 64]⟩ : Shape).Idx → EReal)
    (D : (⟨2, ![100000, 1]⟩ : Shape).Idx → EReal) (B : (⟨2, ![1, 64]⟩ : Shape).Idx → EReal) (b : Gcn2.Chan)
    (hD : ∀ n, D (ix2 n (0 : Fin 1)) = dis n)
    (hAGG : ∀ n j, AGG (ix2 n j) = 0 + ∑ e ∈ land n, Hs (ix2 (sr e) j))
    (hHs : ∀ n j, Hs (ix2 n j) = H n j * D (ix2 n (0 : Fin 1)))
    (hB : ∀ j, B (ix2 (0 : Fin 1) j) = b j) :
    comb (colOf D) (matOf AGG) H (rowOf B) = Gcn2.convK dis land sr H b := by
  funext n q
  simp only [comb, Gcn2.convK, colOf, matOf, rowOf, hD, hAGG, hHs, hB]

/-- The tile sums of a combined matrix give its tiled mean and reciprocal standard deviation. -/
theorem stats_of (h1 : Gcn2.Mat) (hp ag : (⟨2, ![100000, 64]⟩ : Shape).Idx → EReal)
    (D : (⟨2, ![100000, 1]⟩ : Shape).Idx → EReal) (B1 MU RS : (⟨2, ![1, 64]⟩ : Shape).Idx → EReal)
    (hcomb : comb (colOf D) (matOf ag) (matOf hp) (rowOf B1) = h1)
    (hMU : ∀ j, MU (ix2 (0 : Fin 1) j) = Ideal.div (0 + ∑ t : Fin 20, Gsum hp ag D B1 (ix3 t (0 : Fin 1) j)) Gcn2.cN)
    (hRS : ∀ j, RS (ix2 (0 : Fin 1) j) = Ideal.rsqrt (max (Ideal.div (0 + ∑ t : Fin 20, Gsq hp ag D B1 (ix3 t (0 : Fin 1) j)) Gcn2.cN
      - MU (ix2 (0 : Fin 1) j) * MU (ix2 (0 : Fin 1) j)) 0 + Gcn2.cEps)) :
    rowOf MU = Gcn2.meanK h1 ∧ rowOf RS = Gcn2.rstdK h1 := by
  subst hcomb
  have hmu : ∀ j, MU (ix2 (0 : Fin 1) j) = Gcn2.meanK (comb (colOf D) (matOf ag) (matOf hp) (rowOf B1)) j := fun j => by
    rw [hMU]
    simp only [Gsum, arr3_ix3, Gcn2.meanK]
  refine ⟨funext hmu, funext fun j => ?_⟩
  show RS (ix2 (0 : Fin 1) j) = _
  rw [hRS, hmu]
  simp only [Gsq, arr3_ix3, Gcn2.rstdK, Gcn2.varK, Gcn2.ex2K]

theorem chain
    (dis : Fin 100000 → EReal) (land : Fin 100000 → Finset (Fin 1600000)) (sr : Fin 1600000 → Fin 100000)
    (a0 : (⟨2, ![100000, 64]⟩ : Shape).Idx → EReal) (a2 a6 : (⟨2, ![64, 64]⟩ : Shape).Idx → EReal)
    (a3 a4 a5 a7 : (⟨1, ![64]⟩ : Shape).Idx → EReal)
    (D : (⟨2, ![100000, 1]⟩ : Shape).Idx → EReal) (AGG1 AGG2 : (⟨2, ![100000, 64]⟩ : Shape).Idx → EReal)
    (B1 B2 MU RS GA BE : (⟨2, ![1, 64]⟩ : Shape).Idx → EReal)
    (hD : ∀ n, D (ix2 n (0 : Fin 1)) = dis n)
    (hAGG1 : ∀ n j, AGG1 (ix2 n j) = 0 + ∑ e ∈ land n, Gmms a0 a2 D (ix2 (sr e) j))
    (hB1 : ∀ j, B1 (ix2 (0 : Fin 1) j) = a3 (ix1 j))
    (hMU : ∀ j, MU (ix2 (0 : Fin 1) j) = Ideal.div (0 + ∑ t : Fin 20, Gsum (Gmm a0 a2) AGG1 D B1 (ix3 t (0 : Fin 1) j)) Gcn2.cN)
    (hRS : ∀ j, RS (ix2 (0 : Fin 1) j) = Ideal.rsqrt (max (Ideal.div (0 + ∑ t : Fin 20, Gsq (Gmm a0 a2) AGG1 D B1 (ix3 t (0 : Fin 1) j)) Gcn2.cN - MU (ix2 (0 : Fin 1) j) * MU (ix2 (0 : Fin 1) j)) 0 + Gcn2.cEps))
    (hGA : ∀ j, GA (ix2 (0 : Fin 1) j) = a4 (ix1 j)) (hBE : ∀ j, BE (ix2 (0 : Fin 1) j) = a5 (ix1 j))
    (hAGG2 : ∀ n j, AGG2 (ix2 n j) = 0 + ∑ e ∈ land n, Gbns (Gc (Gmm a0 a2) AGG1 D B1) MU RS GA BE a6 D (ix2 (sr e) j))
    (hB2 : ∀ j, B2 (ix2 (0 : Fin 1) j) = a7 (ix1 j)) :
    Gc (Gbn (Gc (Gmm a0 a2) AGG1 D B1) MU RS GA BE a6) AGG2 D B2
      = arr2 (Gcn2.outK dis land sr (matOf a0) (wtOf a2) (chanOf a3) (chanOf a4) (chanOf a5) (wtOf a6) (chanOf a7)) := by
  -- layer one
  have hc1 : comb (colOf D) (matOf AGG1) (Gcn2.mm (matOf a0) (wtOf a2)) (rowOf B1)
      = Gcn2.convK dis land sr (Gcn2.mm (matOf a0) (wtOf a2)) (chanOf a3) :=
    comb_eq_convK dis land sr _ (Gmms a0 a2 D) AGG1 D B1 (chanOf a3) hD hAGG1 (fun n j => rfl) hB1
  have E1 : Gc (Gmm a0 a2) AGG1 D B1
      = arr2 (Gcn2.convK dis land sr (Gcn2.mm (matOf a0) (wtOf a2)) (chanOf a3)) := congrArg arr2 hc1
  -- its statistics
  obtain ⟨hmu, hrs⟩ := stats_of _ (Gmm a0 a2) AGG1 D B1 MU RS hc1 hMU hRS
  have hga : rowOf GA = chanOf a4 := funext hGA
  have hbe : rowOf BE = chanOf a5 := funext hBE
  -- layer two
  simp only [E1] at hAGG2
  have hc2 := comb_eq_convK dis land sr
    (Gcn2.mm (Gcn2.bnrelu (Gcn2.convK dis land sr (Gcn2.mm (matOf a0) (wtOf a2)) (chanOf a3))
      (Gcn2.meanK (Gcn2.convK dis land sr (Gcn2.mm (matOf a0) (wtOf a2)) (chanOf a3)))
      (Gcn2.rstdK (Gcn2.convK dis land sr (Gcn2.mm (matOf a0) (wtOf a2)) (chanOf a3))) (chanOf a4) (chanOf a5)) (wtOf a6))
    (Gbns (arr2 (Gcn2.convK dis land sr (Gcn2.mm (matOf a0) (wtOf a2)) (chanOf a3))) MU RS GA BE a6 D) AGG2 D B2 (chanOf a7)
    hD hAGG2 (fun n j => by simp only [Gbns, arr2_ix2, matOf_arr2, hmu, hrs, hga, hbe, colOf]) hB2
  rw [E1]
  simp only [Gc, Gbn, matOf_arr2, hmu, hrs, hga, hbe]
  rw [hc2]
  rfl

end Cert.KSide

end
-- ==== Proof.LibRowGatherScatter.lean ====
/-
  A gather of whole rows and an accumulating scatter of whole rows, read at an entry, for any extents.

  The operand is a matrix [N, D]; the start indices are a column [E, 1] of integers, one per edge. The gather's
  result [E, D] has, in row e, the operand's row whose number is the e-th start index read as a signed integer and
  clamped into [0, N - 1]. The same for a vector operand [N] and result [E]. The scatter adds row e of the updates
  [E, D] into the operand's row whose number is the e-th index read as a signed integer, NOT clamped: an update whose
  index is outside [0, N) is dropped. So an update entry (e, q) that lands on entry (i, q') has index exactly i and q = q'.
-/
import Idealize.ShloMosaic.Lib.ValueIdx
import Idealize.ShloMosaic.Lib.Pipeline.Value
import Idealize.ShloMosaic.PureOps.Ideal.Laws

noncomputable section

namespace RowGatherScatter

open Idealize.ShloMosaic Idealize.ShloMosaic.ValueIdx

variable {α : Type}

/-- The dimension numbers of a gather of whole rows: operand [N, D], start indices [E, 1], result [E, D]. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of a gather of entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of an accumulating scatter of whole rows: operand [N, D], indices [E, 1], updates [E, D]. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row edge e reads: its start index read signed and clamped into [0, N - 1]. -/
def startRow {E w : Nat} (N : Nat) (hN : 0 < N) (idx : IVec ⟨2, ![E, 1]⟩ w) (e : Fin E) : Fin N :=
  ⟨min (idx (ix2 e (0 : Fin 1))).toInt.toNat (N - 1), by omega⟩

/-- The gather of rows at entry (e, q): the operand at (the row edge e reads, q). -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGatherDims N E D wf) x idx (ix2 e q) = x (ix2 (startRow N hN idx e) q) := by
  unfold Host.gather
  congr 1
  funext a
  refine Fin.ext ?_
  match a with
  | ⟨0, _⟩ =>
    show (rowGatherDims N E D wf).start (ix2 e q) idx 0 + (rowGatherDims N E D wf).batchCoord (ix2 e q) 0
      + (rowGatherDims N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e q) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e q) idx 1 + (rowGatherDims N E D wf).batchCoord (ix2 e q) 1
      + (rowGatherDims N E D wf).offCoord (ix2 e q) 1 = q.val
    rw [GatherDims.batchCoord_eq_zero _ _ _ List.not_mem_nil]
    have hs : (rowGatherDims N E D wf).start (ix2 e q) idx 1 = 0 := by
      unfold GatherDims.start
      rw [dif_neg (show (1 : Fin 2) ∉ [(0 : Fin 2)] by decide)]
    rw [hs]
    have ho : (rowGatherDims N E D wf).offCoord (ix2 e q) 1 = q.val := by
      unfold GatherDims.offCoord
      rw [dif_pos ((GatherDims.mem_sKept _ _).mpr ⟨(show (1 : Fin 2) ∉ [(0 : Fin 2)] by decide), List.not_mem_nil⟩)]
      rfl
    rw [ho]
    omega

/-- The gather of a vector's entries at e: the operand at the row edge e reads. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (startRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- An update entry (e, q) of a scatter of rows that lands on entry i of the operand: the e-th index, read signed, is
    i's row, and q is i's column. -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (i : (⟨2, ![N, D]⟩ : Shape).Idx)
    (h : (rowScatterDims N E D wf).resultIdx? (ix2 e q) idx = some i) :
    (idx (ix2 e (0 : Fin 1))).toInt = ((i 0).val : Int) ∧ (i 1).val = q.val := by
  unfold ScatterDims.resultIdx? at h
  split at h
  · rename_i hin
    have hi := Option.some.inj h
    have hs0 : (rowScatterDims N E D wf).start (ix2 e q) idx 0 = (idx (ix2 e (0 : Fin 1))).toInt := by
      unfold ScatterDims.start
      rw [dif_pos (show (0 : Fin 2) ∈ (rowScatterDims N E D wf).scatterDimsToOperandDims from List.mem_singleton.mpr rfl)]
      have hsi : (rowScatterDims N E D wf).siIdx (ix2 e q) ⟨List.idxOf (0 : Fin 2) (rowScatterDims N E D wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N E D wf).window (ix2 e q) 0 = 0 := by
      unfold ScatterDims.window
      rw [dif_neg (by simp [ScatterDims.sKept, Shape.kept])]
    have hs1 : (rowScatterDims N E D wf).start (ix2 e q) idx 1 = 0 := by
      unfold ScatterDims.start
      rw [dif_neg (show (1 : Fin 2) ∉ [(0 : Fin 2)] by decide)]
    have hw1 : (rowScatterDims N E D wf).window (ix2 e q) 1 = q.val := by
      unfold ScatterDims.window
      rw [dif_pos (by simp [ScatterDims.sKept, Shape.kept])]
      rfl
    have h0 := hin 0
    have e0 := congrArg (fun j : (⟨2, ![N, D]⟩ : Shape).Idx => (j 0).val) hi
    have e1 := congrArg (fun j : (⟨2, ![N, D]⟩ : Shape).Idx => (j 1).val) hi
    simp only at e0 e1
    rw [hs0, hw0] at h0 e0
    rw [hs1, hw1] at e1
    constructor
    · omega
    · omega
  · exact absurd h (by simp)

end RowGatherScatter

end
-- ==== Proof.LibHostEq.lean ====
/-
  On the extended reals the host's accumulating scatter is the exact one: each operand element plus the sum of the
  updates that land on it. Stated over variables, for any shapes and dimension numbers.
-/
import Idealize.ShloMosaic.PureOps.Ideal.Laws

noncomputable section

namespace HostEq

open Idealize.ShloMosaic

/-- The host's scatter-add at the exact instance. -/
theorem scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

end HostEq

end
-- ==== Proof.LibEdgeSums.lean ====
/-
  An accumulating scatter of whole rows, read at an entry as a sum over edges, for any extents.

  The indices are a column [E, 1] of integers, one per edge. Edge e lands on node n when its index, read as a signed
  integer, is n. The scatter of rows [E, D] into [N, D] then holds, at entry (n, q), the operand's entry plus the sum
  over the edges landing on n of the updates' entries (e, q): the set of edges depends on the indices and on n only,
  not on the width D of the rows.
-/
import proofs.«154069_j67044439491163_2_alg».proof.Proof.LibRowGatherScatter
import proofs.«154069_j67044439491163_2_alg».proof.Proof.LibHostEq

noncomputable section

namespace EdgeSums

open Idealize.ShloMosaic Idealize.ShloMosaic.ValueIdx RowGatherScatter
open scoped BigOperators

/-- The edges whose index, read signed, is the node `n`. -/
def landing {E w : Nat} (idx : IVec ⟨2, ![E, 1]⟩ w) (n : Nat) : Finset (Fin E) :=
  Finset.univ.filter fun e => (idx (ix2 e (0 : Fin 1))).toInt = (n : Int)

/-- An update entry (e, q) whose edge lands on node n lands on entry (n, q). -/
theorem lands_of {N E D w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (n : Fin N)
    (h : (idx (ix2 e (0 : Fin 1))).toInt = (n.val : Int)) :
    (rowScatterDims N E D wf).resultIdx? (ix2 e q) idx = some (ix2 n q) := by
  have hs0 : (rowScatterDims N E D wf).start (ix2 e q) idx 0 = (idx (ix2 e (0 : Fin 1))).toInt := by
    unfold ScatterDims.start
    rw [dif_pos (show (0 : Fin 2) ∈ (rowScatterDims N E D wf).scatterDimsToOperandDims from List.mem_singleton.mpr rfl)]
    have hsi : (rowScatterDims N E D wf).siIdx (ix2 e q) ⟨List.idxOf (0 : Fin 2) (rowScatterDims N E D wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatterDims N E D wf).window (ix2 e q) 0 = 0 := by
    unfold ScatterDims.window
    rw [dif_neg (by simp [ScatterDims.sKept, Shape.kept])]
  have hs1 : (rowScatterDims N E D wf).start (ix2 e q) idx 1 = 0 := by
    unfold ScatterDims.start
    rw [dif_neg (show (1 : Fin 2) ∉ [(0 : Fin 2)] by decide)]
  have hw1 : (rowScatterDims N E D wf).window (ix2 e q) 1 = q.val := by
    unfold ScatterDims.window
    rw [dif_pos (by simp [ScatterDims.sKept, Shape.kept])]
    rfl
  have hn := n.isLt
  have hq := q.isLt
  unfold ScatterDims.resultIdx?
  rw [dif_pos]
  · congr 1
    funext a
    refine Fin.ext ?_
    match a with
    | ⟨0, _⟩ =>
      show ((rowScatterDims N E D wf).start (ix2 e q) idx 0 + (rowScatterDims N E D wf).window (ix2 e q) 0).toNat = n.val
      rw [hs0, hw0, h]; simp
    | ⟨1, _⟩ =>
      show ((rowScatterDims N E D wf).start (ix2 e q) idx 1 + (rowScatterDims N E D wf).window (ix2 e q) 1).toNat = q.val
      rw [hs1, hw1]; simp
  · intro a
    match a with
    | ⟨0, _⟩ =>
      show 0 ≤ (rowScatterDims N E D wf).start (ix2 e q) idx 0 + (rowScatterDims N E D wf).window (ix2 e q) 0
        ∧ (rowScatterDims N E D wf).start (ix2 e q) idx 0 + (rowScatterDims N E D wf).window (ix2 e q) 0 < (N : Int)
      rw [hs0, hw0, h]; omega
    | ⟨1, _⟩ =>
      show 0 ≤ (rowScatterDims N E D wf).start (ix2 e q) idx 1 + (rowScatterDims N E D wf).window (ix2 e q) 1
        ∧ (rowScatterDims N E D wf).start (ix2 e q) idx 1 + (rowScatterDims N E D wf).window (ix2 e q) 1 < (D : Int)
      rw [hs1, hw1]; omega

/-- The accumulating scatter of rows at entry (n, q): the operand's entry plus the sum, over the edges landing on n, of
    the updates' entries (e, q). -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatterDims N E D wf) x idx upd (ix2 n q)
      = x (ix2 n q) + ∑ e ∈ landing idx n.val, upd (ix2 e q) := by
  unfold Ideal.hostScatterAdd
  congr 1
  refine Finset.sum_nbij' (fun j => j 0) (fun e => ix2 e q) ?_ ?_ ?_ ?_ ?_
  · intro j hj
    have hj' := (Finset.mem_filter.mp hj).2
    have hji : j = ix2 (j 0) (j 1) := eq_ix2 j
    rw [hji] at hj'
    have := rowScatter_lands wf idx (j 0) (j 1) (ix2 n q) hj'
    exact Finset.mem_filter.mpr ⟨Finset.mem_univ _, this.1⟩
  · intro e he
    have he' := (Finset.mem_filter.mp he).2
    exact Finset.mem_filter.mpr ⟨Finset.mem_univ _, lands_of wf idx e q n he'⟩
  · intro j hj
    have hj' := (Finset.mem_filter.mp hj).2
    have hji : j = ix2 (j 0) (j 1) := eq_ix2 j
    rw [hji] at hj'
    have h2 := (rowScatter_lands wf idx (j 0) (j 1) (ix2 n q) hj').2
    have hq : j 1 = q := Fin.ext h2.symm
    rw [← hq]; exact hji.symm
  · intro e _; rfl
  · intro j hj
    have hj' := (Finset.mem_filter.mp hj).2
    have hji : j = ix2 (j 0) (j 1) := eq_ix2 j
    rw [hji] at hj'
    have h2 := (rowScatter_lands wf idx (j 0) (j 1) (ix2 n q) hj').2
    have hq : j 1 = q := Fin.ext h2.symm
    rw [← hq]; exact congrArg upd hji

end EdgeSums

end
-- ==== Proof.RefDefs.lean ====
/-
  The graph's index data and the arguments as the specification reads them.

  The edge list is an integer array [2, 1600000]: row 0 the sources, row 1 the destinations. From it the reference's own
  first operations make, once and for all: the column of destinations (an edge arrives at node n when its destination,
  read as a signed integer, is n); the column of sources with negative numbers wrapped by +100000 (the row an edge
  reads is that number clamped into [0, 99999]); the same for destinations; and the normalising factor of each node.
  A matrix argument is read by its two coordinates, a vector argument by its one.
-/
import proofs.«154069_j67044439491163_2_alg».proof.Proof.Gen.ReferenceIdeal.Read
import proofs.«154069_j67044439491163_2_alg».proof.Proof.LibEdgeSums
import proofs.«154069_j67044439491163_2_alg».proof.Proof.Spec

noncomputable section

namespace Cert.RefSide

open Cert.ReferenceIdeal Cert.ReferenceIdeal.Read Idealize.ShloMosaic Idealize.ShloMosaic.ValueIdx RowGatherScatter EdgeSums

/-- The edge list's contents. -/
abbrev Edges := (⟨S2x1600000, .i32⟩ : BufTy).Contents (Elt Ideal)

/-- The normalising factor of node n. -/
def disR (x1 : Edges) : Fin 100000 → EReal := fun n => val_main_v10 (F := Ideal) x1 (ix1 n)

/-- The edges arriving at node n. -/
def landR (x1 : Edges) : Fin 100000 → Finset (Fin 1600000) := fun n => landing (val_main_v38 (F := Ideal) x1) n.val

/-- The row edge e reads at its source end. -/
def srR (x1 : Edges) : Fin 1600000 → Fin 100000 := fun e => startRow 100000 (by decide) (val_main_v33 (F := Ideal) x1) e

/-- The row edge e reads at its destination end. -/
def drR (x1 : Edges) : Fin 1600000 → Fin 100000 := fun e => startRow 100000 (by decide) (val_main_v24 (F := Ideal) x1) e

/-- A [100000, 64] array by its coordinates. -/
def mat (x : S100000x64.Idx → EReal) : Gcn2.Mat := fun n k => x (ix2 n k)

/-- A [64, 64] array by its coordinates. -/
def wt (x : S64x64.Idx → EReal) : Gcn2.Wt := fun k j => x (ix2 k j)

/-- A [64] array by its coordinate. -/
def chan (x : S64.Idx → EReal) : Gcn2.Chan := fun j => x (ix1 j)

end Cert.RefSide

end
-- ==== Proof.LibGcnLayout.lean ====
/-
  Layout operations of ranks one and two read at an index, for any extents: a column [a, 1] read as a vector [a] and a
  row [1, b] as a vector [b]; a vector [b] made a row [1, b]; a column [a, 1] and a row [1, b] spread over [a, b]; a
  contiguous piece of a vector. Each result element is one operand element, named by its coordinates.
-/
import Idealize.ShloMosaic.Lib.Pipeline.Value
import Idealize.ShloMosaic.Lib.ValueIdx

noncomputable section

namespace GcnLayout

open Idealize.ShloMosaic Idealize.ShloMosaic.ValueIdx

variable {α : Type}

/-- A column [a, 1] read as a vector: entry p is entry (p, 0). -/
theorem col_cast_apply {a : Nat} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A row [1, b] read as a vector: entry q is entry (0, q). -/
theorem row_uncast_apply {b : Nat} (h : (⟨2, ![1, b]⟩ : Shape).ShapeCasts ⟨1, ![b]⟩)
    (v : (⟨2, ![1, b]⟩ : Shape).Idx → α) (q : Fin b) :
    shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show 0 * b + q.val = q.val
  omega

/-- A vector [b] made a row [1, b]: entry (0, q) is entry q. -/
theorem row_bcast_apply {b : Nat} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A column [a, 1] spread over [a, b]: entry (p, q) is entry (p, 0). -/
theorem col_spread_apply {a b : Nat}
    (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A row [1, b] spread over [a, b]: entry (p, q) is entry (0, q). -/
theorem row_spread_apply {a b : Nat}
    (h : (⟨2, ![1, b]⟩ : Shape).BroadcastsInDim ⟨2, ![a, b]⟩ (![0, 1] : Fin 2 → Fin 2))
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by
      show (0 : Nat) = if (1 : Nat) = 1 then 0 else p.val
      rfl
    | ⟨1, _⟩ => by
      show q.val = if b = 1 then 0 else q.val
      split
      · have := q.isLt; omega
      · rfl)

/-- A contiguous piece of a vector: entry q of the piece starting at `off` is entry `off + q`. -/
theorem piece_apply {n m off : Nat} (h : (⟨1, ![n]⟩ : Shape).Slices ![off] ⟨1, ![m]⟩)
    (v : (⟨1, ![n]⟩ : Shape).Idx → α) (q : Fin m) (hq : off + q.val < n) :
    extractStridedSlice ⟨1, ![m]⟩ ![off] v h (ix1 q) = v (ix1 ⟨off + q.val, hq⟩) :=
  extractStridedSlice_apply ![off] v h (ix1 q) (ix1 ⟨off + q.val, hq⟩) (fun a => match a with
    | ⟨0, _⟩ => rfl)

end GcnLayout

end
-- ==== Proof.LibGcnFoldLaw.lean ====
/-
  The algebra that joins two arrangements of a one-feature graph convolution followed by an edge fold, on the
  extended reals.

  * With every term real, a real factor moves into a finite sum: (Σ f e) · w = Σ (f e · w). (On the extended reals
    this needs the terms real: infinities of opposite sign do not distribute.) So a node's feature computed by
    aggregating scalars and multiplying the total by the channel weight equals the one computed by aggregating the
    already weighted scalars:  max ((0 + Σ ν e · ξ e) · w + β, 0) = max ((0 + Σ ν e · Σ_{k<1} ξ e · w) + β, 0).
  * The edge fold needs no finiteness: the logistic of half the four per-node totals, each total the sum of the node's
    two channels, is 1 / (1 + exp (−(s / 2))) for s the sum over the two halves of the per-edge channel sums, because
    addition on the extended reals is commutative and associative and dividing by the real 2 is multiplying by 1/2.
  * The words 0x3F800000, 0x3F000000, 0x40000000 and 0x2B8CBCCC are the reals 1, 1/2, 2 and a positive number.
-/
import Mathlib
import Idealize.ShloMosaic.PureOps.Ideal

noncomputable section

namespace GcnFoldLaw

open Idealize.ShloMosaic
open scoped BigOperators

/-- An extended real that is the image of a real number. -/
def IsReal (x : EReal) : Prop := ∃ r : ℝ, x = (r : EReal)

theorem isReal_zero : IsReal (0 : EReal) := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real factor moves into a finite sum of real terms. -/
theorem sum_mul_real {ι : Type*} (s : Finset ι) (f : ι → EReal) (w : EReal) (hf : ∀ i ∈ s, IsReal (f i)) (hw : IsReal w) :
    (∑ i ∈ s, f i) * w = ∑ i ∈ s, f i * w := by
  classical
  induction s using Finset.induction_on with
  | empty => simp
  | insert a s ha ih =>
    rw [Finset.sum_insert ha, Finset.sum_insert ha, ← ih fun i hi => hf i (Finset.mem_insert_of_mem hi)]
    obtain ⟨r, hr⟩ := hf a (Finset.mem_insert_self a s)
    obtain ⟨t, ht⟩ := isReal_sum s f fun i hi => hf i (Finset.mem_insert_of_mem hi)
    obtain ⟨u, rfl⟩ := hw
    rw [hr, ht, ← EReal.coe_add, ← EReal.coe_mul, ← EReal.coe_mul, ← EReal.coe_mul, ← EReal.coe_add, add_mul]

/-- The channel weight factored out of the aggregation: both arrangements give one node feature. -/
theorem node_law {ι : Type*} (s : Finset ι) (ν ξ : ι → EReal) (w β : EReal)
    (hν : ∀ e, IsReal (ν e)) (hξ : ∀ e, IsReal (ξ e)) (hw : IsReal w) :
    max ((0 + ∑ e ∈ s, ν e * ξ e) * w + β) 0 = max ((0 + ∑ e ∈ s, ν e * (∑ _k : Fin 1, ξ e * w)) + β) 0 := by
  rw [zero_add, zero_add, sum_mul_real s _ w (fun e _ => (hν e).mul (hξ e)) hw]
  refine congrArg (fun t => max (t + β) 0) (Finset.sum_congr rfl fun e _ => ?_)
  rw [Fin.sum_univ_one, mul_assoc]

/-- The word of 1.0. -/
theorem ofBits_one : Ideal.ofBits .f32 0x3F800000#32 = 1 := by
  simp [Ideal.ofBits, Ideal.ieee, -EReal.coe_mul]; norm_num

/-- The word of 0.5. -/
theorem ofBits_half : Ideal.ofBits .f32 0x3F000000#32 = ((1 / 2 : ℝ) : EReal) := by
  simp [Ideal.ofBits, Ideal.ieee, -EReal.coe_mul]; norm_num

/-- The word of 2.0. -/
theorem ofBits_two : Ideal.ofBits .f32 0x40000000#32 = ((2 : ℝ) : EReal) := by
  simp [Ideal.ofBits, Ideal.ieee, -EReal.coe_mul]; norm_num

/-- The word of 0.0. -/
theorem ofBits_zero : Ideal.ofBits .f32 0x00000000#32 = 0 := by
  simp [Ideal.ofBits, Ideal.ieee]

/-- The edge fold: half the four per-node totals under the logistic, against the mean of the two halves' per-edge
    channel sums under 1 / (1 + exp (−·)). -/
theorem fold_law (a0 a1 b0 b1 c0 c1 d0 d1 : EReal) :
    Ideal.logistic (((1 / 2 : ℝ) : EReal) * ((((0 + (a0 + a1)) + (0 + (b0 + b1))) + (0 + (c0 + c1))) + (0 + (d0 + d1))))
      = Ideal.div 1 (1 + Ideal.exp (-(Ideal.div (0 + ((0 + ((a0 + b0) + (a1 + b1))) + (0 + ((c0 + d0) + (c1 + d1)))))
          ((2 : ℝ) : EReal)))) := by
  rw [Ideal.div_coe (by norm_num : (2 : ℝ) ≠ 0), Ideal.logistic]
  have e : (((0 + (a0 + a1)) + (0 + (b0 + b1))) + (0 + (c0 + c1))) + (0 + (d0 + d1))
      = 0 + ((0 + ((a0 + b0) + (a1 + b1))) + (0 + ((c0 + d0) + (c1 + d1)))) := by
    simp only [zero_add]
    ac_rfl
  rw [e, mul_comm]

end GcnFoldLaw

end
-- ==== Proof.LibGcnHost.lean ====
/-
  The host side of a graph-convolution layer, read at an entry, for any extents.

  * A splat of a scalar reads the scalar at every index.
  * Rows gathered along the edges and scattered (accumulated) into a zero matrix: entry (n, q) is 0 plus the sum, over the
    edges landing on n, of the source row's entry q.
  * A vector [N] stood up as a column and spread over [N, K] reads entry n at (n, k); a vector [M] laid as a row and spread
    over [N, M] reads entry j at (n, j).
  * The layer "aggregate, then weight": where the degree is positive the mean of the gathered rows (the edge sum divided by
    max (degree, 1)), elsewhere the node's own row; times the weight matrix, plus the bias, and the maximum with 0.
  * The two per-node columns of the "weight, then aggregate" arrangement, laid side by side in a two-column matrix: the
    scale (1 / max (degree, 1) where the degree is positive, else 0) and the keep flag (0 where positive, else 1).
  * A vector [M] reshaped to a row [1, M] reads entry k at (0, k).
-/
import Idealize.ShloMosaic.Lib.Pipeline.Value
import Idealize.ShloMosaic.Lib.ValueIdx
import Idealize.ShloMosaic.PureOps.Ideal.Laws
import proofs.«154069_j67044439491163_2_alg».proof.Proof.LibEdgeSums
import proofs.«154069_j67044439491163_2_alg».proof.Proof.LibRowOps
import proofs.«154069_j67044439491163_2_alg».proof.Proof.LibGcnLayout
import proofs.«154069_j67044439491163_2_alg».proof.Proof.LibSoftLayout
import proofs.«154069_j67044439491163_2_alg».proof.Proof.LibGcnFoldLaw

noncomputable section

namespace GcnHost

open Idealize.ShloMosaic Idealize.ShloMosaic.ValueIdx RowGatherScatter EdgeSums
open scoped BigOperators

abbrev S0 : Shape := ⟨0, ![]⟩

/-- A splat of a scalar reads the scalar at every index. -/
theorem splat_apply {α : Type} {s : Shape} (h : S0.BroadcastsInDim s ![]) (v : S0.Idx → α) (i : s.Idx) :
    broadcastInDim s ![] h v i = v ix0 :=
  broadcastInDim_apply _ h v i ix0 (fun a => a.elim0)

/-- A vector [N] stood up as a column [N, 1] and spread over [N, K]: entry (n, k) is entry n. -/
theorem colN_apply {α : Type} {N K : Nat}
    (hcol : (⟨1, ![N]⟩ : Shape).BroadcastsInDim ⟨2, ![N, 1]⟩ (![0] : Fin 1 → Fin 2))
    (hsp : (⟨2, ![N, 1]⟩ : Shape).BroadcastsInDim ⟨2, ![N, K]⟩ (![0, 1] : Fin 2 → Fin 2))
    (v : (⟨1, ![N]⟩ : Shape).Idx → α) (n : Fin N) (k : Fin K) :
    broadcastInDim ⟨2, ![N, K]⟩ ![0, 1] hsp (broadcastInDim ⟨2, ![N, 1]⟩ ![0] hcol v) (ix2 n k) = v (ix1 n) :=
  (GcnLayout.col_spread_apply hsp _ n k).trans (RowOps.vec_col_apply hcol v n (0 : Fin 1))

/-- A vector [M] laid as a row [1, M] and spread over [N, M]: entry (n, j) is entry j. -/
theorem rowM_apply {α : Type} {N M : Nat}
    (hrow : (⟨1, ![M]⟩ : Shape).BroadcastsInDim ⟨2, ![1, M]⟩ (![1] : Fin 1 → Fin 2))
    (hsp : (⟨2, ![1, M]⟩ : Shape).BroadcastsInDim ⟨2, ![N, M]⟩ (![0, 1] : Fin 2 → Fin 2))
    (v : (⟨1, ![M]⟩ : Shape).Idx → α) (n : Fin N) (j : Fin M) :
    broadcastInDim ⟨2, ![N, M]⟩ ![0, 1] hsp (broadcastInDim ⟨2, ![1, M]⟩ ![1] hrow v) (ix2 n j) = v (ix1 j) :=
  (GcnLayout.row_spread_apply hsp _ n j).trans (GcnLayout.row_bcast_apply hrow v (0 : Fin 1) j)

/-- Rows gathered along the edges and accumulated into a zero matrix, at entry (n, q). -/
theorem edgeSum_apply {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (hz : S0.BroadcastsInDim ⟨2, ![N, D]⟩ ![])
    (A : FVec Ideal ⟨2, ![N, D]⟩ .f32) (si di : IVec ⟨2, ![E, 1]⟩ w) (n : Fin N) (q : Fin D) :
    Host.scatterAdd (rowScatterDims N E D wfS) (broadcastInDim ⟨2, ![N, D]⟩ ![] hz (constant (F := Ideal) S0 .f32 0x00000000#32)) di
        (Host.gather (rowGatherDims N E D wfG) A si) (ix2 n q)
      = 0 + ∑ e ∈ landing di n.val, A (ix2 (startRow N hN si e) q) := by
  show Ideal.hostScatterAdd (rowScatterDims N E D wfS) _ di _ (ix2 n q) = _
  rw [rowScatterAdd_apply, splat_apply]
  show Ideal.ofBits .f32 0x00000000#32 + _ = _
  rw [Ideal.ofBits_zero_f32]
  refine congrArg (fun t => (0 : EReal) + t) (Finset.sum_congr rfl fun e _ => ?_)
  exact rowGather_apply hN wfG A si e q

/-- The layer "aggregate, then weight" at entry (n, j). -/
theorem meanLayer_apply {N E K M w : Nat} (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (D : DotDims ⟨2, ![N, K]⟩ ⟨2, ![K, M]⟩ ⟨2, ![N, M]⟩) (hD : D = DotDims.plain N K M)
    (X : FVec Ideal ⟨2, ![N, K]⟩ .f32) (W : FVec Ideal ⟨2, ![K, M]⟩ .f32) (b : FVec Ideal ⟨1, ![M]⟩ .f32)
    (deg : FVec Ideal ⟨1, ![N]⟩ .f32) (si di : IVec ⟨2, ![E, 1]⟩ w)
    (hzK : S0.BroadcastsInDim ⟨2, ![N, K]⟩ ![]) (hzN hoN : S0.BroadcastsInDim ⟨1, ![N]⟩ ![])
    (hzM : S0.BroadcastsInDim ⟨2, ![N, M]⟩ ![])
    (hcol : (⟨1, ![N]⟩ : Shape).BroadcastsInDim ⟨2, ![N, 1]⟩ (![0] : Fin 1 → Fin 2))
    (hspK : (⟨2, ![N, 1]⟩ : Shape).BroadcastsInDim ⟨2, ![N, K]⟩ (![0, 1] : Fin 2 → Fin 2))
    (hrow : (⟨1, ![M]⟩ : Shape).BroadcastsInDim ⟨2, ![1, M]⟩ (![1] : Fin 1 → Fin 2))
    (hspM : (⟨2, ![1, M]⟩ : Shape).BroadcastsInDim ⟨2, ![N, M]⟩ (![0, 1] : Fin 2 → Fin 2))
    (n : Fin N) (j : Fin M) :
    maximumf (addf (Host.dotGeneral D none
        (select (broadcastInDim ⟨2, ![N, K]⟩ ![0, 1] hspK (broadcastInDim ⟨2, ![N, 1]⟩ ![0] hcol
            (cmpf .ogt deg (broadcastInDim ⟨1, ![N]⟩ ![] hzN (constant (F := Ideal) S0 .f32 0x00000000#32)))))
          (Host.divf
            (Host.scatterAdd (rowScatterDims N E K wfS) (broadcastInDim ⟨2, ![N, K]⟩ ![] hzK (constant (F := Ideal) S0 .f32 0x00000000#32)) di
              (Host.gather (rowGatherDims N E K wfG) X si))
            (broadcastInDim ⟨2, ![N, K]⟩ ![0, 1] hspK (broadcastInDim ⟨2, ![N, 1]⟩ ![0] hcol
              (maximumf deg (broadcastInDim ⟨1, ![N]⟩ ![] hoN (constant (F := Ideal) S0 .f32 0x3F800000#32))))))
          X) W)
        (broadcastInDim ⟨2, ![N, M]⟩ ![0, 1] hspM (broadcastInDim ⟨2, ![1, M]⟩ ![1] hrow b)))
      (broadcastInDim ⟨2, ![N, M]⟩ ![] hzM (constant (F := Ideal) S0 .f32 0x00000000#32)) (ix2 n j)
    = max ((∑ k : Fin K, Scalar.select (Ideal.cmp .ogt (deg (ix1 n)) 0)
            (Ideal.div (0 + ∑ e ∈ landing di n.val, X (ix2 (startRow N hN si e) k)) (max (deg (ix1 n)) 1))
            (X (ix2 n k)) * W (ix2 k j)) + b (ix1 j)) 0 := by
  refine congrArg₂ max (congrArg₂ (fun s t : EReal => s + t)
    ((RowOps.dotGeneral_apply D hD none _ W n j).trans (Finset.sum_congr rfl fun k _ => congrArg (fun t => t * W (ix2 k j)) ?_))
    (rowM_apply hrow hspM b n j)) ?_
  · show Scalar.select
        (broadcastInDim ⟨2, ![N, K]⟩ ![0, 1] hspK (broadcastInDim ⟨2, ![N, 1]⟩ ![0] hcol
          (cmpf .ogt deg (broadcastInDim ⟨1, ![N]⟩ ![] hzN (constant (F := Ideal) S0 .f32 0x00000000#32)))) (ix2 n k))
        (Ideal.div
          (Host.scatterAdd (rowScatterDims N E K wfS) (broadcastInDim ⟨2, ![N, K]⟩ ![] hzK (constant (F := Ideal) S0 .f32 0x00000000#32)) di
            (Host.gather (rowGatherDims N E K wfG) X si) (ix2 n k))
          (broadcastInDim ⟨2, ![N, K]⟩ ![0, 1] hspK (broadcastInDim ⟨2, ![N, 1]⟩ ![0] hcol
            (maximumf deg (broadcastInDim ⟨1, ![N]⟩ ![] hoN (constant (F := Ideal) S0 .f32 0x3F800000#32)))) (ix2 n k)))
        (X (ix2 n k)) = _
    rw [colN_apply, colN_apply, edgeSum_apply hN]
    show Scalar.select (Ideal.cmp .ogt (deg (ix1 n))
          (broadcastInDim ⟨1, ![N]⟩ ![] hzN (constant (F := Ideal) S0 .f32 0x00000000#32) (ix1 n)))
        (Ideal.div _ (max (deg (ix1 n)) (broadcastInDim ⟨1, ![N]⟩ ![] hoN (constant (F := Ideal) S0 .f32 0x3F800000#32) (ix1 n))))
        _ = _
    rw [splat_apply, splat_apply]
    show Scalar.select (Ideal.cmp .ogt (deg (ix1 n)) (Ideal.ofBits .f32 0x00000000#32))
        (Ideal.div _ (max (deg (ix1 n)) (Ideal.ofBits .f32 0x3F800000#32))) _ = _
    rw [Ideal.ofBits_zero_f32, GcnFoldLaw.ofBits_one]
  · refine (splat_apply hzM _ (ix2 n j)).trans ?_
    show Ideal.ofBits .f32 0x00000000#32 = 0
    exact Ideal.ofBits_zero_f32

/-- The two per-node columns side by side, column 0: the scale. -/
theorem scale_apply {N : Nat} (deg : FVec Ideal ⟨1, ![N]⟩ .f32)
    (hzN hoN hzN' hoN' hz2 ho2 : S0.BroadcastsInDim ⟨1, ![N]⟩ ![])
    (hcol : (⟨1, ![N]⟩ : Shape).BroadcastsInDim ⟨2, ![N, 1]⟩ (![0] : Fin 1 → Fin 2))
    (hcat : Shape.Concatenates [(⟨2, ![N, 1]⟩ : Shape), ⟨2, ![N, 1]⟩] ⟨2, ![N, 2]⟩ (1 : Fin 2))
    (n : Fin N) :
    concatenate ⟨2, ![N, 2]⟩ (1 : Fin 2)
      [⟨⟨2, ![N, 1]⟩, broadcastInDim ⟨2, ![N, 1]⟩ ![0] hcol
          (select (cmpf .ogt deg (broadcastInDim ⟨1, ![N]⟩ ![] hzN (constant (F := Ideal) S0 .f32 0x00000000#32)))
            (Host.divf (broadcastInDim ⟨1, ![N]⟩ ![] hoN (constant (F := Ideal) S0 .f32 0x3F800000#32))
              (maximumf deg (broadcastInDim ⟨1, ![N]⟩ ![] hoN' (constant (F := Ideal) S0 .f32 0x3F800000#32))))
            (broadcastInDim ⟨1, ![N]⟩ ![] hzN' (id (constant (F := Ideal) S0 .f32 0x00000000#32))))⟩,
       ⟨⟨2, ![N, 1]⟩, broadcastInDim ⟨2, ![N, 1]⟩ ![0] hcol
          (id (select (cmpf .ogt deg (broadcastInDim ⟨1, ![N]⟩ ![] hzN (constant (F := Ideal) S0 .f32 0x00000000#32)))
            (broadcastInDim ⟨1, ![N]⟩ ![] hz2 (constant (F := Ideal) S0 .f32 0x00000000#32))
            (broadcastInDim ⟨1, ![N]⟩ ![] ho2 (constant (F := Ideal) S0 .f32 0x3F800000#32))))⟩] hcat (ix2 n (0 : Fin 2))
      = Scalar.select (Ideal.cmp .ogt (deg (ix1 n)) 0) (Ideal.div 1 (max (deg (ix1 n)) 1)) 0 := by
  refine (concatenate_pair_apply_left (t := ⟨2, ![N, 2]⟩) (s₁ := ⟨2, ![N, 1]⟩) (s₂ := ⟨2, ![N, 1]⟩) (1 : Fin 2) _ _ hcat (ix2 n (0 : Fin 2)) rfl (ix2 n (0 : Fin 1))
    (fun b => match b with | ⟨0, _⟩ => rfl | ⟨1, _⟩ => rfl)).trans ?_
  rw [RowOps.vec_col_apply]
  show Scalar.select (Ideal.cmp .ogt (deg (ix1 n)) (broadcastInDim ⟨1, ![N]⟩ ![] hzN (constant (F := Ideal) S0 .f32 0x00000000#32) (ix1 n)))
      (Ideal.div (broadcastInDim ⟨1, ![N]⟩ ![] hoN (constant (F := Ideal) S0 .f32 0x3F800000#32) (ix1 n))
        (max (deg (ix1 n)) (broadcastInDim ⟨1, ![N]⟩ ![] hoN' (constant (F := Ideal) S0 .f32 0x3F800000#32) (ix1 n))))
      (broadcastInDim ⟨1, ![N]⟩ ![] hzN' (constant (F := Ideal) S0 .f32 0x00000000#32) (ix1 n)) = _
  simp only [splat_apply]
  show Scalar.select (Ideal.cmp .ogt (deg (ix1 n)) (Ideal.ofBits .f32 0x00000000#32))
      (Ideal.div (Ideal.ofBits .f32 0x3F800000#32) (max (deg (ix1 n)) (Ideal.ofBits .f32 0x3F800000#32)))
      (Ideal.ofBits .f32 0x00000000#32) = _
  rw [Ideal.ofBits_zero_f32, GcnFoldLaw.ofBits_one]

/-- The two per-node columns side by side, column 1: the keep flag. -/
theorem keep_apply {N : Nat} (deg : FVec Ideal ⟨1, ![N]⟩ .f32)
    (hzN hoN hzN' hoN' hz2 ho2 : S0.BroadcastsInDim ⟨1, ![N]⟩ ![])
    (hcol : (⟨1, ![N]⟩ : Shape).BroadcastsInDim ⟨2, ![N, 1]⟩ (![0] : Fin 1 → Fin 2))
    (hcat : Shape.Concatenates [(⟨2, ![N, 1]⟩ : Shape), ⟨2, ![N, 1]⟩] ⟨2, ![N, 2]⟩ (1 : Fin 2))
    (n : Fin N) :
    concatenate ⟨2, ![N, 2]⟩ (1 : Fin 2)
      [⟨⟨2, ![N, 1]⟩, broadcastInDim ⟨2, ![N, 1]⟩ ![0] hcol
          (select (cmpf .ogt deg (broadcastInDim ⟨1, ![N]⟩ ![] hzN (constant (F := Ideal) S0 .f32 0x00000000#32)))
            (Host.divf (broadcastInDim ⟨1, ![N]⟩ ![] hoN (constant (F := Ideal) S0 .f32 0x3F800000#32))
              (maximumf deg (broadcastInDim ⟨1, ![N]⟩ ![] hoN' (constant (F := Ideal) S0 .f32 0x3F800000#32))))
            (broadcastInDim ⟨1, ![N]⟩ ![] hzN' (id (constant (F := Ideal) S0 .f32 0x00000000#32))))⟩,
       ⟨⟨2, ![N, 1]⟩, broadcastInDim ⟨2, ![N, 1]⟩ ![0] hcol
          (id (select (cmpf .ogt deg (broadcastInDim ⟨1, ![N]⟩ ![] hzN (constant (F := Ideal) S0 .f32 0x00000000#32)))
            (broadcastInDim ⟨1, ![N]⟩ ![] hz2 (constant (F := Ideal) S0 .f32 0x00000000#32))
            (broadcastInDim ⟨1, ![N]⟩ ![] ho2 (constant (F := Ideal) S0 .f32 0x3F800000#32))))⟩] hcat (ix2 n (1 : Fin 2))
      = Scalar.select (Ideal.cmp .ogt (deg (ix1 n)) 0) 0 1 := by
  refine (concatenate_pair_apply_right (t := ⟨2, ![N, 2]⟩) (s₁ := ⟨2, ![N, 1]⟩) (s₂ := ⟨2, ![N, 1]⟩) (1 : Fin 2) _ _ hcat (ix2 n (1 : Fin 2)) rfl rfl (ix2 n (0 : Fin 1))
    (fun b hb => match b with | ⟨0, _⟩ => rfl | ⟨1, _⟩ => absurd rfl hb) rfl).trans ?_
  rw [RowOps.vec_col_apply]
  show Scalar.select (Ideal.cmp .ogt (deg (ix1 n)) (broadcastInDim ⟨1, ![N]⟩ ![] hzN (constant (F := Ideal) S0 .f32 0x00000000#32) (ix1 n)))
      (broadcastInDim ⟨1, ![N]⟩ ![] hz2 (constant (F := Ideal) S0 .f32 0x00000000#32) (ix1 n))
      (broadcastInDim ⟨1, ![N]⟩ ![] ho2 (constant (F := Ideal) S0 .f32 0x3F800000#32) (ix1 n)) = _
  simp only [splat_apply]
  show Scalar.select (Ideal.cmp .ogt (deg (ix1 n)) (Ideal.ofBits .f32 0x00000000#32))
      (Ideal.ofBits .f32 0x00000000#32) (Ideal.ofBits .f32 0x3F800000#32) = _
  rw [Ideal.ofBits_zero_f32, GcnFoldLaw.ofBits_one]

end GcnHost

end
-- ==== Proof.KAgg.lean ====
/-
  The kernel program's host-side aggregation and factor column, read at an entry.

  Rows of a matrix A gathered along the edges' source numbers and accumulated (into a zero matrix) at their destination
  numbers: entry (n, j) is 0 plus the sum, over the edges landing on n, of A at (the row the edge reads, j). A change of
  float format is the identity on the extended reals, so the widening between the gather and the accumulation drops out.
  The two index columns are, term for term, the ones the reference's own first operations compute, so the landing sets
  and the source rows are the reference's. The factor column [100000, 1] is the factor vector stood up by a change of
  shape: entry (n, 0) is the factor of n.
-/
import proofs.«154069_j67044439491163_2_alg».proof.Proof.KTerms
import proofs.«154069_j67044439491163_2_alg».proof.Proof.RefDefs
import proofs.«154069_j67044439491163_2_alg».proof.Proof.LibGcnHost
import proofs.«154069_j67044439491163_2_alg».proof.Proof.LibSoftLayout

noncomputable section

namespace Cert.KSide

open Idealize.ShloMosaic Idealize.ShloMosaic.ValueIdx RowGatherScatter EdgeSums
open scoped BigOperators

/-- Rows gathered along the edges, widened, and accumulated into a zero matrix, at entry (n, q), for any extents. -/
theorem aggSum_apply {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (hz : GcnHost.S0.BroadcastsInDim ⟨2, ![N, D]⟩ ![])
    (hlt : FTy.bits .bf16 < FTy.bits .f32)
    (A : FVec Ideal ⟨2, ![N, D]⟩ .bf16) (si di : IVec ⟨2, ![E, 1]⟩ w) (n : Fin N) (q : Fin D) :
    Host.scatterAdd (rowScatterDims N E D wfS)
        (broadcastInDim ⟨2, ![N, D]⟩ ![] hz (constant (F := Ideal) GcnHost.S0 .f32 0x00000000#32)) di
        (extf .f32 (Host.gather (rowGatherDims N E D wfG) A si) hlt) (ix2 n q)
      = 0 + ∑ e ∈ landing di n.val, A (ix2 (startRow N hN si e) q) := by
  show Ideal.hostScatterAdd (rowScatterDims N E D wfS) _ di _ (ix2 n q) = _
  rw [rowScatterAdd_apply, GcnHost.splat_apply]
  show Ideal.ofBits .f32 0x00000000#32 + _ = _
  rw [Ideal.ofBits_zero_f32]
  refine congrArg (fun t => (0 : EReal) + t) (Finset.sum_congr rfl fun e _ => ?_)
  exact rowGather_apply hN wfG A si e q

/-- The kernel program's column of source numbers is the reference's. -/
theorem srcCol_eq (x1 : EdgesK) : srcCol x1 = Cert.ReferenceIdeal.Read.val_main_v33 (F := Ideal) x1 := rfl

/-- The kernel program's column of destination numbers is the reference's. -/
theorem dstCol_eq (x1 : EdgesK) : dstCol x1 = Cert.ReferenceIdeal.Read.val_main_v38 (F := Ideal) x1 := rfl

/-- The aggregation at entry (n, j). -/
theorem agg_entry (A : FVec Ideal Cert.KernelIdeal.S100000x64 .bf16) (x1 : EdgesK) (n : Fin 100000) (j : Fin 64) :
    aggTerm A x1 (ix2 n j) = 0 + ∑ e ∈ Cert.RefSide.landR x1 n, A (ix2 (Cert.RefSide.srR x1 e) j) := by
  unfold aggTerm
  rw [srcCol_eq, dstCol_eq]
  exact aggSum_apply (N := 100000) (E := 1600000) (D := 64) (by decide)
    Cert.KernelIdeal.Gen.gather_S100000x64_S1600000x1_S1600000x64_1_0_n_n_0_1_164_wf
    Cert.KernelIdeal.Gen.scatter_S100000x64_S1600000x1_S1600000x64_1_0_0_1_wf
    Cert.KernelIdeal.Gen.bcast_S_S100000x64 Cert.KernelIdeal.Gen.bitsLt_bf16_f32 A
    (Cert.ReferenceIdeal.Read.val_main_v33 (F := Ideal) x1) (Cert.ReferenceIdeal.Read.val_main_v38 (F := Ideal) x1) n j

/-- The factor column at (n, 0) is the factor of node n. -/
theorem Dcol_apply (x1 : EdgesK) (n : Fin 100000) : Dcol x1 (ix2 n (0 : Fin 1)) = Cert.RefSide.disR x1 n := by
  unfold Dcol Cert.RefSide.disR
  exact SoftLayout.vec_col_cast_apply Cert.KernelIdeal.Gen.shapeCasts_S100000_S100000x1 (Cert.ReferenceIdeal.Read.val_main_v10 (F := Ideal) x1) n (0 : Fin 1)

end Cert.KSide

end
-- ==== Proof.LibRealEntries2.lean ====
/-
  Entries that are real numbers, through the host operations that keep them so, for any shapes and dimension numbers.

  An extended real is "real" when it is the image of a real number. Sums, products and maxima of reals are real; a
  finite sum of reals is real. A gather reads, at every result index, SOME entry of its operand, so when every entry of
  the operand is real so is every entry of the result, whatever the dimension numbers and the indices. An accumulating
  scatter yields, at every index, the operand's entry plus a finite sum of update entries, so reals in, reals out. The
  reciprocal square root of a positive real is the real 1 / sqrt r. A selection between two reals is real.
-/
import Idealize.ShloMosaic.Lib.ValueIdx
import Idealize.ShloMosaic.Lib.Pipeline.Value
import Idealize.ShloMosaic.PureOps.Ideal.Laws

noncomputable section

namespace RealEntries2

open Idealize.ShloMosaic
open scoped BigOperators

/-- The extended real is (the image of) a real number. -/
def IsReal (x : EReal) : Prop := ∃ r : ℝ, x = (r : EReal)

/-- The extended real is a positive real number. -/
def IsPosReal (x : EReal) : Prop := ∃ r : ℝ, 0 < r ∧ x = (r : EReal)

theorem IsPosReal.isReal {x : EReal} (h : IsPosReal x) : IsReal x := by
  obtain ⟨r, _, hr⟩ := h
  exact ⟨r, hr⟩

/-- Realness passes along an equality. -/
theorem isReal_of_eq {x y : EReal} (h : x = y) (hy : IsReal y) : IsReal x := by
  obtain ⟨r, hr⟩ := hy
  exact ⟨r, h.trans hr⟩

theorem isPosReal_of_eq {x y : EReal} (h : x = y) (hy : IsPosReal y) : IsPosReal x := by
  obtain ⟨r, h0, hr⟩ := hy
  exact ⟨r, h0, h.trans hr⟩

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The larger of a real and a positive real is a positive real. -/
theorem isPosReal_max {x y : EReal} (hx : IsReal x) (hy : IsPosReal y) : IsPosReal (max x y) := by
  obtain ⟨a, rfl⟩ := hx
  obtain ⟨b, hb, rfl⟩ := hy
  rcases le_total (a : EReal) (b : EReal) with h | h
  · rw [max_eq_right h]
    exact ⟨b, hb, rfl⟩
  · rw [max_eq_left h]
    exact ⟨a, lt_of_lt_of_le hb (EReal.coe_le_coe_iff.mp h), rfl⟩

/-- The reciprocal square root of a positive real is a real. -/
theorem isReal_rsqrt {x : EReal} (hx : IsPosReal x) : IsReal (Ideal.rsqrt x) := by
  obtain ⟨r, hr, rfl⟩ := hx
  rw [Ideal.rsqrt_coe, if_neg (not_lt.mpr hr.le), if_neg (ne_of_gt hr)]
  exact ⟨_, rfl⟩

/-- A selection between two reals is real. -/
theorem isReal_select (c : BitVec 1) {a b : EReal} (ha : IsReal a) (hb : IsReal b) : IsReal (Scalar.select c a b) := by
  unfold Scalar.select
  split
  · exact ha
  · exact hb

/-- A gather of an array of reals is an array of reals: every result entry is some operand entry. -/
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

/-- An accumulating scatter of real updates into an array of reals is an array of reals. -/
theorem scatterAdd_real {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- The same for the host's accumulating scatter read on the extended reals. -/
theorem hostScatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  scatterAdd_real d x idx upd hx hu i

end RealEntries2

end
-- ==== Proof.RefEntryA.lean ====
/-
  The edge list's columns read at an edge, and the two facts about them that the comparison needs.

  The destination column holds, for edge e, the destination word d. An edge arrives at node n when d, read as a signed
  integer, is n; that number is not negative, so the wrap "d + 100000 where d < 0" leaves d alone, and clamping n into
  [0, 99999] leaves n alone: the row the edge reads at its destination end is n itself.

  A node's normalising factor is the reciprocal square root of 1 plus (0 plus one 1 for each edge arriving there): one plus
  a natural number, a positive real, so the factor is a real number.
-/
import proofs.«154069_j67044439491163_2_alg».proof.Proof.RefDefs
import proofs.«154069_j67044439491163_2_alg».proof.Proof.LibRealEntries2
import proofs.«154069_j67044439491163_2_alg».proof.Proof.LibGcnFoldLaw

noncomputable section

namespace Cert.RefSide

open Cert.ReferenceIdeal Cert.ReferenceIdeal.Read Idealize.ShloMosaic Idealize.ShloMosaic.ValueIdx RowGatherScatter EdgeSums
open scoped BigOperators

/-- The raw destination column at edge e is the destination word of e. -/
theorem v38_at (x1 : Edges) (e : Fin 1600000) :
    val_main_v38 (F := Ideal) x1 (ix2 e (0 : Fin 1)) = val_main_v3 (F := Ideal) x1 (ix1 e) := by
  rw [val_main_v38_apply]
  exact congrArg _ (funext fun a => by match a with | ⟨0, _⟩ => rfl)

/-- The wrapped destination column at edge e: the destination word, plus 100000 where it is negative. -/
theorem v24_at (x1 : Edges) (e : Fin 1600000) :
    val_main_v24 (F := Ideal) x1 (ix2 e (0 : Fin 1))
      = Scalar.select (IntOp.cmpi .slt (val_main_v3 (F := Ideal) x1 (ix1 e)) 0#32)
          (IntOp.addi (val_main_v3 (F := Ideal) x1 (ix1 e)) 100000#32) (val_main_v3 (F := Ideal) x1 (ix1 e)) := by
  have hi : idx_main_v24 (ix2 e (0 : Fin 1)) = ix1 e := funext fun a => by match a with | ⟨0, _⟩ => rfl
  rw [val_main_v24_apply, hi, val_main_v23_apply, val_main_v20_apply, val_main_v22_apply, val_main_v19_apply,
    val_main_v21_apply, val_main_c_3_apply, val_main_c_4_apply]

/-- An edge arriving at node n reads row n at its destination end. -/
theorem drR_of_land (x1 : Edges) (n : Fin 100000) : ∀ e ∈ landR x1 n, drR x1 e = n := by
  intro e he
  have h : (val_main_v38 (F := Ideal) x1 (ix2 e (0 : Fin 1))).toInt = (n.val : Int) := (Finset.mem_filter.mp he).2
  rw [v38_at] at h
  refine Fin.ext ?_
  show min (val_main_v24 (F := Ideal) x1 (ix2 e (0 : Fin 1))).toInt.toNat (100000 - 1) = n.val
  rw [v24_at]
  generalize val_main_v3 (F := Ideal) x1 (ix1 e) = d at h ⊢
  have hlt : d.slt 0#32 = false := by
    rw [BitVec.slt_eq_decide, h]
    exact decide_eq_false (by simp)
  have hneg : IntOp.cmpi .slt d 0#32 = 0#1 := by
    show BitVec.ofBool (d.slt 0#32) = 0#1
    rw [hlt]; rfl
  rw [hneg, select_zero, h, Int.toNat_natCast]
  have := n.isLt
  omega

/-- A finite sum of ones is a real number that is not negative. -/
theorem sum_ones_nonneg {ι : Type} (s : Finset ι) (f : ι → EReal) (hf : ∀ i ∈ s, f i = 1) :
    ∃ r : ℝ, 0 ≤ r ∧ ∑ i ∈ s, f i = (r : EReal) := by
  classical
  induction s using Finset.induction_on with
  | empty => exact ⟨0, le_refl _, by simp⟩
  | insert a s ha ih =>
    obtain ⟨r, hr, hs⟩ := ih (fun i hi => hf i (Finset.mem_insert_of_mem hi))
    refine ⟨1 + r, by linarith, ?_⟩
    rw [Finset.sum_insert ha, hf a (Finset.mem_insert_self a s), hs, EReal.coe_add, EReal.coe_one]

/-- A node's normalising factor is a real number. -/
theorem disR_real (x1 : Edges) (n : Fin 100000) : Gcn2.IsReal (disR x1 n) := by
  have h8 : val_main_v8 (F := Ideal) (ix1 n) = (1 : EReal) := by
    rw [val_main_v8_apply, val_main_cst_1_apply]; exact GcnFoldLaw.ofBits_one
  have h5 : val_main_v5 (F := Ideal) (ix1 n) = (0 : EReal) := by
    rw [val_main_v5_apply, val_main_cst_0_apply]; exact Ideal.ofBits_zero_f32
  have h4 : ∀ j : S1600000.Idx, val_main_v4 (F := Ideal) j = (1 : EReal) := by
    intro j
    rw [val_main_v4_apply, val_main_cst_apply]; exact GcnFoldLaw.ofBits_one
  have h7 : ∃ r : ℝ, 0 ≤ r ∧ val_main_v7 (F := Ideal) x1 (ix1 n) = (r : EReal) := by
    unfold val_main_v7
    rw [HostEq.scatterAdd_eq]
    unfold Ideal.hostScatterAdd
    rw [h5, zero_add]
    exact sum_ones_nonneg _ _ (fun j _ => h4 j)
  obtain ⟨r, hr, h7⟩ := h7
  have e : disR x1 n = Ideal.rsqrt (((1 + r : ℝ)) : EReal) := by
    unfold disR
    rw [val_main_v10_apply, val_main_v9_apply, h8, h7]
    show Ideal.rsqrt ((1 : EReal) + (r : EReal)) = _
    rw [EReal.coe_add, EReal.coe_one]
  obtain ⟨t, ht⟩ := RealEntries2.isReal_rsqrt (x := ((1 + r : ℝ) : EReal)) ⟨1 + r, by linarith, rfl⟩
  exact ⟨t, e.trans ht⟩

end Cert.RefSide

end
-- ==== Proof.RefEntryB.lean ====
/-
  One graph convolution of the per-edge arrangement, read at an entry, for any extents.

  H is the matrix to aggregate ([N, D]), Dv the vector of normalising factors ([N]), b the bias ([D]). Four index columns
  [E, 1] appear: the one the rows of H are gathered by, the two the factors are gathered by (source end, destination end),
  and the one the products are scattered by. The stage is

    (scatter-add (zeros, scatter column, gather H · spread (gather Dv · gather Dv)) + H · spread (Dv · Dv)) + spread b

  and at entry (n, j) it is 0 plus the sum over the edges landing on n of H (source row, j) times the two gathered factors,
  plus H (n, j) times the square of the factor of n, plus b j.
-/
import proofs.«154069_j67044439491163_2_alg».proof.Proof.LibGcnHost

noncomputable section

namespace Cert.RefSide

open Idealize.ShloMosaic Idealize.ShloMosaic.ValueIdx RowGatherScatter EdgeSums
open scoped BigOperators

/-- The convolution stage at entry (n, j). -/
theorem conv_read {N E D w : Nat} (hN : 0 < N)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (wfS : ScatterDims.WF ⟨2, ![N, D]⟩ ⟨2, ![E, 1]⟩ ⟨2, ![E, D]⟩ [1] [0] [0] 1)
    (hz : GcnHost.S0.BroadcastsInDim ⟨2, ![N, D]⟩ ![])
    (hcE : (⟨1, ![E]⟩ : Shape).BroadcastsInDim ⟨2, ![E, 1]⟩ (![0] : Fin 1 → Fin 2))
    (hsE : (⟨2, ![E, 1]⟩ : Shape).BroadcastsInDim ⟨2, ![E, D]⟩ (![0, 1] : Fin 2 → Fin 2))
    (hcN : (⟨1, ![N]⟩ : Shape).BroadcastsInDim ⟨2, ![N, 1]⟩ (![0] : Fin 1 → Fin 2))
    (hsN : (⟨2, ![N, 1]⟩ : Shape).BroadcastsInDim ⟨2, ![N, D]⟩ (![0, 1] : Fin 2 → Fin 2))
    (hrow : (⟨1, ![D]⟩ : Shape).BroadcastsInDim ⟨2, ![1, D]⟩ (![1] : Fin 1 → Fin 2))
    (hsp : (⟨2, ![1, D]⟩ : Shape).BroadcastsInDim ⟨2, ![N, D]⟩ (![0, 1] : Fin 2 → Fin 2))
    (H : FVec Ideal ⟨2, ![N, D]⟩ .f32) (Dv : FVec Ideal ⟨1, ![N]⟩ .f32) (b : FVec Ideal ⟨1, ![D]⟩ .f32)
    (scol scol' dcolw dcol : IVec ⟨2, ![E, 1]⟩ w) (n : Fin N) (j : Fin D) :
    addf (addf
        (Host.scatterAdd (rowScatterDims N E D wfS)
          (broadcastInDim ⟨2, ![N, D]⟩ ![] hz (constant (F := Ideal) GcnHost.S0 .f32 0x00000000#32)) dcol
          (mulf (Host.gather (rowGatherDims N E D wfG) H scol)
            (broadcastInDim ⟨2, ![E, D]⟩ ![0, 1] hsE (broadcastInDim ⟨2, ![E, 1]⟩ ![0] hcE
              (mulf (Host.gather (vecGatherDims N E wfV) Dv scol')
                (Host.gather (vecGatherDims N E wfV) Dv dcolw))))))
        (mulf H (broadcastInDim ⟨2, ![N, D]⟩ ![0, 1] hsN (broadcastInDim ⟨2, ![N, 1]⟩ ![0] hcN (mulf Dv Dv)))))
      (broadcastInDim ⟨2, ![N, D]⟩ ![0, 1] hsp (broadcastInDim ⟨2, ![1, D]⟩ ![1] hrow b)) (ix2 n j)
    = ((0 + ∑ e ∈ landing dcol n.val,
          H (ix2 (startRow N hN scol e) j) * (Dv (ix1 (startRow N hN scol' e)) * Dv (ix1 (startRow N hN dcolw e))))
        + H (ix2 n j) * (Dv (ix1 n) * Dv (ix1 n))) + b (ix1 j) := by
  refine congrArg₂ (fun s t : EReal => s + t) (congrArg₂ (fun s t : EReal => s + t) ?_ ?_)
    (GcnHost.rowM_apply hrow hsp b n j)
  · show Ideal.hostScatterAdd (rowScatterDims N E D wfS) _ dcol _ (ix2 n j) = _
    rw [rowScatterAdd_apply, GcnHost.splat_apply]
    show Ideal.ofBits .f32 0x00000000#32 + _ = _
    rw [Ideal.ofBits_zero_f32]
    refine congrArg (fun t => (0 : EReal) + t) (Finset.sum_congr rfl fun e _ => ?_)
    show Host.gather (rowGatherDims N E D wfG) H scol (ix2 e j)
        * broadcastInDim ⟨2, ![E, D]⟩ ![0, 1] hsE (broadcastInDim ⟨2, ![E, 1]⟩ ![0] hcE
            (mulf (Host.gather (vecGatherDims N E wfV) Dv scol')
              (Host.gather (vecGatherDims N E wfV) Dv dcolw))) (ix2 e j) = _
    rw [rowGather_apply hN wfG, GcnHost.colN_apply]
    show _ * (Host.gather (vecGatherDims N E wfV) Dv scol' (ix1 e)
        * Host.gather (vecGatherDims N E wfV) Dv dcolw (ix1 e)) = _
    rw [vecGather_apply hN wfV, vecGather_apply hN wfV]
  · show H (ix2 n j) * broadcastInDim ⟨2, ![N, D]⟩ ![0, 1] hsN (broadcastInDim ⟨2, ![N, 1]⟩ ![0] hcN (mulf Dv Dv)) (ix2 n j) = _
    rw [GcnHost.colN_apply]
    rfl

/-- The same with the factors gathered at the source end by the column the rows are gathered by, and H given entry by
    entry. -/
theorem conv_entry {N E D w : Nat} (hN : 0 < N)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (wfS : ScatterDims.WF ⟨2, ![N, D]⟩ ⟨2, ![E, 1]⟩ ⟨2, ![E, D]⟩ [1] [0] [0] 1)
    (hz : GcnHost.S0.BroadcastsInDim ⟨2, ![N, D]⟩ ![])
    (hcE : (⟨1, ![E]⟩ : Shape).BroadcastsInDim ⟨2, ![E, 1]⟩ (![0] : Fin 1 → Fin 2))
    (hsE : (⟨2, ![E, 1]⟩ : Shape).BroadcastsInDim ⟨2, ![E, D]⟩ (![0, 1] : Fin 2 → Fin 2))
    (hcN : (⟨1, ![N]⟩ : Shape).BroadcastsInDim ⟨2, ![N, 1]⟩ (![0] : Fin 1 → Fin 2))
    (hsN : (⟨2, ![N, 1]⟩ : Shape).BroadcastsInDim ⟨2, ![N, D]⟩ (![0, 1] : Fin 2 → Fin 2))
    (hrow : (⟨1, ![D]⟩ : Shape).BroadcastsInDim ⟨2, ![1, D]⟩ (![1] : Fin 1 → Fin 2))
    (hsp : (⟨2, ![1, D]⟩ : Shape).BroadcastsInDim ⟨2, ![N, D]⟩ (![0, 1] : Fin 2 → Fin 2))
    (H : FVec Ideal ⟨2, ![N, D]⟩ .f32) (Dv : FVec Ideal ⟨1, ![N]⟩ .f32) (b : FVec Ideal ⟨1, ![D]⟩ .f32)
    (scol dcolw dcol : IVec ⟨2, ![E, 1]⟩ w) (Hm : Fin N → Fin D → EReal) (hH : ∀ m k, H (ix2 m k) = Hm m k)
    (n : Fin N) (j : Fin D) :
    addf (addf
        (Host.scatterAdd (rowScatterDims N E D wfS)
          (broadcastInDim ⟨2, ![N, D]⟩ ![] hz (constant (F := Ideal) GcnHost.S0 .f32 0x00000000#32)) dcol
          (mulf (Host.gather (rowGatherDims N E D wfG) H scol)
            (broadcastInDim ⟨2, ![E, D]⟩ ![0, 1] hsE (broadcastInDim ⟨2, ![E, 1]⟩ ![0] hcE
              (mulf (Host.gather (vecGatherDims N E wfV) Dv scol)
                (Host.gather (vecGatherDims N E wfV) Dv dcolw))))))
        (mulf H (broadcastInDim ⟨2, ![N, D]⟩ ![0, 1] hsN (broadcastInDim ⟨2, ![N, 1]⟩ ![0] hcN (mulf Dv Dv)))))
      (broadcastInDim ⟨2, ![N, D]⟩ ![0, 1] hsp (broadcastInDim ⟨2, ![1, D]⟩ ![1] hrow b)) (ix2 n j)
    = ((0 + ∑ e ∈ landing dcol n.val,
          Hm (startRow N hN scol e) j * (Dv (ix1 (startRow N hN scol e)) * Dv (ix1 (startRow N hN dcolw e))))
        + Hm n j * (Dv (ix1 n) * Dv (ix1 n))) + b (ix1 j) := by
  refine (conv_read hN wfG wfV wfS hz hcE hsE hcN hsN hrow hsp H Dv b scol scol dcolw dcol n j).trans ?_
  refine congrArg₂ (fun s t : EReal => s + t) (congrArg₂ (fun s t : EReal => s + t)
    (congrArg (fun t => (0 : EReal) + t) (Finset.sum_congr rfl fun e _ => ?_)) ?_) rfl
  · rw [hH]
  · rw [hH]

end Cert.RefSide

end
-- ==== Proof.RefEntryC.lean ====
/-
  The batch normalisation and the rectifier between the two convolutions, read at an entry.

  With h the first convolution's result, per channel j: the mean is (0 + Σ_n h n j) / 100000, the variance is
  (0 + Σ_n (h n j − mean j)²) / 100000, the reciprocal deviation is rsqrt (variance + ε); the stage's entry (n, j) is
  max ((((h n j − mean j) · rstd j) · γ j) + β j, 0). A per-channel vector reaches the matrix as a row [1, 64] spread over
  the 100000 rows, so it is read at (n, j) as its entry j; a sum over the rows reads its operand at (k, j).
-/
import proofs.«154069_j67044439491163_2_alg».proof.Proof.RefDefs

noncomputable section

namespace Cert.RefSide

open Cert.ReferenceIdeal Cert.ReferenceIdeal.Read Idealize.ShloMosaic Idealize.ShloMosaic.ValueIdx RowGatherScatter EdgeSums
open scoped BigOperators

/-- A row [1, 64] spread over [100000, 64] and read at (n, j), then the row read as the vector: entry j. -/
theorem rowIdx_eq (n : Fin 100000) (j : Fin 64) : idx_main_v51 (idx_main_v52 (ix2 n j)) = ix1 j :=
  funext fun a => by match a with | ⟨0, _⟩ => rfl

/-- A sum over the rows reads, for channel j and row k, the entry (k, j). -/
theorem sumIdx_eq (j : Fin 64) (k : Fin 100000) : idx_main_v48 (ix1 j) k = ix2 k j :=
  funext fun a => by match a with | ⟨0, _⟩ => rfl | ⟨1, _⟩ => rfl

variable (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 x4 x5 : (⟨S64, .f32⟩ : BufTy).Contents (Elt Ideal))

/-- The channel mean. -/
theorem v50_at (j : Fin 64) :
    val_main_v50 (F := Ideal) x0 x1 x2 x3 (ix1 j) = Gcn2.meanR (mat (val_main_v47 (F := Ideal) x0 x1 x2 x3)) j := by
  rw [val_main_v50_apply, val_main_v48_apply, val_main_v49_apply, val_main_cst_8_apply, val_main_cst_9_apply]
  show Ideal.div (Ideal.ofBits .f32 0x00000000#32 + ∑ k : Fin 100000, val_main_v47 (F := Ideal) x0 x1 x2 x3 (idx_main_v48 (ix1 j) k))
      (Ideal.ofBits .f32 0x47C35000#32)
    = Ideal.div (0 + ∑ k : Fin 100000, val_main_v47 (F := Ideal) x0 x1 x2 x3 (ix2 k j)) Gcn2.cN
  rw [Ideal.ofBits_zero_f32]
  refine congrArg (fun t => Ideal.div ((0 : EReal) + t) Gcn2.cN) (Finset.sum_congr rfl fun k _ => ?_)
  rw [sumIdx_eq]

/-- The mean spread over the matrix (first copy). -/
theorem v52_at (n : Fin 100000) (j : Fin 64) :
    val_main_v52 (F := Ideal) x0 x1 x2 x3 (ix2 n j) = Gcn2.meanR (mat (val_main_v47 (F := Ideal) x0 x1 x2 x3)) j := by
  rw [val_main_v52_apply, val_main_v51_apply, rowIdx_eq]
  exact v50_at x0 x1 x2 x3 j

/-- The mean spread over the matrix (second copy). -/
theorem v59_at (n : Fin 100000) (j : Fin 64) :
    val_main_v59 (F := Ideal) x0 x1 x2 x3 (ix2 n j) = Gcn2.meanR (mat (val_main_v47 (F := Ideal) x0 x1 x2 x3)) j := by
  rw [val_main_v59_apply, val_main_v58_apply]
  show val_main_v50 (F := Ideal) x0 x1 x2 x3 (idx_main_v51 (idx_main_v52 (ix2 n j))) = _
  rw [rowIdx_eq]
  exact v50_at x0 x1 x2 x3 j

/-- The channel variance. -/
theorem v57_at (j : Fin 64) :
    val_main_v57 (F := Ideal) x0 x1 x2 x3 (ix1 j) = Gcn2.varR (mat (val_main_v47 (F := Ideal) x0 x1 x2 x3)) j := by
  rw [val_main_v57_apply, val_main_v55_apply, val_main_v56_apply, val_main_cst_10_apply, val_main_cst_11_apply]
  show Ideal.div (Ideal.ofBits .f32 0x00000000#32 + ∑ k : Fin 100000, val_main_v54 (F := Ideal) x0 x1 x2 x3 (idx_main_v48 (ix1 j) k))
      (Ideal.ofBits .f32 0x47C35000#32)
    = Ideal.div (0 + ∑ k : Fin 100000,
        (val_main_v47 (F := Ideal) x0 x1 x2 x3 (ix2 k j) - Gcn2.meanR (mat (val_main_v47 (F := Ideal) x0 x1 x2 x3)) j)
        * (val_main_v47 (F := Ideal) x0 x1 x2 x3 (ix2 k j) - Gcn2.meanR (mat (val_main_v47 (F := Ideal) x0 x1 x2 x3)) j)) Gcn2.cN
  rw [Ideal.ofBits_zero_f32]
  refine congrArg (fun t => Ideal.div ((0 : EReal) + t) Gcn2.cN) (Finset.sum_congr rfl fun k _ => ?_)
  rw [sumIdx_eq, val_main_v54_apply, val_main_v53_apply, v52_at]
  rfl

/-- The channel's reciprocal deviation. -/
theorem v63_at (j : Fin 64) :
    val_main_v63 (F := Ideal) x0 x1 x2 x3 (ix1 j) = Gcn2.rstdR (mat (val_main_v47 (F := Ideal) x0 x1 x2 x3)) j := by
  rw [val_main_v63_apply, val_main_v62_apply, val_main_v61_apply, val_main_cst_12_apply, v57_at]
  rfl

/-- The reciprocal deviation spread over the matrix. -/
theorem v65_at (n : Fin 100000) (j : Fin 64) :
    val_main_v65 (F := Ideal) x0 x1 x2 x3 (ix2 n j) = Gcn2.rstdR (mat (val_main_v47 (F := Ideal) x0 x1 x2 x3)) j := by
  rw [val_main_v65_apply, val_main_v64_apply]
  show val_main_v63 (F := Ideal) x0 x1 x2 x3 (idx_main_v51 (idx_main_v52 (ix2 n j))) = _
  rw [rowIdx_eq]
  exact v63_at x0 x1 x2 x3 j

/-- The normalised, scaled, shifted and rectified matrix at entry (n, j). -/
theorem v73_at (n : Fin 100000) (j : Fin 64) :
    val_main_v73 (F := Ideal) x0 x1 x2 x3 x4 x5 (ix2 n j)
      = Gcn2.bnrelu (mat (val_main_v47 (F := Ideal) x0 x1 x2 x3)) (Gcn2.meanR (mat (val_main_v47 (F := Ideal) x0 x1 x2 x3)))
          (Gcn2.rstdR (mat (val_main_v47 (F := Ideal) x0 x1 x2 x3))) (chan x4) (chan x5) n j := by
  have h68 : val_main_v68 (F := Ideal) x4 (ix2 n j) = x4 (ix1 j) := by
    rw [val_main_v68_apply, val_main_v67_apply]
    exact congrArg x4 (rowIdx_eq n j)
  have h71 : val_main_v71 (F := Ideal) x5 (ix2 n j) = x5 (ix1 j) := by
    rw [val_main_v71_apply, val_main_v70_apply]
    exact congrArg x5 (rowIdx_eq n j)
  have h0 : val_main_call0_v0 (F := Ideal) (ix2 n j) = 0 := by
    rw [val_main_call0_v0_apply, val_main_call0_cst_apply]
    exact Ideal.ofBits_zero_f32
  rw [val_main_v73_apply, val_main_v72_apply, val_main_v69_apply, val_main_v66_apply, val_main_v60_apply,
    v59_at, v65_at, h68, h71, h0]
  rfl

end Cert.RefSide

end
-- ==== Proof.RefEntry.lean ====
/-
  The reference program's result at an entry is the specification's per-edge arrangement with direct statistics.

  The program computes: the matrix product of the features by the first weights; the first convolution (gather the rows by
  the wrapped source column, scale each by the product of the two end factors, scatter-add by the raw destination column,
  add the self term and the bias); the batch normalisation and rectifier; the product by the second weights; the second
  convolution, over textual copies of the same index columns. Each convolution is the general stage read over variables,
  each copy of an index column is the same term as the first, and the matrix products are sums over the contracted
  coordinate.
-/
import proofs.«154069_j67044439491163_2_alg».proof.Proof.RefEntryA
import proofs.«154069_j67044439491163_2_alg».proof.Proof.RefEntryB
import proofs.«154069_j67044439491163_2_alg».proof.Proof.RefEntryC

noncomputable section

namespace Cert.RefSide

open Cert.ReferenceIdeal Cert.ReferenceIdeal.Read Idealize.ShloMosaic Idealize.ShloMosaic.ValueIdx RowGatherScatter EdgeSums
open scoped BigOperators

variable (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal))

/-- The first matrix product at entry (n, j). -/
theorem v11_at (n : Fin 100000) (j : Fin 64) :
    val_main_v11 (F := Ideal) x0 x2 (ix2 n j) = Gcn2.mm (mat x0) (wt x2) n j := by
  rw [val_main_v11_apply]
  show _ = ∑ k : Fin 64, x0 (ix2 n k) * x2 (ix2 k j)
  refine Finset.sum_congr rfl fun k _ => ?_
  have hl : lidx_main_v11 (ix2 n j) k = ix2 n k := funext fun a => by match a with | ⟨0, _⟩ => rfl | ⟨1, _⟩ => rfl
  have hr : ridx_main_v11 (ix2 n j) k = ix2 k j := funext fun a => by match a with | ⟨0, _⟩ => rfl | ⟨1, _⟩ => rfl
  rw [hl, hr]

/-- The second matrix product at entry (n, j). -/
theorem v74_at (n : Fin 100000) (j : Fin 64) :
    val_main_v74 (F := Ideal) x0 x1 x2 x3 x4 x5 x6 (ix2 n j)
      = Gcn2.mm (mat (val_main_v73 (F := Ideal) x0 x1 x2 x3 x4 x5)) (wt x6) n j := by
  rw [val_main_v74_apply]
  show _ = ∑ k : Fin 64, val_main_v73 (F := Ideal) x0 x1 x2 x3 x4 x5 (ix2 n k) * x6 (ix2 k j)
  refine Finset.sum_congr rfl fun k _ => ?_
  have hl : lidx_main_v74 (ix2 n j) k = ix2 n k := funext fun a => by match a with | ⟨0, _⟩ => rfl | ⟨1, _⟩ => rfl
  have hr : ridx_main_v74 (ix2 n j) k = ix2 k j := funext fun a => by match a with | ⟨0, _⟩ => rfl | ⟨1, _⟩ => rfl
  rw [hl, hr]

/-- The first convolution at entry (n, j). -/
theorem v47_at (n : Fin 100000) (j : Fin 64) :
    val_main_v47 (F := Ideal) x0 x1 x2 x3 (ix2 n j)
      = Gcn2.convR (disR x1) (landR x1) (srR x1) (drR x1) (Gcn2.mm (mat x0) (wt x2)) (chan x3) n j :=
  conv_entry (N := 100000) (E := 1600000) (D := 64) (by decide) Cert.ReferenceIdeal.Gen.gather_S100000x64_S1600000x1_S1600000x64_1_0_n_n_0_1_164_wf Cert.ReferenceIdeal.Gen.gather_S100000_S1600000x1_S1600000_n_0_n_n_0_1_1_wf
      Cert.ReferenceIdeal.Gen.scatter_S100000x64_S1600000x1_S1600000x64_1_0_0_1_wf Cert.ReferenceIdeal.Gen.bcast_S_S100000x64 Cert.ReferenceIdeal.Gen.bcast_S1600000_S1600000x1_0
      Cert.ReferenceIdeal.Gen.bcast_S1600000x1_S1600000x64_0_1 Cert.ReferenceIdeal.Gen.bcast_S100000_S100000x1_0 Cert.ReferenceIdeal.Gen.bcast_S100000x1_S100000x64_0_1
      Cert.ReferenceIdeal.Gen.bcast_S64_S1x64_1 Cert.ReferenceIdeal.Gen.bcast_S1x64_S100000x64_0_1
      (val_main_v11 (F := Ideal) x0 x2) (val_main_v10 (F := Ideal) x1) x3
      (val_main_v33 (F := Ideal) x1) (val_main_v24 (F := Ideal) x1) (val_main_v38 (F := Ideal) x1)
      (Gcn2.mm (mat x0) (wt x2)) (v11_at x0 x2) n j

/-- The second convolution at entry (n, j), over the rectified matrix. -/
theorem v110_at (n : Fin 100000) (j : Fin 64) :
    val_main_v110 (F := Ideal) x0 x1 x2 x3 x4 x5 x6 x7 (ix2 n j)
      = Gcn2.convR (disR x1) (landR x1) (srR x1) (drR x1)
          (Gcn2.mm (mat (val_main_v73 (F := Ideal) x0 x1 x2 x3 x4 x5)) (wt x6)) (chan x7) n j :=
  conv_entry (N := 100000) (E := 1600000) (D := 64) (by decide) Cert.ReferenceIdeal.Gen.gather_S100000x64_S1600000x1_S1600000x64_1_0_n_n_0_1_164_wf Cert.ReferenceIdeal.Gen.gather_S100000_S1600000x1_S1600000_n_0_n_n_0_1_1_wf
      Cert.ReferenceIdeal.Gen.scatter_S100000x64_S1600000x1_S1600000x64_1_0_0_1_wf Cert.ReferenceIdeal.Gen.bcast_S_S100000x64 Cert.ReferenceIdeal.Gen.bcast_S1600000_S1600000x1_0
      Cert.ReferenceIdeal.Gen.bcast_S1600000x1_S1600000x64_0_1 Cert.ReferenceIdeal.Gen.bcast_S100000_S100000x1_0 Cert.ReferenceIdeal.Gen.bcast_S100000x1_S100000x64_0_1
      Cert.ReferenceIdeal.Gen.bcast_S64_S1x64_1 Cert.ReferenceIdeal.Gen.bcast_S1x64_S100000x64_0_1
      (val_main_v74 (F := Ideal) x0 x1 x2 x3 x4 x5 x6) (val_main_v10 (F := Ideal) x1) x7
      (val_main_v33 (F := Ideal) x1) (val_main_v24 (F := Ideal) x1) (val_main_v38 (F := Ideal) x1)
      (Gcn2.mm (mat (val_main_v73 (F := Ideal) x0 x1 x2 x3 x4 x5)) (wt x6)) (v74_at x0 x1 x2 x3 x4 x5 x6) n j

/-- The reference's result at entry (n, j) is the specification's. -/
theorem ref_entry (n : Fin 100000) (j : Fin 64) :
    val_main_v110 (F := Ideal) x0 x1 x2 x3 x4 x5 x6 x7 (ix2 n j)
      = Gcn2.outR (disR x1) (landR x1) (srR x1) (drR x1) (mat x0) (wt x2) (chan x3) (chan x4) (chan x5) (wt x6) (chan x7) n j := by
  have h1 : mat (val_main_v47 (F := Ideal) x0 x1 x2 x3)
      = Gcn2.convR (disR x1) (landR x1) (srR x1) (drR x1) (Gcn2.mm (mat x0) (wt x2)) (chan x3) :=
    funext fun m => funext fun k => v47_at x0 x1 x2 x3 m k
  have h2 : mat (val_main_v73 (F := Ideal) x0 x1 x2 x3 x4 x5)
      = Gcn2.bnrelu (mat (val_main_v47 (F := Ideal) x0 x1 x2 x3)) (Gcn2.meanR (mat (val_main_v47 (F := Ideal) x0 x1 x2 x3)))
          (Gcn2.rstdR (mat (val_main_v47 (F := Ideal) x0 x1 x2 x3))) (chan x4) (chan x5) :=
    funext fun m => funext fun k => v73_at x0 x1 x2 x3 x4 x5 m k
  rw [v110_at, h2, h1]
  rfl

end Cert.RefSide

end
-- ==== Proof.LibIdealReal.lean ====
/-
  The exact float operations on finite values.

  At the exact reading a float is an extended real and every operation is the textbook one. When the operands
  are (coercions of) real numbers, and the operation is not at a corner (no division by zero), the result is
  the coercion of the real result:
      x + y, x - y, x * y, max x y, exp x, x / y (y ≠ 0), a finite sum, a finite maximum (from a real start, or
      from -∞ over a nonempty family),
  each stated for the extended-real operator and for the float operation of the same name (kernel's and host's).
  Also the values a few 32-bit words denote: 0, 1, 1024, 1/32, -∞, and one large negative finite number; and
  √1024 = 32, so that  1 / √1024  and the word for  1/32  are the same number.
-/
import Idealize.ShloMosaic.PureOps.Ideal
import Idealize.ShloMosaic.PureOps.Ideal.Laws

noncomputable section

namespace Cert.IdealReal

open scoped BigOperators
open Idealize.ShloMosaic

variable {φ : FTy}

/-! ### The extended-real operators on coerced reals -/

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

/-- The coercion is monotone, so it commutes with `max`. -/
@[simp, norm_cast] theorem coe_max (x y : ℝ) : ((max x y : ℝ) : EReal) = max (x : EReal) (y : EReal) :=
  EReal.coe_strictMono.monotone.map_max
theorem max_coe (x y : ℝ) : max (x : EReal) (y : EReal) = ((max x y : ℝ) : EReal) := (coe_max x y).symm
theorem max_coe_zero (x : ℝ) : max (x : EReal) 0 = ((max x 0 : ℝ) : EReal) := by
  rw [← EReal.coe_zero, max_coe]

theorem exp_coe (x : ℝ) : Ideal.exp (x : EReal) = ((Real.exp x : ℝ) : EReal) := rfl
theorem exp_sub_coe (x y : ℝ) : Ideal.exp ((x : EReal) - (y : EReal)) = ((Real.exp (x - y) : ℝ) : EReal) := rfl

/-- Division of reals by a nonzero real. -/
theorem div_coe {y : ℝ} (hy : y ≠ 0) (x : ℝ) : Ideal.div (x : EReal) (y : EReal) = ((x / y : ℝ) : EReal) := by
  rw [Ideal.div_coe hy, ← EReal.coe_mul, mul_one_div]

/-- `√1024 = 32`. -/
theorem sqrt_1024 : Ideal.sqrt ((1024 : ℝ) : EReal) = ((32 : ℝ) : EReal) := by
  have h : Real.sqrt 1024 = 32 := by
    rw [show (1024 : ℝ) = 32 ^ 2 by norm_num, Real.sqrt_sq (by norm_num)]
  rw [Ideal.sqrt_coe, if_neg (by norm_num), h]

/-! ### Finite sums and maxima -/

/-- A finite sum of coerced reals is the coerced sum. -/
@[simp, norm_cast] theorem coe_finset_sum {α : Type*} (s : Finset α) (f : α → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_coe {α : Type*} (s : Finset α) (f : α → ℝ) :
    ∑ i ∈ s, (f i : EReal) = ((∑ i ∈ s, f i : ℝ) : EReal) := (coe_finset_sum s f).symm

/-- The same when each summand is only known to be a coerced real. -/
theorem sum_eq_coe {α : Type*} (s : Finset α) (g : α → EReal) (f : α → ℝ) (hg : ∀ i ∈ s, g i = (f i : EReal)) :
    ∑ i ∈ s, g i = ((∑ i ∈ s, f i : ℝ) : EReal) := by
  rw [Finset.sum_congr rfl hg, sum_coe]

/-- A fold of `max` from a real start over coerced reals is the coerced fold. -/
theorem fold_max_coe {α : Type*} (s : Finset α) (a : ℝ) (f : α → ℝ) :
    s.fold max (a : EReal) (fun i => (f i : EReal)) = ((s.fold max a f : ℝ) : EReal) := by
  induction s using Finset.cons_induction with
  | empty => simp
  | cons b s hb ih => rw [Finset.fold_cons, Finset.fold_cons, ih, max_coe]

/-- A fold of `max` from `-∞` over a NONEMPTY family of coerced reals is a coerced real: the family's maximum. -/
theorem fold_max_bot_coe {α : Type*} (s : Finset α) (hs : s.Nonempty) (f : α → ℝ) :
    s.fold max (⊥ : EReal) (fun i => (f i : EReal)) = ((s.sup' hs f : ℝ) : EReal) := by
  induction hs using Finset.Nonempty.cons_induction with
  | singleton a => simp
  | cons a s ha hs ih =>
    rw [Finset.fold_cons, ih, Finset.sup'_cons hs, max_coe]

/-- The same when each element is only known to be a coerced real. -/
theorem fold_max_bot_eq_coe {α : Type*} (s : Finset α) (hs : s.Nonempty) (g : α → EReal) (f : α → ℝ)
    (hg : ∀ i ∈ s, g i = (f i : EReal)) :
    s.fold max (⊥ : EReal) g = ((s.sup' hs f : ℝ) : EReal) := by
  rw [← fold_max_bot_coe s hs f]
  exact Finset.fold_congr hg

/-- In particular it is SOME real, above every element. -/
theorem fold_max_bot_real {α : Type*} (s : Finset α) (hs : s.Nonempty) (g : α → EReal) (f : α → ℝ)
    (hg : ∀ i ∈ s, g i = (f i : EReal)) :
    ∃ m : ℝ, s.fold max (⊥ : EReal) g = (m : EReal) ∧ ∀ i ∈ s, f i ≤ m :=
  ⟨s.sup' hs f, fold_max_bot_eq_coe s hs g f hg, fun i hi => Finset.le_sup' f hi⟩

/-! ### The float operations of the exact reading -/

theorem addf_coe (x y : ℝ) : FloatOps.addf (F := Ideal) (φ := φ) (x : EReal) (y : EReal) = ((x + y : ℝ) : EReal) :=
  add_coe x y
theorem subf_coe (x y : ℝ) : FloatOps.subf (F := Ideal) (φ := φ) (x : EReal) (y : EReal) = ((x - y : ℝ) : EReal) :=
  sub_coe x y
theorem mulf_coe (x y : ℝ) : FloatOps.mulf (F := Ideal) (φ := φ) (x : EReal) (y : EReal) = ((x * y : ℝ) : EReal) :=
  mul_coe x y
theorem maximumf_coe (x y : ℝ) :
    FloatOps.maximumf (F := Ideal) (φ := φ) (x : EReal) (y : EReal) = ((max x y : ℝ) : EReal) :=
  max_coe x y
theorem expf_coe (x : ℝ) : FloatOps.exp (F := Ideal) (φ := φ) (x : EReal) = ((Real.exp x : ℝ) : EReal) := rfl
theorem divf_coe {y : ℝ} (hy : y ≠ 0) (x : ℝ) :
    FloatOps.divf (F := Ideal) (φ := φ) (x : EReal) (y : EReal) = ((x / y : ℝ) : EReal) :=
  div_coe hy x

/-- The host's quotient, exponential and square root are the same functions. -/
theorem hostDivf_coe {y : ℝ} (hy : y ≠ 0) (x : ℝ) :
    FloatOps.hostDivf (F := Ideal) (φ := φ) (x : EReal) (y : EReal) = ((x / y : ℝ) : EReal) :=
  div_coe hy x
theorem hostExp_coe (x : ℝ) :
    FloatOps.hostUnary (F := Ideal) .exp (φ := φ) (x : EReal) = ((Real.exp x : ℝ) : EReal) := rfl
theorem hostSqrt_1024 :
    FloatOps.hostUnary (F := Ideal) .sqrt (φ := φ) ((1024 : ℝ) : EReal) = ((32 : ℝ) : EReal) := sqrt_1024

/-- A fold of the float maximum is the fold of `max`. -/
theorem fold_maximumf_eq {α : Type*} (s : Finset α) (a : EReal) (g : α → EReal) :
    s.fold (FloatOps.maximumf (F := Ideal) (φ := φ)) a g = s.fold max a g := rfl

/-! ### What a few 32-bit words denote -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The large negative finite number the word `0xFF333332` denotes: `-(2^23 + 0x333332) · 2^104`. -/
def negBig : ℝ := -(11744050 * 2 ^ 104)

theorem ofBits_negBig : Ideal.ofBits .f32 0xFF333332#32 = ((negBig : ℝ) : EReal) := by
  simp [Ideal.ofBits, Ideal.ieee, -EReal.coe_mul, negBig]

theorem ofBits_negBig_real : ∃ x : ℝ, Ideal.ofBits .f32 0xFF333332#32 = (x : EReal) := ⟨negBig, ofBits_negBig⟩

/-- `1 / √1024`, computed on the host from the words for `1` and `1024`, is the number the word for `1/32` denotes. -/
theorem host_one_div_sqrt_1024 :
    FloatOps.hostDivf (F := Ideal) (φ := .f32) (Ideal.ofBits .f32 0x3F800000#32)
        (FloatOps.hostUnary (F := Ideal) .sqrt (φ := .f32) (Ideal.ofBits .f32 0x44800000#32))
      = ((1 / 32 : ℝ) : EReal) := by
  rw [ofBits_one, ofBits_1024, hostSqrt_1024, hostDivf_coe (by norm_num)]

theorem host_one_div_sqrt_1024_eq_word :
    FloatOps.hostDivf (F := Ideal) (φ := .f32) (Ideal.ofBits .f32 0x3F800000#32)
        (FloatOps.hostUnary (F := Ideal) .sqrt (φ := .f32) (Ideal.ofBits .f32 0x44800000#32))
      = Ideal.ofBits .f32 0x3D000000#32 := by
  rw [host_one_div_sqrt_1024, ofBits_inv32]

end Cert.IdealReal

end
-- ==== Proof.Law1.lean ====
/-
  Reals stay real, and one graph convolution in its two arrangements.

  An extended real is "real" when it is the image of a real number. Sums, differences, products, finite sums and the
  cut at zero of reals are real. With a real matrix and real node factors, the factored convolution
      dis n · ((0 + Σ_e H (sr e) j · dis (sr e)) + dis n · H n j) + b j
  and the per-edge one
      ((0 + Σ_e H (sr e) j · (dis (sr e) · dis (dr e))) + H n j · (dis n · dis n)) + b j
  agree: every edge e in the sum arrives at n, so dis (dr e) = dis n, and over the reals the factor dis n distributes
  over the finite sum.
-/
import proofs.«154069_j67044439491163_2_alg».proof.Proof.Spec
import proofs.«154069_j67044439491163_2_alg».proof.Proof.LibIdealReal

noncomputable section

namespace Gcn2

open Idealize.ShloMosaic
open scoped BigOperators

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  obtain ⟨a, rfl⟩ := hx
  exact ⟨max a 0, Cert.IdealReal.max_coe_zero a⟩

/-- A finite sum of reals is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A matrix product of real matrices is real. -/
theorem isReal_mm (X : Mat) (W : Wt) (hX : ∀ n k, IsReal (X n k)) (hW : ∀ k j, IsReal (W k j)) (n : Fin 100000) (j : Fin 64) :
    IsReal (mm X W n j) :=
  isReal_sum _ _ fun k _ => (hX n k).mul (hW k j)

variable (dis : Fin 100000 → EReal) (land : Fin 100000 → Finset (Fin 1600000)) (sr dr : Fin 1600000 → Fin 100000)

/-- The factored convolution of a real matrix with real factors and a real bias is real. -/
theorem isReal_convK (hdis : ∀ n, IsReal (dis n)) (H : Mat) (b : Chan) (hH : ∀ n j, IsReal (H n j)) (hb : ∀ j, IsReal (b j))
    (n : Fin 100000) (j : Fin 64) : IsReal (convK dis land sr H b n j) :=
  ((hdis n).mul ((isReal_zero.add (isReal_sum _ _ fun e _ => (hH (sr e) j).mul (hdis (sr e)))).add
    ((hdis n).mul (hH n j)))).add (hb j)

/-- The two arrangements of one convolution agree on real data. The bias may be anything. -/
theorem convK_eq_convR (hdis : ∀ n, IsReal (dis n)) (hdr : ∀ n, ∀ e ∈ land n, dr e = n)
    (H : Mat) (b : Chan) (hH : ∀ n j, IsReal (H n j)) :
    convK dis land sr H b = convR dis land sr dr H b := by
  choose d hd using hdis
  choose Hr hHr using hH
  funext n j
  unfold convK convR
  have e1 : ∑ e ∈ land n, H (sr e) j * (dis (sr e) * dis (dr e))
      = ((∑ e ∈ land n, Hr (sr e) j * (d (sr e) * d n) : ℝ) : EReal) :=
    Cert.IdealReal.sum_eq_coe _ _ _ fun e he => by
      rw [hdr n e he, hHr, hd, hd, ← EReal.coe_mul, ← EReal.coe_mul]
  have e2 : ∑ e ∈ land n, H (sr e) j * dis (sr e)
      = ((∑ e ∈ land n, Hr (sr e) j * d (sr e) : ℝ) : EReal) :=
    Cert.IdealReal.sum_eq_coe _ _ _ fun e _ => by
      rw [hHr, hd, ← EReal.coe_mul]
  rw [e1, e2, hd n, hHr n j, zero_add, zero_add, ← EReal.coe_mul, ← EReal.coe_add, ← EReal.coe_mul, ← EReal.coe_mul,
    ← EReal.coe_mul, ← EReal.coe_add]
  congr 2
  rw [mul_add, Finset.mul_sum]
  congr 1
  · exact Finset.sum_congr rfl fun e _ => by ring
  · ring

end Gcn2

end
-- ==== Proof.Law2.lean ====
/-
  Summing over 20 tiles of 5000 rows is summing over all 100000 rows.

  The map (t, r) ↦ 5000 t + r is a bijection from pairs (tile, row in tile) onto the row numbers below 100000, with
  inverse n ↦ (n / 5000, n % 5000). Re-indexing a sum along it turns the double sum over tiles and rows into the single
  sum over all rows, for values in any commutative additive monoid. Hence the tiled mean is the direct mean, for every
  matrix, and the tiled second moment is the direct second moment.
-/
import proofs.«154069_j67044439491163_2_alg».proof.Proof.Spec

noncomputable section

namespace Gcn2

open Idealize.ShloMosaic
open scoped BigOperators

/-- Pairs (tile, row in tile) against row numbers. -/
def tileEquiv : Fin 20 × Fin 5000 ≃ Fin 100000 where
  toFun p := tileRow p.1 p.2
  invFun n := (⟨n.val / 5000, by have := n.isLt; omega⟩, ⟨n.val % 5000, by omega⟩)
  left_inv p := by
    obtain ⟨t, r⟩ := p
    have ht := t.isLt
    have hr := r.isLt
    apply Prod.ext
    · apply Fin.ext
      show (t.val * 5000 + r.val) / 5000 = t.val
      omega
    · apply Fin.ext
      show (t.val * 5000 + r.val) % 5000 = r.val
      omega
  right_inv n := by
    apply Fin.ext
    show n.val / 5000 * 5000 + n.val % 5000 = n.val
    omega

/-- The double sum over tiles and rows is the sum over all rows. -/
theorem sum_tiles {M : Type*} [AddCommMonoid M] (f : Fin 100000 → M) :
    ∑ t : Fin 20, ∑ r : Fin 5000, f (tileRow t r) = ∑ n : Fin 100000, f n := by
  rw [← Fintype.sum_prod_type' (f := fun t r => f (tileRow t r))]
  exact Equiv.sum_comp tileEquiv f

/-- The tiled mean is the direct mean, for every matrix. -/
theorem meanK_eq_meanR (h : Mat) : meanK h = meanR h := by
  funext j
  unfold meanK meanR
  rw [sum_tiles (fun n => h n j)]

/-- The tiled second moment is the direct one. -/
theorem ex2K_eq (h : Mat) (j : Fin 64) :
    ex2K h j = Ideal.div (0 + ∑ n : Fin 100000, h n j * h n j) cN := by
  unfold ex2K
  rw [sum_tiles (fun n => h n j * h n j)]

end Gcn2

end
-- ==== Proof.Law3.lean ====
/-
  The batch statistics of a real matrix, in both arrangements.

  The word 0x47C35000 is the real 100000, the word 0x3727C5AC a positive real. Dividing a finite sum of reals by
  100000 is real division. For real f over N = 100000 rows with mean μ = (Σ f) / N,
      (Σ f²) / N − μ² = (Σ (f − μ)²) / N,
  because Σ (f − μ)² = Σ f² − 2 μ Σ f + N μ² and Σ f = N μ; and the right side is a sum of squares over a positive
  number, so it is nonnegative and cutting it at zero changes nothing. Hence the variance as second moment minus squared
  mean, cut at zero, is the mean squared deviation; both are a nonnegative real, so adding the positive offset gives a
  positive real, whose reciprocal square root is real. The normalised, scaled, shifted and rectified matrix of real
  data is real.
-/
import proofs.«154069_j67044439491163_2_alg».proof.Proof.Law1
import proofs.«154069_j67044439491163_2_alg».proof.Proof.Law2

noncomputable section

namespace Gcn2

open Idealize.ShloMosaic
open scoped BigOperators

/-- The word of 100000.0 is the real 100000. -/
theorem cN_eq : cN = ((100000 : ℝ) : EReal) := by
  simp [cN, Ideal.ofBits, Ideal.ieee, -EReal.coe_mul]; norm_num

/-- The variance offset is a positive real. -/
theorem cEps_pos : ∃ r : ℝ, 0 < r ∧ cEps = (r : EReal) := by
  refine ⟨10995116 * (2 : ℝ) ^ (-40 : ℤ), by positivity, ?_⟩
  simp [cEps, Ideal.ofBits, Ideal.ieee, -EReal.coe_mul]

/-- Second moment minus squared mean is the mean squared deviation, over the reals. -/
theorem real_var {ι : Type*} [Fintype ι] (f : ι → ℝ) (N : ℝ) (hN : (Fintype.card ι : ℝ) = N) (hpos : 0 < N) :
    (∑ i, f i * f i) / N - (∑ i, f i) / N * ((∑ i, f i) / N)
      = (∑ i, (f i - (∑ i, f i) / N) * (f i - (∑ i, f i) / N)) / N := by
  have hN0 : N ≠ 0 := hpos.ne'
  generalize hS : ∑ i, f i = S
  have e : ∀ i, (f i - S / N) * (f i - S / N) = f i * f i - 2 * (S / N) * f i + S / N * (S / N) := fun i => by ring
  simp only [e, Finset.sum_add_distrib, Finset.sum_sub_distrib, ← Finset.mul_sum, Finset.sum_const, Finset.card_univ,
    nsmul_eq_mul, hN, hS]
  field_simp
  ring

/-- The mean squared deviation is nonnegative. -/
theorem real_var_nonneg {ι : Type*} [Fintype ι] (f : ι → ℝ) (μ N : ℝ) (hpos : 0 < N) :
    0 ≤ (∑ i, (f i - μ) * (f i - μ)) / N :=
  div_nonneg (Finset.sum_nonneg fun i _ => mul_self_nonneg _) hpos.le

/-- A sum of reals over all rows, divided by the number of rows, is the real quotient. -/
theorem div_sum_coe (g : Fin 100000 → EReal) (f : Fin 100000 → ℝ) (hg : ∀ n, g n = (f n : EReal)) :
    Ideal.div (0 + ∑ n : Fin 100000, g n) cN = (((∑ n : Fin 100000, f n) / 100000 : ℝ) : EReal) := by
  rw [cN_eq, zero_add, Cert.IdealReal.sum_eq_coe _ g f fun n _ => hg n, Cert.IdealReal.div_coe (by norm_num)]

section stats

variable (h : Mat) (hr : Fin 100000 → Fin 64 → ℝ) (hh : ∀ n j, h n j = (hr n j : EReal))
include hh

/-- The direct mean of a real matrix. -/
theorem meanR_coe (j : Fin 64) : meanR h j = (((∑ n : Fin 100000, hr n j) / 100000 : ℝ) : EReal) := by
  unfold meanR
  exact div_sum_coe _ _ fun n => hh n j

/-- The direct variance of a real matrix. -/
theorem varR_coe (j : Fin 64) :
    varR h j = (((∑ n : Fin 100000, (hr n j - (∑ n : Fin 100000, hr n j) / 100000)
        * (hr n j - (∑ n : Fin 100000, hr n j) / 100000)) / 100000 : ℝ) : EReal) := by
  unfold varR
  refine div_sum_coe _ _ fun n => ?_
  rw [meanR_coe h hr hh j, hh n j, ← EReal.coe_sub, ← EReal.coe_mul]

/-- The tiled variance of a real matrix is the same real. -/
theorem varK_coe (j : Fin 64) :
    varK h j = (((∑ n : Fin 100000, (hr n j - (∑ n : Fin 100000, hr n j) / 100000)
        * (hr n j - (∑ n : Fin 100000, hr n j) / 100000)) / 100000 : ℝ) : EReal) := by
  have hcard : ((Fintype.card (Fin 100000) : ℕ) : ℝ) = 100000 := by
    rw [Fintype.card_fin]; norm_num
  have hpos : (0 : ℝ) < 100000 := by norm_num
  unfold varK
  rw [meanK_eq_meanR, meanR_coe h hr hh j, ex2K_eq,
    div_sum_coe (fun n => h n j * h n j) (fun n => hr n j * hr n j) (fun n => by rw [hh n j, ← EReal.coe_mul]),
    ← EReal.coe_mul, ← EReal.coe_sub, Cert.IdealReal.max_coe_zero,
    real_var (fun n => hr n j) 100000 hcard hpos, max_eq_left (real_var_nonneg _ _ _ hpos)]

end stats

/-- On a real matrix the two variances agree. -/
theorem varK_eq_varR (h : Mat) (hh : ∀ n j, IsReal (h n j)) : varK h = varR h := by
  choose hr hhr using hh
  funext j
  rw [varK_coe h hr hhr j, varR_coe h hr hhr j]

/-- Hence the two reciprocal standard deviations agree. -/
theorem rstdK_eq_rstdR (h : Mat) (hh : ∀ n j, IsReal (h n j)) : rstdK h = rstdR h := by
  funext j
  unfold rstdK rstdR
  rw [varK_eq_varR h hh]

/-- The mean of a real matrix is real. -/
theorem isReal_meanR (h : Mat) (hh : ∀ n j, IsReal (h n j)) (j : Fin 64) : IsReal (meanR h j) := by
  choose hr hhr using hh
  exact ⟨_, meanR_coe h hr hhr j⟩

/-- The reciprocal standard deviation of a real matrix is real: the variance is a nonnegative real, the offset a
    positive one. -/
theorem isReal_rstdR (h : Mat) (hh : ∀ n j, IsReal (h n j)) (j : Fin 64) : IsReal (rstdR h j) := by
  choose hr hhr using hh
  obtain ⟨ε, hε, hεe⟩ := cEps_pos
  have hv := real_var_nonneg (fun n => hr n j) ((∑ n : Fin 100000, hr n j) / 100000) 100000 (by norm_num)
  have hp : 0 < (∑ n : Fin 100000, (hr n j - (∑ n : Fin 100000, hr n j) / 100000)
        * (hr n j - (∑ n : Fin 100000, hr n j) / 100000)) / 100000 + ε := add_pos_of_nonneg_of_pos hv hε
  unfold rstdR
  rw [varR_coe h hr hhr j, hεe, ← EReal.coe_add, Ideal.rsqrt_coe, if_neg (not_lt.mpr hp.le), if_neg hp.ne']
  exact ⟨_, rfl⟩

/-- The normalised, scaled, shifted and rectified matrix of real data is real. -/
theorem isReal_bnrelu (h : Mat) (mean rstd gamma beta : Chan) (hh : ∀ n j, IsReal (h n j)) (hm : ∀ j, IsReal (mean j))
    (hs : ∀ j, IsReal (rstd j)) (hg : ∀ j, IsReal (gamma j)) (hb : ∀ j, IsReal (beta j)) (n : Fin 100000) (j : Fin 64) :
    IsReal (bnrelu h mean rstd gamma beta n j) :=
  (((((hh n j).sub (hm j)).mul (hs j)).mul (hg j)).add (hb j)).max_zero

end Gcn2

end
-- ==== Proof.Law.lean ====
/-
  Two layers of graph convolution around a batch normalisation and a rectifier: the factored arrangement with tiled
  statistics equals the per-edge arrangement with direct statistics, on real data.

  Layer one agrees in the two arrangements because its input, a product of real matrices, is real. Its output is real,
  so the tiled mean is the direct mean (for any matrix), the two variances agree, and with them the reciprocal standard
  deviations. The normalised matrix is then the same in both and real, so its product with the second weight matrix is
  real and layer two agrees too.
-/
import proofs.«154069_j67044439491163_2_alg».proof.Proof.Law3

noncomputable section

namespace Gcn2

open Idealize.ShloMosaic
open scoped BigOperators

theorem out_law (dis : Fin 100000 → EReal) (land : Fin 100000 → Finset (Fin 1600000)) (sr dr : Fin 1600000 → Fin 100000)
    (hdis : ∀ n, IsReal (dis n)) (hdr : ∀ n, ∀ e ∈ land n, dr e = n)
    (x : Mat) (W1 : Wt) (b1 gamma beta : Chan) (W2 : Wt) (b2 : Chan)
    (hx : ∀ n k, IsReal (x n k)) (hW1 : ∀ k j, IsReal (W1 k j)) (hb1 : ∀ j, IsReal (b1 j)) (hgamma : ∀ j, IsReal (gamma j))
    (hbeta : ∀ j, IsReal (beta j)) (hW2 : ∀ k j, IsReal (W2 k j)) (hb2 : ∀ j, IsReal (b2 j)) :
    outK dis land sr x W1 b1 gamma beta W2 b2 = outR dis land sr dr x W1 b1 gamma beta W2 b2 := by
  have h1 : convK dis land sr (mm x W1) b1 = convR dis land sr dr (mm x W1) b1 :=
    convK_eq_convR dis land sr dr hdis hdr _ _ (isReal_mm x W1 hx hW1)
  have hreal : ∀ n j, IsReal (convK dis land sr (mm x W1) b1 n j) :=
    isReal_convK dis land sr hdis _ _ (isReal_mm x W1 hx hW1) hb1
  have hbn : ∀ n j, IsReal (bnrelu (convK dis land sr (mm x W1) b1) (meanR (convK dis land sr (mm x W1) b1))
      (rstdR (convK dis land sr (mm x W1) b1)) gamma beta n j) :=
    isReal_bnrelu _ _ _ _ _ hreal (isReal_meanR _ hreal) (isReal_rstdR _ hreal) hgamma hbeta
  unfold outK outR
  rw [meanK_eq_meanR, rstdK_eq_rstdR _ hreal,
    convK_eq_convR dis land sr dr hdis hdr _ b2 (isReal_mm _ W2 hbn hW2), h1]

end Gcn2

end
-- ==== Proof.Finite.lean ====
/-
  The inputs are finite: the precondition says that every float argument has |x| < +∞ at every entry, and an extended
  real whose absolute value max x (−x) is below +∞ is neither +∞ nor −∞, so it is a real number.

  The precondition is a conjunction (a chain of `and`s of one-bit words) of seven "all entries" tests, one per float
  argument; each test is a reduction by `and` of the entrywise comparison |x| < c with c the word 0x7F800000, which
  denotes +∞. A reduction by `and` that is 1 had a 1 at every entry.
-/
import proofs.«154069_j67044439491163_2_alg».proof.Defs
import proofs.«154069_j67044439491163_2_alg».proof.Proof.Spec
import Idealize.ShloMosaic.Lib.ReduceAll
import Idealize.ShloMosaic.Lib.ValueIdx

noncomputable section

namespace Cert.KSide

open Idealize.ShloMosaic Idealize.SL.Sem

instance : Subsingleton Cert.Pre_finite_inputs.S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real with |a| < +∞ is a real. -/
theorem real_of_abs_lt (a : EReal)
    (h : Ideal.cmp .olt (max a (-a)) (Ideal.ofBits .f32 0x7F800000#32) = 1#1) : Gcn2.IsReal a := by
  rw [ofBits_inf] at h
  induction a using EReal.rec with
  | bot => simp [Ideal.cmp] at h
  | coe r => exact ⟨r, rfl⟩
  | top => simp [Ideal.cmp] at h

/-- "All entries have |x| < +∞" makes every entry real, for an array of any shape. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) :
    Gcn2.IsReal (x i) :=
  real_of_abs_lt (x i) (Host.reduce_andi_all _ _ hr hu _ e i)

theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Gcn2.IsReal ((m ((c.tc : Thread Cert.KernelIdeal.nD Cert.KernelIdeal.τ).loc Cert.KernelIdeal.main_arg0) : Cert.KernelIdeal.S100000x64.Idx → EReal) i))
    ∧ (∀ i, Gcn2.IsReal ((m ((c.tc : Thread Cert.KernelIdeal.nD Cert.KernelIdeal.τ).loc Cert.KernelIdeal.main_arg2) : Cert.KernelIdeal.S64x64.Idx → EReal) i))
    ∧ (∀ i, Gcn2.IsReal ((m ((c.tc : Thread Cert.KernelIdeal.nD Cert.KernelIdeal.τ).loc Cert.KernelIdeal.main_arg3) : Cert.KernelIdeal.S64.Idx → EReal) i))
    ∧ (∀ i, Gcn2.IsReal ((m ((c.tc : Thread Cert.KernelIdeal.nD Cert.KernelIdeal.τ).loc Cert.KernelIdeal.main_arg4) : Cert.KernelIdeal.S64.Idx → EReal) i))
    ∧ (∀ i, Gcn2.IsReal ((m ((c.tc : Thread Cert.KernelIdeal.nD Cert.KernelIdeal.τ).loc Cert.KernelIdeal.main_arg5) : Cert.KernelIdeal.S64.Idx → EReal) i))
    ∧ (∀ i, Gcn2.IsReal ((m ((c.tc : Thread Cert.KernelIdeal.nD Cert.KernelIdeal.τ).loc Cert.KernelIdeal.main_arg6) : Cert.KernelIdeal.S64x64.Idx → EReal) i))
    ∧ (∀ i, Gcn2.IsReal ((m ((c.tc : Thread Cert.KernelIdeal.nD Cert.KernelIdeal.τ).loc Cert.KernelIdeal.main_arg7) : Cert.KernelIdeal.S64.Idx → EReal) i)) := by
  have h0 := congrFun (h c) ValueIdx.ix0
  dsimp only [Cert.Pre_finite_inputs.fn, Cert.Pre_finite_inputs.fn_part1] at h0
  obtain ⟨h6, e7⟩ := IntOp.andi_eq_one.1 h0
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨real_of_all _ _ _ _ e0, real_of_all _ _ _ _ e2, real_of_all _ _ _ _ e3, real_of_all _ _ _ _ e4,
    real_of_all _ _ _ _ e5, real_of_all _ _ _ _ e6, real_of_all _ _ _ _ e7⟩

end Cert.KSide

end
-- ==== Proof.KValue.lean ====
/-
  The kernel program's result is the reference's. At the last boundary the result array is the fourth region's combine of
  the second layer's product, its aggregation along the edges, the nodes' factors and the second bias; unfolding every
  stage entry by entry gives the factored arrangement with tiled statistics; with every input finite that equals the
  per-edge arrangement with direct statistics, which is what the reference's own operations compute.
-/
import proofs.«154069_j67044439491163_2_alg».proof.Defs
import proofs.«154069_j67044439491163_2_alg».proof.Proof.KHost3
import proofs.«154069_j67044439491163_2_alg».proof.Proof.KChain
import proofs.«154069_j67044439491163_2_alg».proof.Proof.KAgg
import proofs.«154069_j67044439491163_2_alg».proof.Proof.KStat
import proofs.«154069_j67044439491163_2_alg».proof.Proof.RefEntry
import proofs.«154069_j67044439491163_2_alg».proof.Proof.Law
import proofs.«154069_j67044439491163_2_alg».proof.Proof.Finite

set_option maxRecDepth 16384

noncomputable section

namespace Cert.KSide

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- The result array at the last boundary, entry by entry, in the factored arrangement. -/
theorem out_entry (c : Dev nD) (n : Fin 100000) (j : Fin 64) :
    (W8 m ρ c (Proc.devRef .tc main_v56) : S100000x64.Idx → EReal) (ix2 n j)
      = Gcn2.outK (Cert.RefSide.disR (m ((c : Thread nD τ).loc main_arg1))) (Cert.RefSide.landR (m ((c : Thread nD τ).loc main_arg1))) (Cert.RefSide.srR (m ((c : Thread nD τ).loc main_arg1)))
          (matOf (m ((c : Thread nD τ).loc main_arg0))) (wtOf (m ((c : Thread nD τ).loc main_arg2))) (chanOf (m ((c : Thread nD τ).loc main_arg3))) (chanOf (m ((c : Thread nD τ).loc main_arg4))) (chanOf (m ((c : Thread nD τ).loc main_arg5))) (wtOf (m ((c : Thread nD τ).loc main_arg6))) (chanOf (m ((c : Thread nD τ).loc main_arg7))) n j := by
  rw [W8_v56 m ρ c]
  have h := chain (Cert.RefSide.disR (m ((c : Thread nD τ).loc main_arg1))) (Cert.RefSide.landR (m ((c : Thread nD τ).loc main_arg1))) (Cert.RefSide.srR (m ((c : Thread nD τ).loc main_arg1)))
    (m ((c : Thread nD τ).loc main_arg0)) (m ((c : Thread nD τ).loc main_arg2)) (m ((c : Thread nD τ).loc main_arg6)) (m ((c : Thread nD τ).loc main_arg3)) (m ((c : Thread nD τ).loc main_arg4)) (m ((c : Thread nD τ).loc main_arg5)) (m ((c : Thread nD τ).loc main_arg7))
    (Dcol (m ((c : Thread nD τ).loc main_arg1)))
    (aggTerm (Gmms (m ((c : Thread nD τ).loc main_arg0)) (m ((c : Thread nD τ).loc main_arg2)) (Dcol (m ((c : Thread nD τ).loc main_arg1)))) (m ((c : Thread nD τ).loc main_arg1)))
    (aggTerm (Gbns (Hk (m ((c : Thread nD τ).loc main_arg0)) (m ((c : Thread nD τ).loc main_arg1)) (m ((c : Thread nD τ).loc main_arg2)) (m ((c : Thread nD τ).loc main_arg3))) (muTerm (SUMk (m ((c : Thread nD τ).loc main_arg0)) (m ((c : Thread nD τ).loc main_arg1)) (m ((c : Thread nD τ).loc main_arg2)) (m ((c : Thread nD τ).loc main_arg3))))
      (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3))))
      (shapeCast S1x64 (m ((c : Thread nD τ).loc main_arg4)) shapeCasts_S64_S1x64) (shapeCast S1x64 (m ((c : Thread nD τ).loc main_arg5)) shapeCasts_S64_S1x64) (m ((c : Thread nD τ).loc main_arg6)) (Dcol (m ((c : Thread nD τ).loc main_arg1)))) (m ((c : Thread nD τ).loc main_arg1)))
    (shapeCast S1x64 (m ((c : Thread nD τ).loc main_arg3)) shapeCasts_S64_S1x64) (shapeCast S1x64 (m ((c : Thread nD τ).loc main_arg7)) shapeCasts_S64_S1x64)
    (muTerm (SUMk (m ((c : Thread nD τ).loc main_arg0)) (m ((c : Thread nD τ).loc main_arg1)) (m ((c : Thread nD τ).loc main_arg2)) (m ((c : Thread nD τ).loc main_arg3))))
    (rsTerm (SUMk (m ((c : Thread nD τ).loc main_arg0)) (m ((c : Thread nD τ).loc main_arg1)) (m ((c : Thread nD τ).loc main_arg2)) (m ((c : Thread nD τ).loc main_arg3))) (SQk (m ((c : Thread nD τ).loc main_arg0)) (m ((c : Thread nD τ).loc main_arg1)) (m ((c : Thread nD τ).loc main_arg2)) (m ((c : Thread nD τ).loc main_arg3))))
    (shapeCast S1x64 (m ((c : Thread nD τ).loc main_arg4)) shapeCasts_S64_S1x64) (shapeCast S1x64 (m ((c : Thread nD τ).loc main_arg5)) shapeCasts_S64_S1x64)
    (fun n => Dcol_apply _ n) (fun n j => agg_entry _ _ n j) (fun j => rowCast_apply _ j)
    (fun j => muTerm_apply _ j) (fun j => rsTerm_apply _ _ j) (fun j => rowCast_apply _ j) (fun j => rowCast_apply _ j)
    (fun n j => agg_entry _ _ n j) (fun j => rowCast_apply _ j)
  exact (congrFun h (ix2 n j)).trans (arr2_ix2 _ n j)

/-- With finite inputs the kernel's result array is the reference's result term of the same arguments. -/
theorem kernel_value [hPre : Cert.Pre_finite_inputs.Facts] (hpre : Cert.Pre_KernelIdeal m) (c : Dev nD) :
    (W8 m ρ c (Proc.devRef .tc main_v56) : S100000x64.Idx → EReal)
      = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨n, j, rfl⟩ : ∃ (n : Fin 100000) (j : Fin 64), i = ix2 n j := ⟨i 0, i 1, eq_ix2 i⟩
  obtain ⟨f0, f2, f3, f4, f5, f6, f7⟩ := finite_of_pre m hpre c
  rw [out_entry m ρ c n j, Cert.RefSide.ref_entry]
  exact congrFun (congrFun (Gcn2.out_law (Cert.RefSide.disR (m ((c : Thread nD τ).loc main_arg1))) (Cert.RefSide.landR (m ((c : Thread nD τ).loc main_arg1))) (Cert.RefSide.srR (m ((c : Thread nD τ).loc main_arg1)))
    (Cert.RefSide.drR (m ((c : Thread nD τ).loc main_arg1))) (fun n => Cert.RefSide.disR_real _ n) (fun n => Cert.RefSide.drR_of_land _ n)
    (matOf (m ((c : Thread nD τ).loc main_arg0))) (wtOf (m ((c : Thread nD τ).loc main_arg2))) (chanOf (m ((c : Thread nD τ).loc main_arg3))) (chanOf (m ((c : Thread nD τ).loc main_arg4))) (chanOf (m ((c : Thread nD τ).loc main_arg5))) (wtOf (m ((c : Thread nD τ).loc main_arg6))) (chanOf (m ((c : Thread nD τ).loc main_arg7)))
    (fun n k => f0 (ix2 n k)) (fun k j => f2 (ix2 k j)) (fun j => f3 (ix1 j)) (fun j => f4 (ix1 j)) (fun j => f5 (ix1 j))
    (fun k j => f6 (ix2 k j)) (fun j => f7 (ix1 j))) n) j

end Cert.KSide

end
-- ==== Proof.lean ====
/-
  Two graph-convolution layers with batch normalisation and a rectifier between them: a kernel program of four tiled
  regions (matrix product with per-node scaling; self-loop combine with per-tile batch statistics; normalise, rectify and
  second product; final combine) among host gathers and scatter-adds, against the plain per-edge formulation.

  The three frames are the generated ones (the reference's is its generated run with the result dropped). The idealized
  kernel program is the kernel program's own text read on the extended reals, so that conjunct is trivial. For the
  equivalence on the extended reals: the kernel
  program's run names its result array at the last boundary of its fold of host stretches and regions; that array is,
  entry by entry, the factored arrangement dis·(Σ_edges (h·dis)[src] + dis·h) + b with the statistics taken from per-tile
  sums; the reference's run gives the per-edge arrangement Σ_edges h[src]·(dis[src]·dis[dst]) + h·dis² + b with direct
  statistics. With every input finite every intermediate is a real number, where a real factor moves into a finite sum,
  the tiled sums re-index to the full sums, and second moment minus squared mean is the (nonnegative) mean squared
  deviation; so the two results agree.
-/
import proofs.«154069_j67044439491163_2_alg».proof.Defs
import proofs.«154069_j67044439491163_2_alg».proof.Proof.Gen.Kernel
import proofs.«154069_j67044439491163_2_alg».proof.Proof.Gen.Kernel.Frame
import proofs.«154069_j67044439491163_2_alg».proof.Proof.Gen.KernelIdeal
import proofs.«154069_j67044439491163_2_alg».proof.Proof.Gen.KernelIdeal.Frame
import proofs.«154069_j67044439491163_2_alg».proof.Proof.Gen.ReferenceIdeal
import proofs.«154069_j67044439491163_2_alg».proof.Proof.Gen.Pre_finite_inputs
import proofs.«154069_j67044439491163_2_alg».proof.Proof.Gen.ReferenceIdeal.Read
import proofs.«154069_j67044439491163_2_alg».proof.Proof.KRun
import proofs.«154069_j67044439491163_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: nothing to restate. -/
theorem preserves : Cert.preserves_Kernel_KernelIdeal := trivial

/-- Both programs end, from memories agreeing on the arguments, with the same result array: the reference's result term
    of the arguments. -/
theorem algebraic : Cert.algebraic_KernelIdeal_ReferenceIdeal := by
  intro m ρ m' ρ' hpre hagree
  refine ⟨fun c => Cert.ReferenceIdeal.Read.val_main_v110 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KSide.kernel_value m ρ hpre c), (h c).2⟩) (Cert.KSide.run_out m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v110_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
